-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg7 : FVec F S16 .f32) (main_arg8 : FVec F S16x16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg8
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  main_v43

def fn_part1 {F : FTy → Type} [FloatOps F] (main_arg4 : FVec F S16x16 .f32) (main_arg5 : FVec F S16 .f32) (main_arg6 : FVec F S16x16 .f32) (main_arg7 : FVec F S16 .f32) (main_arg8 : FVec F S16x16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) (main_arg6 : FVec F S16x16 .f32) (main_arg7 : FVec F S16 .f32) (main_arg8 : FVec F S16x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S16x48 : Shape := ⟨2, ![16, 48]⟩
abbrev S10000x16 : Shape := ⟨2, ![10000, 16]⟩
abbrev S400x10000 : Shape := ⟨2, ![400, 10000]⟩
abbrev S400x16 : Shape := ⟨2, ![400, 16]⟩
abbrev S400x48 : Shape := ⟨2, ![400, 48]⟩
abbrev S1250x128 : Shape := ⟨2, ![1250, 128]⟩
abbrev S1x1250x128 : Shape := ⟨3, ![1, 1250, 128]⟩
abbrev S1 : Shape := ⟨1, ![1]⟩
abbrev S1x1x1 : Shape := ⟨3, ![1, 1, 1]⟩
abbrev S400 : Shape := ⟨1, ![400]⟩
abbrev S400x1 : Shape := ⟨2, ![400, 1]⟩

abbrev nBuf : Space → Nat
  | .hbm => 22
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S1x16, .f32⟩
  | .hbm, ⟨10, _⟩ => ⟨S1x16, .f32⟩
  | .hbm, ⟨11, _⟩ => ⟨S1x16, .f32⟩
  | .hbm, ⟨12, _⟩ => ⟨S16x16, .f32⟩
  | .hbm, ⟨13, _⟩ => ⟨S16x48, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S1250x128, .f32⟩
  | .hbm, ⟨19, _⟩ => ⟨S1250x128, .f32⟩
  | .hbm, ⟨20, _⟩ => ⟨S10000x16, .f32⟩
  | .hbm, ⟨21, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S10000x16, .f32⟩
  | .local _ .vmem, ⟨3, _⟩ => ⟨S10000x16, .f32⟩
  | .local _ .vmem, ⟨4, _⟩ => ⟨S1x16, .f32⟩
  | .local _ .vmem, ⟨5, _⟩ => ⟨S16x48, .f32⟩
  | .local _ .vmem, ⟨6, _⟩ => ⟨S1x16, .f32⟩
  | .local _ .vmem, ⟨7, _⟩ => ⟨S400x10000, .f32⟩
  | .local _ .vmem, ⟨8, _⟩ => ⟨S400x10000, .f32⟩
  | .local _ .vmem, ⟨9, _⟩ => ⟨S400x16, .f32⟩
  | .local _ .vmem, ⟨10, _⟩ => ⟨S400x16, .f32⟩
  | .local _ .vmem, ⟨11, _⟩ => ⟨S400x16, .f32⟩
  | .local _ .vmem, ⟨12, _⟩ => ⟨S400x16, .f32⟩
  | .local _ .vmem, ⟨13, _⟩ => ⟨S400x16, .f32⟩
  | .local _ .vmem, ⟨14, _⟩ => ⟨S400x16, .f32⟩
  | .local _ .vmem, ⟨15, _⟩ => ⟨S1250x128, .f32⟩
  | .local _ .vmem, ⟨16, _⟩ => ⟨S1250x128, .f32⟩
  | .local _ .vmem, ⟨17, _⟩ => ⟨S10000x16, .f32⟩
  | .local _ .vmem, ⟨18, _⟩ => ⟨S1x16, .f32⟩
  | .local _ .vmem, ⟨19, _⟩ => ⟨S400x10000, .f32⟩
  | .local _ .vmem, ⟨20, _⟩ => ⟨S400x10000, .f32⟩
  | .local _ .vmem, ⟨21, _⟩ => ⟨S400x16, .f32⟩
  | .local _ .vmem, ⟨22, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg1_0 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8
abbrev cc1_sem5_0 : DmaSem sig := 9
abbrev cc1_sem5_1 : DmaSem sig := 10
abbrev cc1_sem6_0 : DmaSem sig := 11
abbrev cc1_sem6_1 : DmaSem sig := 12
abbrev cc1_sem7_0 : DmaSem sig := 13
abbrev cc1_sem7_1 : DmaSem sig := 14
abbrev cc2_sem0_0 : DmaSem sig := 15
abbrev cc2_sem1_0 : DmaSem sig := 16
abbrev cc3_sem0_0 : DmaSem sig := 17
abbrev cc3_sem1_0 : DmaSem sig := 18
abbrev cc3_sem2_0 : DmaSem sig := 19
abbrev cc3_sem2_1 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x10000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := .none

abbrev stage2_0 : Fin 1 → Memref sig .tc .vmem S1250x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1250x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S10000x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S16_S1x16 : S16.ShapeCasts S1x16
  transposes_S16x16_S16x16_1_0 : S16x16.Transposes [1, 0] S16x16
  concatenates_S16x16_S16x16_S16x16_S16x48_d1 : Shape.Concatenates [S16x16, S16x16, S16x16] S16x48 1
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  inb_S400x10000_S400x10000_0_0 : ∀ a, (![0, 0] : Fin 2 → Nat) a + S400x10000.size a ≤ S400x10000.size a
  h_S400x10000 : 0 < S400x10000.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x48_S16x48_0_0 : ∀ a, (![0, 0] : Fin 2 → Nat) a + S16x48.size a ≤ S16x48.size a
  h_S16x48 : 0 < S16x48.numel
  shapeCasts_S16x48_S16x48 : S16x48.ShapeCasts S16x48
  slices_S400x48_o0_0_S400x16 : S400x48.Slices ![0, 0] S400x16
  inb_S400x16_S400x16_0_0 : ∀ a, (![0, 0] : Fin 2 → Nat) a + S400x16.size a ≤ S400x16.size a
  h_S400x16 : 0 < S400x16.numel
  slices_S400x48_o0_16_S400x16 : S400x48.Slices ![0, 16] S400x16
  slices_S400x48_o0_32_S400x16 : S400x48.Slices ![0, 32] S400x16
  shapeCasts_S10000x16_S1250x128 : S10000x16.ShapeCasts S1250x128
  inb_S1250x128_S1250x128_0_0 : ∀ a, (![0, 0] : Fin 2 → Nat) a + S1250x128.size a ≤ S1250x128.size a
  h_S1250x128 : 0 < S1250x128.numel
  shapeCasts_S1250x128_S1250x128 : S1250x128.ShapeCasts S1250x128
  shapeCasts_S1250x128_S1x1250x128 : S1250x128.ShapeCasts S1x1250x128
  reduces_S1x1250x128_S1 : S1x1250x128.Reduces [1, 2] S1
  shapeCasts_S1_S1x1x1 : S1.ShapeCasts S1x1x1
  inpos_S1x1x1_p0_0_0 : ∀ a, (![0, 0, 0] : Fin 3 → Nat) a < S1x1x1.size a
  reduces_S400x16_S400 : S400x16.Reduces [1] S400
  shapeCasts_S400_S400x1 : S400.ShapeCasts S400x1
  broadcasts_S400x1_S400x16 : S400x1.Broadcasts S400x16
  shapeCasts_S1250x128_S10000x16 : S1250x128.ShapeCasts S10000x16
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x48_S400x48_1_0_0_1_n_n_wf : DotDims.WF S400x16 S16x48 S400x48 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S10000x16.size a
  hwx1_0 : ∀ i : grid1.Coords, EltTy.bits .f32 = 32 ∨ (Rect.block (s := S10000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x48.size a ≤ S16x48.size a
  hwx1_2 : ∀ i : grid1.Coords, EltTy.bits .f32 = 32 ∨ (Rect.block (s := S16x48) S16x48.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x10000.size a ≤ S10000x10000.size a
  hwx1_4 : ∀ i : grid1.Coords, EltTy.bits .f32 = 32 ∨ (Rect.block (s := S10000x10000) S400x10000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x16.size a ≤ S10000x16.size a
  hwx1_5 : ∀ i : grid1.Coords, EltTy.bits .f32 = 32 ∨ (Rect.block (s := S10000x16) S400x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x16.size a ≤ S10000x16.size a
  hwx1_6 : ∀ i : grid1.Coords, EltTy.bits .f32 = 32 ∨ (Rect.block (s := S10000x16) S400x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x16.size a ≤ S10000x16.size a
  hwx1_7 : ∀ i : grid1.Coords, EltTy.bits .f32 = 32 ∨ (Rect.block (s := S10000x16) S400x16.size (cc1_transform_7 i) (hinb1_7 i)).WholeWords (EltTy.packing .f32)
  hstage2_0 : ∀ j, (stage2_0 j).IsWhole
  hstage2_1 : ∀ j, (stage2_1 j).IsWhole
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S10000x16.size a
  hwx3_0 : ∀ i : grid3.Coords, EltTy.bits .f32 = 32 ∨ (Rect.block (s := S10000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x16.size a ≤ S10000x16.size a
  hwx3_3 : ∀ i : grid3.Coords, EltTy.bits .f32 = 32 ∨ (Rect.block (s := S10000x16) S400x16.size (cc3_transform_3 i) (hinb3_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x48_S400x48_1_0_0_1_n_n : DotDims S400x16 S16x48 S400x48 where
  lhsContracting := [1]
  rhsContracting := [0]
  lhsNonContracting := [0]
  rhsNonContracting := [1]
  lhsBatch := []
  rhsBatch := []
  wf := dot_S400x16_S16x48_S400x48_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v5) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S10000x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S16x48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S400x10000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_0) S400x16.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_1) S400x16.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6_2) S400x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.whole (Memref.whole main_v7) false false (stage2_0 0) (sem2_0 0) (Memref.isWhole_whole _) (hstage2_0 0)

abbrev win2_1 : Pipeline.Window sig grid2 :=
  Pipeline.Window.whole (Memref.whole main_v8) true false (stage2_1 0) (sem2_1 0) (Memref.isWhole_whole _) (hstage2_1 0)

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v6_2) S10000x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S400x10000.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S400x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S160000 : Shape := ⟨1, ![160000]⟩
abbrev S1 : Shape := ⟨1, ![1]⟩
abbrev S10000 : Shape := ⟨1, ![10000]⟩
abbrev S10000x1 : Shape := ⟨2, ![10000, 1]⟩

abbrev nBuf : Space → Nat
  | .hbm => 58
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S10000x16, .f32⟩
  | .hbm, ⟨10, _⟩ => ⟨S10000x16, .f32⟩
  | .hbm, ⟨11, _⟩ => ⟨S1x16, .f32⟩
  | .hbm, ⟨12, _⟩ => ⟨S10000x16, .f32⟩
  | .hbm, ⟨13, _⟩ => ⟨S10000x16, .f32⟩
  | .hbm, ⟨14, _⟩ => ⟨S_, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S10000x16, .f32⟩
  | .hbm, ⟨19, _⟩ => ⟨S1x16, .f32⟩
  | .hbm, ⟨20, _⟩ => ⟨S10000x16, .f32⟩
  | .hbm, ⟨21, _⟩ => ⟨S10000x16, .f32⟩
  | .hbm, ⟨22, _⟩ => ⟨S16x16, .f32⟩
  | .hbm, ⟨23, _⟩ => ⟨S10000x16, .f32⟩
  | .hbm, ⟨24, _⟩ => ⟨S1x16, .f32⟩
  | .hbm, ⟨25, _⟩ => ⟨S10000x16, .f32⟩
  | .hbm, ⟨26, _⟩ => ⟨S10000x16, .f32⟩
  | .hbm, ⟨27, _⟩ => ⟨S10000x16, .f32⟩
  | .hbm, ⟨28, _⟩ => ⟨S160000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S160000, .f32⟩
  | .hbm, ⟨35, _⟩ => ⟨S160000, .f32⟩
  | .hbm, ⟨36, _⟩ => ⟨S160000, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S160000, .f32⟩
  | .hbm, ⟨41, _⟩ => ⟨S160000, .f32⟩
  | .hbm, ⟨42, _⟩ => ⟨S10000x16, .f32⟩
  | .hbm, ⟨43, _⟩ => ⟨S_, .f32⟩
  | .hbm, ⟨44, _⟩ => ⟨S10000, .f32⟩
  | .hbm, ⟨45, _⟩ => ⟨S_, .f32⟩
  | .hbm, ⟨46, _⟩ => ⟨S10000, .f32⟩
  | .hbm, ⟨47, _⟩ => ⟨S10000, .f32⟩
  | .hbm, ⟨48, _⟩ => ⟨S10000x1, .f32⟩
  | .hbm, ⟨49, _⟩ => ⟨S10000x16, .f32⟩
  | .hbm, ⟨50, _⟩ => ⟨S10000x16, .f32⟩
  | .hbm, ⟨51, _⟩ => ⟨S10000x16, .f32⟩
  | .hbm, ⟨52, _⟩ => ⟨S_, .f32⟩
  | .hbm, ⟨53, _⟩ => ⟨S10000, .f32⟩
  | .hbm, ⟨54, _⟩ => ⟨S10000x1, .f32⟩
  | .hbm, ⟨55, _⟩ => ⟨S10000x1, .f32⟩
  | .hbm, ⟨56, _⟩ => ⟨S10000x16, .f32⟩
  | .hbm, ⟨57, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_call1_cst_0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_cst_1 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_v29 : Ref sig .tc := ⟨.hbm, 57, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  transposes_S16x16_S16x16_1_0 : S16x16.Transposes [1, 0] S16x16
  shapeCasts_S10000x16_S160000 : S10000x16.ShapeCasts S160000
  reducesTo_S160000_S_d0 : S160000.ReducesTo [0] S_
  h_S_ : 0 < S_.numel
  bcast_S_S1 : S_.BroadcastsInDim S1 (![] : Fin 0 → Fin S1.rank)
  bcast_S1_S160000_0 : S1.BroadcastsInDim S160000 (![0] : Fin 1 → Fin S160000.rank)
  shapeCasts_S160000_S10000x16 : S160000.ShapeCasts S10000x16
  reducesTo_S10000x16_S10000_d1 : S10000x16.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.Kernel.SupportBody.lean ====
/-
  The first pallas_call: the support product s = x · W1, one grid point, the three arrays staged whole.
  What the one store leaves in the output's staging buffer is the matrix product of the two input blocks into a zero
  accumulator; the body's triple is run symbolically, and the pipeline's proof data say that every input buffer holds its
  block and the output buffer that product.
-/
import proofs.«107558_g86887188398718_cont_9to1c4b_243_24_alg».proof.Proof.Gen.Kernel.Launch
import proofs.«107558_g86887188398718_cont_9to1c4b_243_24_alg».proof.Proof.Gen.Kernel.Skeleton
import proofs.«107558_g86887188398718_cont_9to1c4b_243_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pallas_call is entered
variable (V : (c : Dev nD) → (b : Ref sig .tc) → Buf (Elt F) ((c : Thread nD τ).loc b))

/-! ## The windows' blocks -/

/-- Window `w`'s block at grid point `t`, read off the array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of x holds x's block at the point, whether or not it was fetched there. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The staging buffer of W1 holds W1's block at the point. -/
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each buffer whole -/

abbrev wholeX : Rect S10000x128 := Rect.unit (s := S10000x128) ![0, 0] S10000x128.size inb_S10000x128_S10000x128_0_0
abbrev wholeW1 : Rect S128x16 := Rect.unit (s := S128x16) ![0, 0] S128x16.size inb_S128x16_S128x16_0_0
abbrev wholeS : Rect S10000x16 := Rect.unit (s := S10000x16) ![0, 0] S10000x16.size inb_S10000x16_S10000x16_0_0

/-- What the body leaves in the output's staging buffer: its one store, the product of the two loaded blocks. -/
def support (x0 : Vec F S10000x128 .f32) (x1 : Vec F S128x16 .f32) : Vec F S10000x16 .f32 :=
  View.canon [⟨wholeS, k0_pay1 (View.ld x0 wholeX) (View.ld x1 wholeW1)⟩]

/-- The one store covers the buffer. -/
theorem support_cover (p0 : Vec F S10000x16 .f32) (y : S10000x16.Idx) :
    ∃ pc ∈ ([⟨wholeS, p0⟩] : List (View.Piece (Elt F) S10000x16 .f32)), y ∈ pc.1.set :=
  View.cover_of_tiled [⟨wholeS, p0⟩] S10000x16.size (by rfl) y

/-! ## The body's triple -/

set_option maxHeartbeats 1000000 in
/-- On whole staging memrefs, the inputs' at contents `x0`, `x1` and the output's at anything, the body runs to a state
    with the inputs' as they were and the output's at `support x0 x1`. -/
theorem run_body0 (c : Dev nD) (E : Set ℕ) (arg0 : Memref sig .tc .vmem S10000x128 .f32) (harg0 : arg0.IsWhole)
    (arg1 : Memref sig .tc .vmem S128x16 .f32) (harg1 : arg1.IsWhole) (arg2 : Memref sig .tc .vmem S10000x16 .f32) (harg2 : arg2.IsWhole)
    (x0 : Vec F S10000x128 .f32) (x1 : Vec F S128x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (support x0 x1)) -∗ K ⟨⟩))
      ⊢ wp frame (wpE (defs₀ (F := F)) Variants.none c none) E (cc0__mk_s arg0 harg0 arg1 harg1 arg2 harg2) K := by
  simp only [cc0__mk_s_eq_skeleton]; unfold cc0__mk_s_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (support_cover _)

/-! ## The pipeline's proof data -/

/-- Pipeline 0 on core `c`: the arrays as the call finds them; after the body each input's buffer at its block, the
    output's at the product of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => support (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = support (blk0 V c 0 t) (blk0 V c 1 t) := by dsimp only [dat0]

theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (run_body0 c Set.univ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem obligation0 (c : Dev nD) : BodyObligation (dat0 (F := F) V c) (defs₀ (F := F)) Variants.none () Set.univ := fun t => by
  rw [bigSep_W0, bigSep_W0]
  exact body0 V c t

end Cert.Kernel.Body

end
-- ==== Proof.Kernel.StreamABody.lean ====
/-
  The second pallas_call, the first stream over the adjacency matrix: at each of 25 grid points a block of 400 rows of
  adj is multiplied into the whole support s, the bias row b1 is added and the result clamped below at zero (the hidden
  block h); h is multiplied into the 16×48 matrix [att | Weᵀ | W2], and the three 16-column bands of that product are
  stored: the attention logits, the encoder output (its band plus the bias row be) and the block of m = h · W2.
  Each store goes through its buffer's whole rectangle, so each output buffer ends at its band's value.
-/
import proofs.«107558_g86887188398718_cont_9to1c4b_243_24_alg».proof.Proof.Gen.Kernel.Launch
import proofs.«107558_g86887188398718_cont_9to1c4b_243_24_alg».proof.Proof.Gen.Kernel.Skeleton
import proofs.«107558_g86887188398718_cont_9to1c4b_243_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pallas_call is entered
variable (V : (c : Dev nD) → (b : Ref sig .tc) → Buf (Elt F) ((c : Thread nD τ).loc b))

/-! ## The windows' blocks -/

/-- Window `w`'s block at grid point `t`, read off the array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of the support s holds its block at every point, fetched there or not (unfetched, the block index has not moved). -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The staging buffer of the bias row b1 holds its block at every point, fetched there or not (unfetched, the block index has not moved). -/
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The staging buffer of the concatenated weights holds its block at every point, fetched there or not (unfetched, the block index has not moved). -/
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The staging buffer of the bias row be holds its block at every point, fetched there or not (unfetched, the block index has not moved). -/
theorem held1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The staging buffer of the block of adj holds its block at every point, fetched there or not (unfetched, the block index has not moved). -/
theorem held1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each staging buffer whole -/

abbrev whole1_S10000x16 : Rect S10000x16 := Rect.unit (s := S10000x16) ![0, 0] S10000x16.size inb_S10000x16_S10000x16_0_0
abbrev whole1_S1x16 : Rect S1x16 := Rect.unit (s := S1x16) ![0, 0] S1x16.size inb_S1x16_S1x16_0_0
abbrev whole1_S16x48 : Rect S16x48 := Rect.unit (s := S16x48) ![0, 0] S16x48.size inb_S16x48_S16x48_0_0
abbrev whole1_S400x10000 : Rect S400x10000 := Rect.unit (s := S400x10000) ![0, 0] S400x10000.size inb_S400x10000_S400x10000_0_0
abbrev whole1_S400x16 : Rect S400x16 := Rect.unit (s := S400x16) ![0, 0] S400x16.size inb_S400x16_S400x16_0_0

/-! ## What the body leaves in each output's staging buffer -/

/-- The first band of h · [att | Weᵀ | W2]: the block of attention logits. -/
def logitBlock (x0 : Vec F S10000x16 .f32) (x1 : Vec F S1x16 .f32) (x2 : Vec F S16x48 .f32) (x3 : Vec F S1x16 .f32) (x4 : Vec F S400x10000 .f32) : Vec F S400x16 .f32 :=
  View.canon [⟨whole1_S400x16, k1_pay2 (View.ld x4 whole1_S400x10000) (View.ld x0 whole1_S10000x16) (View.ld x1 whole1_S1x16) (View.ld x2 whole1_S16x48)⟩]

/-- The second band plus the bias row be: the block of the encoder output. -/
def encBlock (x0 : Vec F S10000x16 .f32) (x1 : Vec F S1x16 .f32) (x2 : Vec F S16x48 .f32) (x3 : Vec F S1x16 .f32) (x4 : Vec F S400x10000 .f32) : Vec F S400x16 .f32 :=
  View.canon [⟨whole1_S400x16, k1_pay3 (View.ld x4 whole1_S400x10000) (View.ld x0 whole1_S10000x16) (View.ld x1 whole1_S1x16) (View.ld x2 whole1_S16x48) (View.ld x3 whole1_S1x16)⟩]

/-- The third band: the block of m = h · W2. -/
def midBlock (x0 : Vec F S10000x16 .f32) (x1 : Vec F S1x16 .f32) (x2 : Vec F S16x48 .f32) (x3 : Vec F S1x16 .f32) (x4 : Vec F S400x10000 .f32) : Vec F S400x16 .f32 :=
  View.canon [⟨whole1_S400x16, k1_pay4 (View.ld x4 whole1_S400x10000) (View.ld x0 whole1_S10000x16) (View.ld x1 whole1_S1x16) (View.ld x2 whole1_S16x48)⟩]

/-- One store through the whole rectangle covers the buffer. -/
theorem cover1_S400x16 (p0 : Vec F S400x16 .f32) (y : S400x16.Idx) :
    ∃ pc ∈ ([⟨whole1_S400x16, p0⟩] : List (View.Piece (Elt F) S400x16 .f32)), y ∈ pc.1.set :=
  View.cover_of_tiled [⟨whole1_S400x16, p0⟩] S400x16.size (by rfl) y

/-! ## The body's triple -/

set_option maxHeartbeats 4000000 in
/-- On whole staging memrefs, the inputs' at read contents and the outputs' at anything, the body runs to a state with
    the inputs' as they were and each output's at the value named above. -/
theorem run_body1 (c : Dev nD) (E : Set ℕ) (i : grid1.Coords) (a0 : Memref sig .tc .vmem S10000x16 .f32) (ha0 : a0.IsWhole) (a1 : Memref sig .tc .vmem S1x16 .f32) (ha1 : a1.IsWhole) (a2 : Memref sig .tc .vmem S16x48 .f32) (ha2 : a2.IsWhole) (a3 : Memref sig .tc .vmem S1x16 .f32) (ha3 : a3.IsWhole) (a4 : Memref sig .tc .vmem S400x10000 .f32) (ha4 : a4.IsWhole) (a5 : Memref sig .tc .vmem S400x16 .f32) (ha5 : a5.IsWhole) (a6 : Memref sig .tc .vmem S400x16 .f32) (ha6 : a6.IsWhole) (a7 : Memref sig .tc .vmem S400x16 .f32) (ha7 : a7.IsWhole)
    (x0 : Vec F S10000x16 .f32) (x1 : Vec F S1x16 .f32) (x2 : Vec F S16x48 .f32) (x3 : Vec F S1x16 .f32) (x4 : Vec F S400x10000 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare (logitBlock x0 x1 x2 x3 x4)
            ∗ owns (c : Thread nD τ) a6 fullShare (encBlock x0 x1 x2 x3 x4)
            ∗ owns (c : Thread nD τ) a7 fullShare (midBlock x0 x1 x2 x3 x4)) -∗ K ⟨⟩))
      ⊢ wp frame (wpE (defs₀ (F := F)) Variants.none c none) E (cc1__stream_a i a0 ha0 a1 ha1 a2 ha2 a3 ha3 a4 ha4 a5 ha5 a6 ha6 a7 ha7) K := by
  simp only [cc1__stream_a_eq_skeleton]; unfold cc1__stream_a_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_S400x16 _)
  isplitl [H6]
  · iexists _; isplitr
    swap; · iexact H6
    ipureintro
    exact View.read_writes_eq_canon _ _ _ (cover1_S400x16 _)
  iexists _; isplitr
  swap; · iexact H7
  ipureintro
  exact View.read_writes_eq_canon _ _ _ (cover1_S400x16 _)

/-! ## The pipeline's proof data -/

/-- Pipeline 1 on core `c`: the arrays as the call finds them; after the body at point `t` each input's buffer at its
    block and each output's at the value named above of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => logitBlock (blk1 V c 0 t) (blk1 V c 1 t) (blk1 V c 2 t) (blk1 V c 3 t) (blk1 V c 4 t)
    | ⟨6, _⟩ => encBlock (blk1 V c 0 t) (blk1 V c 1 t) (blk1 V c 2 t) (blk1 V c 3 t) (blk1 V c 4 t)
    | ⟨7, _⟩ => midBlock (blk1 V c 0 t) (blk1 V c 1 t) (blk1 V c 2 t) (blk1 V c 3 t) (blk1 V c 4 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = logitBlock (blk1 V c 0 t) (blk1 V c 1 t) (blk1 V c 2 t) (blk1 V c 3 t) (blk1 V c 4 t) := by dsimp only [dat1]
theorem dat1_after6 (c : Dev nD) (t : Fin cfg1.N) : (dat1 V c).after 6 t = encBlock (blk1 V c 0 t) (blk1 V c 1 t) (blk1 V c 2 t) (blk1 V c 3 t) (blk1 V c 4 t) := by dsimp only [dat1]
theorem dat1_after7 (c : Dev nD) (t : Fin cfg1.N) : (dat1 V c).after 7 t = midBlock (blk1 V c 0 t) (blk1 V c 1 t) (blk1 V c 2 t) (blk1 V c 3 t) (blk1 V c 4 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d
theorem dat1_before3 (c : Dev nD) (t : Fin cfg1.N) (d) : (dat1 V c).before 3 t d = blk1 V c 3 t :=
  held1_3 V (dat1 V c) (dat1_A V c 3) (dat1_after3 V c) t d
theorem dat1_before4 (c : Dev nD) (t : Fin cfg1.N) (d) : (dat1 V c).before 4 t d = blk1 V c 4 t :=
  held1_4 V (dat1 V c) (dat1_A V c 4) (dat1_after4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the triple applies; the invariant and the core's dues
    pass through unread. -/
theorem body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2, dat1_before3, dat1_before4]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_body1 c Set.univ _ _ _ _ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation1 (c : Dev nD) : BodyObligation (dat1 (F := F) V c) (defs₀ (F := F)) Variants.none () Set.univ := fun t => by
  rw [bigSep_W1, bigSep_W1]
  exact body1 V c t

end Cert.Kernel.Body

end
-- ==== Proof.Kernel.AttentionBody.lean ====
/-
  The third pallas_call: the softmax over all 160000 logits, laid out as a 1250×128 array staged whole at the one grid
  point: the maximum of all entries is subtracted, the exponential taken, and each entry divided by the sum of all of them.
  The one store goes through the buffer's whole rectangle.
-/
import proofs.«107558_g86887188398718_cont_9to1c4b_243_24_alg».proof.Proof.Gen.Kernel.Launch
import proofs.«107558_g86887188398718_cont_9to1c4b_243_24_alg».proof.Proof.Gen.Kernel.Skeleton
import proofs.«107558_g86887188398718_cont_9to1c4b_243_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pallas_call is entered
variable (V : (c : Dev nD) → (b : Ref sig .tc) → Buf (Elt F) ((c : Thread nD τ).loc b))

/-! ## The windows' blocks -/

/-- Window `w`'s block at grid point `t`, read off the array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the logits holds its block at every point, fetched there or not (unfetched, the block index has not moved). -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: each staging buffer whole -/

abbrev whole2_S1250x128 : Rect S1250x128 := Rect.unit (s := S1250x128) ![0, 0] S1250x128.size inb_S1250x128_S1250x128_0_0

/-! ## What the body leaves in each output's staging buffer -/

/-- The softmax of the whole block. -/
def attention (x0 : Vec F S1250x128 .f32) : Vec F S1250x128 .f32 :=
  View.canon [⟨whole2_S1250x128, k2_pay1 (View.ld x0 whole2_S1250x128)⟩]

/-- One store through the whole rectangle covers the buffer. -/
theorem cover2_S1250x128 (p0 : Vec F S1250x128 .f32) (y : S1250x128.Idx) :
    ∃ pc ∈ ([⟨whole2_S1250x128, p0⟩] : List (View.Piece (Elt F) S1250x128 .f32)), y ∈ pc.1.set :=
  View.cover_of_tiled [⟨whole2_S1250x128, p0⟩] S1250x128.size (by rfl) y

/-! ## The body's triple -/

set_option maxHeartbeats 4000000 in
/-- On whole staging memrefs, the inputs' at read contents and the outputs' at anything, the body runs to a state with
    the inputs' as they were and each output's at the value named above. -/
theorem run_body2 (c : Dev nD) (E : Set ℕ) (a0 : Memref sig .tc .vmem S1250x128 .f32) (ha0 : a0.IsWhole) (a1 : Memref sig .tc .vmem S1250x128 .f32) (ha1 : a1.IsWhole)
    (x0 : Vec F S1250x128 .f32) (K : PUnit → sProp 𝕄) :
    iprop(owns (c : Thread nD τ) a0 fullShare x0 ∗ (∃ d, owns (c : Thread nD τ) a1 fullShare d)
        ∗ (iprop(owns (c : Thread nD τ) a0 fullShare x0
            ∗ owns (c : Thread nD τ) a1 fullShare (attention x0)) -∗ K ⟨⟩))
      ⊢ wp frame (wpE (defs₀ (F := F)) Variants.none c none) E (cc2__mk_al a0 ha0 a1 ha1) K := by
  simp only [cc2__mk_al_eq_skeleton]; unfold cc2__mk_al_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_S1250x128 _)

/-! ## The pipeline's proof data -/

/-- Pipeline 2 on core `c`: the arrays as the call finds them; after the body at point `t` each input's buffer at its
    block and each output's at the value named above of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => attention (blk2 V c 0 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = attention (blk2 V c 0 t) := by dsimp only [dat2]

theorem dat2_before0 (c : Dev nD) (t : Fin cfg2.N) (d) : (dat2 V c).before 0 t d = blk2 V c 0 t :=
  held2_0 V (dat2 V c) (dat2_A V c 0) (dat2_after0 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the inputs' memrefs hold their blocks, so the triple applies; the invariant and the core's dues
    pass through unread. -/
theorem body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before0]
  rw [show (dat2 V c).Φ t.succ = (dat2 V c).Φ t.castSucc from rfl,
    show (dat2 V c).owesAt () t.succ = (dat2 V c).owesAt () t.castSucc from rfl,
    dat2_after0, dat2_after1]
  iintro ⟨HΦ, Ho, ⟨%d0, H0⟩, ⟨%d1, H1⟩⟩
  iapply (run_body2 c Set.univ _ _ _ _ (blk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem obligation2 (c : Dev nD) : BodyObligation (dat2 (F := F) V c) (defs₀ (F := F)) Variants.none () Set.univ := fun t => by
  rw [bigSep_W2, bigSep_W2]
  exact body2 V c t

end Cert.Kernel.Body

end
-- ==== Proof.Kernel.StreamBBody.lean ====
/-
  The fourth pallas_call, the second stream over the adjacency matrix: at each of 25 grid points a block of 400 rows of
  adj is multiplied into the whole of m, the bias row b2 added, and the row-wise log-softmax taken (each row less its
  maximum, less the logarithm of the sum of the exponentials of that difference). The one store goes through the
  buffer's whole rectangle.
-/
import proofs.«107558_g86887188398718_cont_9to1c4b_243_24_alg».proof.Proof.Gen.Kernel.Launch
import proofs.«107558_g86887188398718_cont_9to1c4b_243_24_alg».proof.Proof.Gen.Kernel.Skeleton
import proofs.«107558_g86887188398718_cont_9to1c4b_243_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pallas_call is entered
variable (V : (c : Dev nD) → (b : Ref sig .tc) → Buf (Elt F) ((c : Thread nD τ).loc b))

/-! ## The windows' blocks -/

/-- Window `w`'s block at grid point `t`, read off the array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of the matrix m holds its block at every point, fetched there or not (unfetched, the block index has not moved). -/
theorem held3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The staging buffer of the bias row b2 holds its block at every point, fetched there or not (unfetched, the block index has not moved). -/
theorem held3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The staging buffer of the block of adj holds its block at every point, fetched there or not (unfetched, the block index has not moved). -/
theorem held3_2 {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-! ## The body's accesses: each staging buffer whole -/

abbrev whole3_S10000x16 : Rect S10000x16 := Rect.unit (s := S10000x16) ![0, 0] S10000x16.size inb_S10000x16_S10000x16_0_0
abbrev whole3_S1x16 : Rect S1x16 := Rect.unit (s := S1x16) ![0, 0] S1x16.size inb_S1x16_S1x16_0_0
abbrev whole3_S400x10000 : Rect S400x10000 := Rect.unit (s := S400x10000) ![0, 0] S400x10000.size inb_S400x10000_S400x10000_0_0
abbrev whole3_S400x16 : Rect S400x16 := Rect.unit (s := S400x16) ![0, 0] S400x16.size inb_S400x16_S400x16_0_0

/-! ## What the body leaves in each output's staging buffer -/

/-- The row-wise log-softmax of adj-block · m + b2. -/
def logSoftmaxBlock (x0 : Vec F S10000x16 .f32) (x1 : Vec F S1x16 .f32) (x2 : Vec F S400x10000 .f32) : Vec F S400x16 .f32 :=
  View.canon [⟨whole3_S400x16, k3_pay1 (View.ld x2 whole3_S400x10000) (View.ld x0 whole3_S10000x16) (View.ld x1 whole3_S1x16)⟩]

/-- One store through the whole rectangle covers the buffer. -/
theorem cover3_S400x16 (p0 : Vec F S400x16 .f32) (y : S400x16.Idx) :
    ∃ pc ∈ ([⟨whole3_S400x16, p0⟩] : List (View.Piece (Elt F) S400x16 .f32)), y ∈ pc.1.set :=
  View.cover_of_tiled [⟨whole3_S400x16, p0⟩] S400x16.size (by rfl) y

/-! ## The body's triple -/

set_option maxHeartbeats 4000000 in
/-- On whole staging memrefs, the inputs' at read contents and the outputs' at anything, the body runs to a state with
    the inputs' as they were and each output's at the value named above. -/
theorem run_body3 (c : Dev nD) (E : Set ℕ) (i : grid3.Coords) (a0 : Memref sig .tc .vmem S10000x16 .f32) (ha0 : a0.IsWhole) (a1 : Memref sig .tc .vmem S1x16 .f32) (ha1 : a1.IsWhole) (a2 : Memref sig .tc .vmem S400x10000 .f32) (ha2 : a2.IsWhole) (a3 : Memref sig .tc .vmem S400x16 .f32) (ha3 : a3.IsWhole)
    (x0 : Vec F S10000x16 .f32) (x1 : Vec F S1x16 .f32) (x2 : Vec F S400x10000 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0
            ∗ owns (c : Thread nD τ) a1 fullShare x1
            ∗ owns (c : Thread nD τ) a2 fullShare x2
            ∗ owns (c : Thread nD τ) a3 fullShare (logSoftmaxBlock x0 x1 x2)) -∗ K ⟨⟩))
      ⊢ wp frame (wpE (defs₀ (F := F)) Variants.none c none) E (cc3__stream_b i a0 ha0 a1 ha1 a2 ha2 a3 ha3) K := by
  simp only [cc3__stream_b_eq_skeleton]; unfold cc3__stream_b_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_S400x16 _)

/-! ## The pipeline's proof data -/

/-- Pipeline 3 on core `c`: the arrays as the call finds them; after the body at point `t` each input's buffer at its
    block and each output's at the value named above of the input blocks; the scoped rest and the generator register
    untouched; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => logSoftmaxBlock (blk3 V c 0 t) (blk3 V c 1 t) (blk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = logSoftmaxBlock (blk3 V c 0 t) (blk3 V c 1 t) (blk3 V c 2 t) := by dsimp only [dat3]

theorem dat3_before0 (c : Dev nD) (t : Fin cfg3.N) (d) : (dat3 V c).before 0 t d = blk3 V c 0 t :=
  held3_0 V (dat3 V c) (dat3_A V c 0) (dat3_after0 V c) t d
theorem dat3_before1 (c : Dev nD) (t : Fin cfg3.N) (d) : (dat3 V c).before 1 t d = blk3 V c 1 t :=
  held3_1 V (dat3 V c) (dat3_A V c 1) (dat3_after1 V c) t d
theorem dat3_before2 (c : Dev nD) (t : Fin cfg3.N) (d) : (dat3 V c).before 2 t d = blk3 V c 2 t :=
  held3_2 V (dat3 V c) (dat3_A V c 2) (dat3_after2 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the triple applies; the invariant and the core's dues
    pass through unread. -/
theorem body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [dat3_before0, dat3_before1, dat3_before2]
  rw [show (dat3 V c).Φ t.succ = (dat3 V c).Φ t.castSucc from rfl,
    show (dat3 V c).owesAt () t.succ = (dat3 V c).owesAt () t.castSucc from rfl,
    dat3_after0, dat3_after1, dat3_after2, dat3_after3]
  iintro ⟨HΦ, Ho, ⟨%d0, H0⟩, ⟨%d1, H1⟩, ⟨%d2, H2⟩, ⟨%d3, H3⟩⟩
  iapply (run_body3 c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation3 (c : Dev nD) : BodyObligation (dat3 (F := F) V c) (defs₀ (F := F)) Variants.none () Set.univ := fun t => by
  rw [bigSep_W3, bigSep_W3]
  exact body3 V c t

end Cert.Kernel.Body

end
-- ==== Proof.Kernel.MainRun.lean ====
/-
  The whole program as a chain of segments: a stretch of host operations, the four pallas_calls (two of them back to back,
  a reshape between the second and the third), and a last reshape. Between two segments the TensorCore holds every
  unscoped buffer whole at contents named here: the launch memory, then each host stretch's operations applied, then,
  after a pallas_call, its arrays at what the pipeline's write-backs leave and every other buffer as before. Each
  pallas_call is entered from those contents and left at the next ones; the run of the chain then ends with every
  unscoped buffer at the last contents, from which the arguments (never written) and the three results are read.
-/
import proofs.«107558_g86887188398718_cont_9to1c4b_243_24_alg».proof.Proof.Kernel.SupportBody
import proofs.«107558_g86887188398718_cont_9to1c4b_243_24_alg».proof.Proof.Kernel.StreamABody
import proofs.«107558_g86887188398718_cont_9to1c4b_243_24_alg».proof.Proof.Kernel.AttentionBody
import proofs.«107558_g86887188398718_cont_9to1c4b_243_24_alg».proof.Proof.Kernel.StreamBBody
import proofs.«107558_g86887188398718_cont_9to1c4b_243_24_alg».proof.Proof.Gen.Kernel.Regions

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- At launch. -/
abbrev B0 : Dev nD → Valuation τ sig (Elt F) := fun c b => m (c, b)
/-- After the first host stretch (the bias rows reshaped, We transposed, the three weight matrices concatenated). -/
abbrev B1 : Dev nD → Valuation τ sig (Elt F) := fun c => StableHlo.after hostOps0 (B0 m c)
/-- The same, read at the TensorCore's references. -/
abbrev T1 : (c : Dev nD) → (b : Ref sig .tc) → Buf (Elt F) ((c : Thread nD τ).loc b) := fun c b => B1 m c b
/-- After the first pallas_call: its arrays at what its pipeline leaves, the rest as before. -/
def B2 (c : Dev nD) : Valuation τ sig (Elt F) :=
  Pipeline.withArrays spec0 c (B1 m c) fun w => (dat0 (T1 m) c).arrAt w cfg0.N
abbrev T2 : (c : Dev nD) → (b : Ref sig .tc) → Buf (Elt F) ((c : Thread nD τ).loc b) := fun c b => B2 m c b
/-- After the second pallas_call. -/
def B3 (c : Dev nD) : Valuation τ sig (Elt F) :=
  Pipeline.withArrays spec1 c (B2 m c) fun w => (dat1 (T2 m) c).arrAt w cfg1.N
abbrev T3 : (c : Dev nD) → (b : Ref sig .tc) → Buf (Elt F) ((c : Thread nD τ).loc b) := fun c b => B3 m c b
/-- After the reshape of the logits to 1250×128. -/
abbrev B4 : Dev nD → Valuation τ sig (Elt F) := fun c => StableHlo.after hostOps2 (B3 m c)
abbrev T4 : (c : Dev nD) → (b : Ref sig .tc) → Buf (Elt F) ((c : Thread nD τ).loc b) := fun c b => B4 m c b
/-- After the third pallas_call. -/
def B5 (c : Dev nD) : Valuation τ sig (Elt F) :=
  Pipeline.withArrays spec2 c (B4 m c) fun w => (dat2 (T4 m) c).arrAt w cfg2.N
abbrev T5 : (c : Dev nD) → (b : Ref sig .tc) → Buf (Elt F) ((c : Thread nD τ).loc b) := fun c b => B5 m c b
/-- After the fourth pallas_call. -/
def B6 (c : Dev nD) : Valuation τ sig (Elt F) :=
  Pipeline.withArrays spec3 c (B5 m c) fun w => (dat3 (T5 m) c).arrAt w cfg3.N
abbrev T6 : (c : Dev nD) → (b : Ref sig .tc) → Buf (Elt F) ((c : Thread nD τ).loc b) := fun c b => B6 m c b
/-- After the last reshape: the end. -/
abbrev B7 : Dev nD → Valuation τ sig (Elt F) := fun c => StableHlo.after hostOps4 (B6 m c)

theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w
theorem B2_rest (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem leaves0 (c : Dev nD) (w : Fin cfg0.W) : (dat0 (T1 m) c).arrAt w cfg0.N = T2 m c (Pipeline.arrRef spec0 w) :=
  (B2_arr m c w).symm
theorem keeps0 (c : Dev nD) : ∀ b, b ∉ Finset.univ.image (Pipeline.arrRef spec0) → T2 m c b = T1 m c b :=
  fun b hb => B2_rest m c b fun w e => hb (Finset.mem_image.mpr ⟨w, Finset.mem_univ _, e⟩)

theorem B3_arr (c : Dev nD) (w : Fin cfg1.W) :
    B3 m c (Proc.devRef .tc (Pipeline.arrRef spec1 w)) = (dat1 (T2 m) c).arrAt w cfg1.N := by
  unfold B3; exact Pipeline.withArrays_arr spec1 launch1.win.arr_inj c _ _ w
theorem B3_rest (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
theorem leaves1 (c : Dev nD) (w : Fin cfg1.W) : (dat1 (T2 m) c).arrAt w cfg1.N = T3 m c (Pipeline.arrRef spec1 w) :=
  (B3_arr m c w).symm
theorem keeps1 (c : Dev nD) : ∀ b, b ∉ Finset.univ.image (Pipeline.arrRef spec1) → T3 m c b = T2 m c b :=
  fun b hb => B3_rest m c b fun w e => hb (Finset.mem_image.mpr ⟨w, Finset.mem_univ _, e⟩)

theorem B5_arr (c : Dev nD) (w : Fin cfg2.W) :
    B5 m c (Proc.devRef .tc (Pipeline.arrRef spec2 w)) = (dat2 (T4 m) c).arrAt w cfg2.N := by
  unfold B5; exact Pipeline.withArrays_arr spec2 launch2.win.arr_inj c _ _ w
theorem B5_rest (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
theorem leaves2 (c : Dev nD) (w : Fin cfg2.W) : (dat2 (T4 m) c).arrAt w cfg2.N = T5 m c (Pipeline.arrRef spec2 w) :=
  (B5_arr m c w).symm
theorem keeps2 (c : Dev nD) : ∀ b, b ∉ Finset.univ.image (Pipeline.arrRef spec2) → T5 m c b = T4 m c b :=
  fun b hb => B5_rest m c b fun w e => hb (Finset.mem_image.mpr ⟨w, Finset.mem_univ _, e⟩)

theorem B6_arr (c : Dev nD) (w : Fin cfg3.W) :
    B6 m c (Proc.devRef .tc (Pipeline.arrRef spec3 w)) = (dat3 (T5 m) c).arrAt w cfg3.N := by
  unfold B6; exact Pipeline.withArrays_arr spec3 launch3.win.arr_inj c _ _ w
theorem B6_rest (c : Dev nD) (b : Ref sig .tc) (hb : ∀ w, Pipeline.arrRef spec3 w ≠ b) :
    B6 m c (Proc.devRef .tc b) = B5 m c (Proc.devRef .tc b) := by
  unfold B6; exact Pipeline.withArrays_of_ne spec3 c _ _ b hb
theorem leaves3 (c : Dev nD) (w : Fin cfg3.W) : (dat3 (T5 m) c).arrAt w cfg3.N = T6 m c (Pipeline.arrRef spec3 w) :=
  (B6_arr m c w).symm
theorem keeps3 (c : Dev nD) : ∀ b, b ∉ Finset.univ.image (Pipeline.arrRef spec3) → T6 m c b = T5 m c b :=
  fun b hb => B6_rest m c b fun w e => hb (Finset.mem_image.mpr ⟨w, Finset.mem_univ _, e⟩)

/-! ## The proof data family and what rides beside the buffers -/

/-- No pipeline has a prefetched table. -/
abbrev adm : (p : Fin 4) → (pcfgs (F := F) p).Adm := fun p => (cfgs p).toPCfg_adm
/-- Every pipeline's proof data, each at the contents its pallas_call is entered from. -/
def pdats : (p : Fin 4) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c
  | ⟨2, _⟩ => fun c => dat2 (T4 m) c
  | ⟨3, _⟩ => fun c => dat3 (T5 m) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and its dues, at nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (B7 m c) ∗ ∃ r, prngReg c r)

/-! ## The pallas_calls as segments -/

set_option backward.isDefEq.respectTransparency.types false in
/-- Pallas_call 0: entered with every unscoped buffer at `B1`, left with them at `B2`. Its arrays are split out of the
    unscoped buffers on entry and put back at what the pipeline leaves on exit; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (T1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1: entered with every unscoped buffer at `B2`, left with them at `B3`. Its arrays are split out of the
    unscoped buffers on entry and put back at what the pipeline leaves on exit; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (T2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T2 m c) (T3 m c) ((pdats m 1 c).arrAt · cfg1.N) (leaves1 m c) (keeps1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2: entered with every unscoped buffer at `B4`, left with them at `B5`. Its arrays are split out of the
    unscoped buffers on entry and put back at what the pipeline leaves on exit; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (T4 m) c).loose
  hwaits := Pipeline.hwaits_of_owed_zero _ _ _ _ L lv 2 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T4 m c) (T5 m c) ((pdats m 2 c).arrAt · cfg2.N) (leaves2 m c) (keeps2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 3: entered with every unscoped buffer at `B5`, left with them at `B6`. Its arrays are split out of the
    unscoped buffers on entry and put back at what the pipeline leaves on exit; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (T5 m) c).loose
  hwaits := Pipeline.hwaits_of_owed_zero _ _ _ _ L lv 3 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec3 c (T5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T5 m c) (T6 m c) ((pdats m 3 c).arrAt · cfg3.N) (leaves3 m c) (keeps3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The seven segments in order. -/
abbrev segs : List (Pipeline.Seg (pcfgs (F := F)) adm (pdats m) () defs₀ 𝒱₀ L lv) :=
  [ .host (hseg hostOps0 hostOps0_sub hostOps0_fresh (B0 m)),
    .region (reg0 m),
    .region (reg1 m),
    .host (hseg hostOps2 hostOps2_sub hostOps2_fresh (B3 m)),
    .region (reg2 m),
    .region (reg3 m),
    .host (hseg hostOps4 hostOps4_sub hostOps4_fresh (B6 m)) ]

/-- The program is the run of its segments. -/
theorem main_is_segs (c : Dev nD) : main (F := F) c = Pipeline.Seg.run (segs m) := (main_chain c).trans (by chain_rfl)

set_option backward.isDefEq.respectTransparency.types false in
/-- From any memory with zero counters every weakly fair execution of the program terminates, nothing faulting, and in
    every final state each unscoped TensorCore buffer holds the last contents `B7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (B7 m c) ∗ R c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

end Cert.Kernel.Body

end
-- ==== Proof.Kernel.ArgsKept.lean ====
/-
  No host operation and no pallas_call writes an argument array: a pallas_call reads it through an input window or does not
  touch it. So the last contents at an argument's buffer walk back, boundary by boundary, to the launch memory, and the
  run of the whole program ends with every argument array as launched.
-/
import proofs.«107558_g86887188398718_cont_9to1c4b_243_24_alg».proof.Proof.Kernel.MainRun

set_option maxRecDepth 16384

noncomputable section

namespace Cert.Kernel.Body

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem B7_main_arg0 (c : Dev nD) : B7 m c (Proc.devRef .tc main_arg0) = m ((c : Thread nD τ).loc main_arg0) :=
  calc B7 m c (Proc.devRef .tc main_arg0)
    _ = B6 m c (Proc.devRef .tc main_arg0) := StableHlo.after_of_writes_sub hostOps4 _ hostOps4_writes (by decide)
    _ = B5 m c (Proc.devRef .tc main_arg0) := B6_rest m c main_arg0 (by decide)
    _ = B4 m c (Proc.devRef .tc main_arg0) := B5_rest m c main_arg0 (by decide)
    _ = B3 m c (Proc.devRef .tc main_arg0) := StableHlo.after_of_writes_sub hostOps2 _ hostOps2_writes (by decide)
    _ = B2 m c (Proc.devRef .tc main_arg0) := B3_rest m c main_arg0 (by decide)
    _ = B1 m c (Proc.devRef .tc main_arg0) := (B2_arr m c 0).trans (((dat0 (T1 m) c).arrAt_in 0 rfl _).trans (dat0_A (T1 m) c 0))
    _ = B0 m c (Proc.devRef .tc main_arg0) := StableHlo.after_of_writes_sub hostOps0 _ hostOps0_writes (by decide)
    _ = m ((c : Thread nD τ).loc main_arg0) := rfl

theorem B7_main_arg1 (c : Dev nD) : B7 m c (Proc.devRef .tc main_arg1) = m ((c : Thread nD τ).loc main_arg1) :=
  calc B7 m c (Proc.devRef .tc main_arg1)
    _ = B6 m c (Proc.devRef .tc main_arg1) := StableHlo.after_of_writes_sub hostOps4 _ hostOps4_writes (by decide)
    _ = B5 m c (Proc.devRef .tc main_arg1) := (B6_arr m c 2).trans (((dat3 (T5 m) c).arrAt_in 2 rfl _).trans (dat3_A (T5 m) c 2))
    _ = B4 m c (Proc.devRef .tc main_arg1) := B5_rest m c main_arg1 (by decide)
    _ = B3 m c (Proc.devRef .tc main_arg1) := StableHlo.after_of_writes_sub hostOps2 _ hostOps2_writes (by decide)
    _ = B2 m c (Proc.devRef .tc main_arg1) := (B3_arr m c 4).trans (((dat1 (T2 m) c).arrAt_in 4 rfl _).trans (dat1_A (T2 m) c 4))
    _ = B1 m c (Proc.devRef .tc main_arg1) := B2_rest m c main_arg1 (by decide)
    _ = B0 m c (Proc.devRef .tc main_arg1) := StableHlo.after_of_writes_sub hostOps0 _ hostOps0_writes (by decide)
    _ = m ((c : Thread nD τ).loc main_arg1) := rfl

theorem B7_main_arg2 (c : Dev nD) : B7 m c (Proc.devRef .tc main_arg2) = m ((c : Thread nD τ).loc main_arg2) :=
  calc B7 m c (Proc.devRef .tc main_arg2)
    _ = B6 m c (Proc.devRef .tc main_arg2) := StableHlo.after_of_writes_sub hostOps4 _ hostOps4_writes (by decide)
    _ = B5 m c (Proc.devRef .tc main_arg2) := B6_rest m c main_arg2 (by decide)
    _ = B4 m c (Proc.devRef .tc main_arg2) := B5_rest m c main_arg2 (by decide)
    _ = B3 m c (Proc.devRef .tc main_arg2) := StableHlo.after_of_writes_sub hostOps2 _ hostOps2_writes (by decide)
    _ = B2 m c (Proc.devRef .tc main_arg2) := B3_rest m c main_arg2 (by decide)
    _ = B1 m c (Proc.devRef .tc main_arg2) := (B2_arr m c 1).trans (((dat0 (T1 m) c).arrAt_in 1 rfl _).trans (dat0_A (T1 m) c 1))
    _ = B0 m c (Proc.devRef .tc main_arg2) := StableHlo.after_of_writes_sub hostOps0 _ hostOps0_writes (by decide)
    _ = m ((c : Thread nD τ).loc main_arg2) := rfl

theorem B7_main_arg3 (c : Dev nD) : B7 m c (Proc.devRef .tc main_arg3) = m ((c : Thread nD τ).loc main_arg3) :=
  calc B7 m c (Proc.devRef .tc main_arg3)
    _ = B6 m c (Proc.devRef .tc main_arg3) := StableHlo.after_of_writes_sub hostOps4 _ hostOps4_writes (by decide)
    _ = B5 m c (Proc.devRef .tc main_arg3) := B6_rest m c main_arg3 (by decide)
    _ = B4 m c (Proc.devRef .tc main_arg3) := B5_rest m c main_arg3 (by decide)
    _ = B3 m c (Proc.devRef .tc main_arg3) := StableHlo.after_of_writes_sub hostOps2 _ hostOps2_writes (by decide)
    _ = B2 m c (Proc.devRef .tc main_arg3) := B3_rest m c main_arg3 (by decide)
    _ = B1 m c (Proc.devRef .tc main_arg3) := B2_rest m c main_arg3 (by decide)
    _ = B0 m c (Proc.devRef .tc main_arg3) := StableHlo.after_of_writes_sub hostOps0 _ hostOps0_writes (by decide)
    _ = m ((c : Thread nD τ).loc main_arg3) := rfl

theorem B7_main_arg4 (c : Dev nD) : B7 m c (Proc.devRef .tc main_arg4) = m ((c : Thread nD τ).loc main_arg4) :=
  calc B7 m c (Proc.devRef .tc main_arg4)
    _ = B6 m c (Proc.devRef .tc main_arg4) := StableHlo.after_of_writes_sub hostOps4 _ hostOps4_writes (by decide)
    _ = B5 m c (Proc.devRef .tc main_arg4) := B6_rest m c main_arg4 (by decide)
    _ = B4 m c (Proc.devRef .tc main_arg4) := B5_rest m c main_arg4 (by decide)
    _ = B3 m c (Proc.devRef .tc main_arg4) := StableHlo.after_of_writes_sub hostOps2 _ hostOps2_writes (by decide)
    _ = B2 m c (Proc.devRef .tc main_arg4) := B3_rest m c main_arg4 (by decide)
    _ = B1 m c (Proc.devRef .tc main_arg4) := B2_rest m c main_arg4 (by decide)
    _ = B0 m c (Proc.devRef .tc main_arg4) := StableHlo.after_of_writes_sub hostOps0 _ hostOps0_writes (by decide)
    _ = m ((c : Thread nD τ).loc main_arg4) := rfl

theorem B7_main_arg5 (c : Dev nD) : B7 m c (Proc.devRef .tc main_arg5) = m ((c : Thread nD τ).loc main_arg5) :=
  calc B7 m c (Proc.devRef .tc main_arg5)
    _ = B6 m c (Proc.devRef .tc main_arg5) := StableHlo.after_of_writes_sub hostOps4 _ hostOps4_writes (by decide)
    _ = B5 m c (Proc.devRef .tc main_arg5) := B6_rest m c main_arg5 (by decide)
    _ = B4 m c (Proc.devRef .tc main_arg5) := B5_rest m c main_arg5 (by decide)
    _ = B3 m c (Proc.devRef .tc main_arg5) := StableHlo.after_of_writes_sub hostOps2 _ hostOps2_writes (by decide)
    _ = B2 m c (Proc.devRef .tc main_arg5) := B3_rest m c main_arg5 (by decide)
    _ = B1 m c (Proc.devRef .tc main_arg5) := B2_rest m c main_arg5 (by decide)
    _ = B0 m c (Proc.devRef .tc main_arg5) := StableHlo.after_of_writes_sub hostOps0 _ hostOps0_writes (by decide)
    _ = m ((c : Thread nD τ).loc main_arg5) := rfl

theorem B7_main_arg6 (c : Dev nD) : B7 m c (Proc.devRef .tc main_arg6) = m ((c : Thread nD τ).loc main_arg6) :=
  calc B7 m c (Proc.devRef .tc main_arg6)
    _ = B6 m c (Proc.devRef .tc main_arg6) := StableHlo.after_of_writes_sub hostOps4 _ hostOps4_writes (by decide)
    _ = B5 m c (Proc.devRef .tc main_arg6) := B6_rest m c main_arg6 (by decide)
    _ = B4 m c (Proc.devRef .tc main_arg6) := B5_rest m c main_arg6 (by decide)
    _ = B3 m c (Proc.devRef .tc main_arg6) := StableHlo.after_of_writes_sub hostOps2 _ hostOps2_writes (by decide)
    _ = B2 m c (Proc.devRef .tc main_arg6) := B3_rest m c main_arg6 (by decide)
    _ = B1 m c (Proc.devRef .tc main_arg6) := B2_rest m c main_arg6 (by decide)
    _ = B0 m c (Proc.devRef .tc main_arg6) := StableHlo.after_of_writes_sub hostOps0 _ hostOps0_writes (by decide)
    _ = m ((c : Thread nD τ).loc main_arg6) := rfl

theorem B7_main_arg7 (c : Dev nD) : B7 m c (Proc.devRef .tc main_arg7) = m ((c : Thread nD τ).loc main_arg7) :=
  calc B7 m c (Proc.devRef .tc main_arg7)
    _ = B6 m c (Proc.devRef .tc main_arg7) := StableHlo.after_of_writes_sub hostOps4 _ hostOps4_writes (by decide)
    _ = B5 m c (Proc.devRef .tc main_arg7) := B6_rest m c main_arg7 (by decide)
    _ = B4 m c (Proc.devRef .tc main_arg7) := B5_rest m c main_arg7 (by decide)
    _ = B3 m c (Proc.devRef .tc main_arg7) := StableHlo.after_of_writes_sub hostOps2 _ hostOps2_writes (by decide)
    _ = B2 m c (Proc.devRef .tc main_arg7) := B3_rest m c main_arg7 (by decide)
    _ = B1 m c (Proc.devRef .tc main_arg7) := B2_rest m c main_arg7 (by decide)
    _ = B0 m c (Proc.devRef .tc main_arg7) := StableHlo.after_of_writes_sub hostOps0 _ hostOps0_writes (by decide)
    _ = m ((c : Thread nD τ).loc main_arg7) := rfl

theorem B7_main_arg8 (c : Dev nD) : B7 m c (Proc.devRef .tc main_arg8) = m ((c : Thread nD τ).loc main_arg8) :=
  calc B7 m c (Proc.devRef .tc main_arg8)
    _ = B6 m c (Proc.devRef .tc main_arg8) := StableHlo.after_of_writes_sub hostOps4 _ hostOps4_writes (by decide)
    _ = B5 m c (Proc.devRef .tc main_arg8) := B6_rest m c main_arg8 (by decide)
    _ = B4 m c (Proc.devRef .tc main_arg8) := B5_rest m c main_arg8 (by decide)
    _ = B3 m c (Proc.devRef .tc main_arg8) := StableHlo.after_of_writes_sub hostOps2 _ hostOps2_writes (by decide)
    _ = B2 m c (Proc.devRef .tc main_arg8) := B3_rest m c main_arg8 (by decide)
    _ = B1 m c (Proc.devRef .tc main_arg8) := B2_rest m c main_arg8 (by decide)
    _ = B0 m c (Proc.devRef .tc main_arg8) := StableHlo.after_of_writes_sub hostOps0 _ hostOps0_writes (by decide)
    _ = m ((c : Thread nD τ).loc main_arg8) := rfl

/-- From any memory with zero counters every weakly fair execution terminates, nothing faulting, with every argument
    array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (B7_main_arg0 m c),
      (h c _ (mem_uc main_arg1 (by decide))).trans (B7_main_arg1 m c),
      (h c _ (mem_uc main_arg2 (by decide))).trans (B7_main_arg2 m c),
      (h c _ (mem_uc main_arg3 (by decide))).trans (B7_main_arg3 m c),
      (h c _ (mem_uc main_arg4 (by decide))).trans (B7_main_arg4 m c),
      (h c _ (mem_uc main_arg5 (by decide))).trans (B7_main_arg5 m c),
      (h c _ (mem_uc main_arg6 (by decide))).trans (B7_main_arg6 m c),
      (h c _ (mem_uc main_arg7 (by decide))).trans (B7_main_arg7 m c),
      (h c _ (mem_uc main_arg8 (by decide))).trans (B7_main_arg8 m c)⟩)
    (run_all m ρ)

end Cert.Kernel.Body

end
-- ==== Proof.KernelIdeal.SupportBody.lean ====
/-
  The first pallas_call: the support product s = x · W1, one grid point, the three arrays staged whole.
  What the one store leaves in the output's staging buffer is the matrix product of the two input blocks into a zero
  accumulator; the body's triple is run symbolically, and the pipeline's proof data say that every input buffer holds its
  block and the output buffer that product.
-/
import proofs.«107558_g86887188398718_cont_9to1c4b_243_24_alg».proof.Proof.Gen.KernelIdeal.Launch
import proofs.«107558_g86887188398718_cont_9to1c4b_243_24_alg».proof.Proof.Gen.KernelIdeal.Skeleton
import proofs.«107558_g86887188398718_cont_9to1c4b_243_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pallas_call is entered
variable (V : (c : Dev nD) → (b : Ref sig .tc) → Buf (Elt F) ((c : Thread nD τ).loc b))

/-! ## The windows' blocks -/

/-- Window `w`'s block at grid point `t`, read off the array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of x holds x's block at the point, whether or not it was fetched there. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The staging buffer of W1 holds W1's block at the point. -/
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each buffer whole -/

abbrev wholeX : Rect S10000x128 := Rect.unit (s := S10000x128) ![0, 0] S10000x128.size inb_S10000x128_S10000x128_0_0
abbrev wholeW1 : Rect S128x16 := Rect.unit (s := S128x16) ![0, 0] S128x16.size inb_S128x16_S128x16_0_0
abbrev wholeS : Rect S10000x16 := Rect.unit (s := S10000x16) ![0, 0] S10000x16.size inb_S10000x16_S10000x16_0_0

/-- What the body leaves in the output's staging buffer: its one store, the product of the two loaded blocks. -/
def support (x0 : Vec F S10000x128 .f32) (x1 : Vec F S128x16 .f32) : Vec F S10000x16 .f32 :=
  View.canon [⟨wholeS, k0_pay1 (View.ld x0 wholeX) (View.ld x1 wholeW1)⟩]

/-- The one store covers the buffer. -/
theorem support_cover (p0 : Vec F S10000x16 .f32) (y : S10000x16.Idx) :
    ∃ pc ∈ ([⟨wholeS, p0⟩] : List (View.Piece (Elt F) S10000x16 .f32)), y ∈ pc.1.set :=
  View.cover_of_tiled [⟨wholeS, p0⟩] S10000x16.size (by rfl) y

/-! ## The body's triple -/

set_option maxHeartbeats 1000000 in
/-- On whole staging memrefs, the inputs' at contents `x0`, `x1` and the output's at anything, the body runs to a state
    with the inputs' as they were and the output's at `support x0 x1`. -/
theorem run_body0 (c : Dev nD) (E : Set ℕ) (arg0 : Memref sig .tc .vmem S10000x128 .f32) (harg0 : arg0.IsWhole)
    (arg1 : Memref sig .tc .vmem S128x16 .f32) (harg1 : arg1.IsWhole) (arg2 : Memref sig .tc .vmem S10000x16 .f32) (harg2 : arg2.IsWhole)
    (x0 : Vec F S10000x128 .f32) (x1 : Vec F S128x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (support x0 x1)) -∗ K ⟨⟩))
      ⊢ wp frame (wpE (defs₀ (F := F)) Variants.none c none) E (cc0__mk_s arg0 harg0 arg1 harg1 arg2 harg2) K := by
  simp only [cc0__mk_s_eq_skeleton]; unfold cc0__mk_s_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (support_cover _)

/-! ## The pipeline's proof data -/

/-- Pipeline 0 on core `c`: the arrays as the call finds them; after the body each input's buffer at its block, the
    output's at the product of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => support (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = support (blk0 V c 0 t) (blk0 V c 1 t) := by dsimp only [dat0]

theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (run_body0 c Set.univ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem obligation0 (c : Dev nD) : BodyObligation (dat0 (F := F) V c) (defs₀ (F := F)) Variants.none () Set.univ := fun t => by
  rw [bigSep_W0, bigSep_W0]
  exact body0 V c t

end Cert.KernelIdeal.Body

end
-- ==== Proof.KernelIdeal.StreamABody.lean ====
/-
  The second pallas_call, the first stream over the adjacency matrix: at each of 25 grid points a block of 400 rows of
  adj is multiplied into the whole support s, the bias row b1 is added and the result clamped below at zero (the hidden
  block h); h is multiplied into the 16×48 matrix [att | Weᵀ | W2], and the three 16-column bands of that product are
  stored: the attention logits, the encoder output (its band plus the bias row be) and the block of m = h · W2.
  Each store goes through its buffer's whole rectangle, so each output buffer ends at its band's value.
-/
import proofs.«107558_g86887188398718_cont_9to1c4b_243_24_alg».proof.Proof.Gen.KernelIdeal.Launch
import proofs.«107558_g86887188398718_cont_9to1c4b_243_24_alg».proof.Proof.Gen.KernelIdeal.Skeleton
import proofs.«107558_g86887188398718_cont_9to1c4b_243_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pallas_call is entered
variable (V : (c : Dev nD) → (b : Ref sig .tc) → Buf (Elt F) ((c : Thread nD τ).loc b))

/-! ## The windows' blocks -/

/-- Window `w`'s block at grid point `t`, read off the array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of the support s holds its block at every point, fetched there or not (unfetched, the block index has not moved). -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The staging buffer of the bias row b1 holds its block at every point, fetched there or not (unfetched, the block index has not moved). -/
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The staging buffer of the concatenated weights holds its block at every point, fetched there or not (unfetched, the block index has not moved). -/
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The staging buffer of the bias row be holds its block at every point, fetched there or not (unfetched, the block index has not moved). -/
theorem held1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The staging buffer of the block of adj holds its block at every point, fetched there or not (unfetched, the block index has not moved). -/
theorem held1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each staging buffer whole -/

abbrev whole1_S10000x16 : Rect S10000x16 := Rect.unit (s := S10000x16) ![0, 0] S10000x16.size inb_S10000x16_S10000x16_0_0
abbrev whole1_S1x16 : Rect S1x16 := Rect.unit (s := S1x16) ![0, 0] S1x16.size inb_S1x16_S1x16_0_0
abbrev whole1_S16x48 : Rect S16x48 := Rect.unit (s := S16x48) ![0, 0] S16x48.size inb_S16x48_S16x48_0_0
abbrev whole1_S400x10000 : Rect S400x10000 := Rect.unit (s := S400x10000) ![0, 0] S400x10000.size inb_S400x10000_S400x10000_0_0
abbrev whole1_S400x16 : Rect S400x16 := Rect.unit (s := S400x16) ![0, 0] S400x16.size inb_S400x16_S400x16_0_0

/-! ## What the body leaves in each output's staging buffer -/

/-- The first band of h · [att | Weᵀ | W2]: the block of attention logits. -/
def logitBlock (x0 : Vec F S10000x16 .f32) (x1 : Vec F S1x16 .f32) (x2 : Vec F S16x48 .f32) (x3 : Vec F S1x16 .f32) (x4 : Vec F S400x10000 .f32) : Vec F S400x16 .f32 :=
  View.canon [⟨whole1_S400x16, k1_pay2 (View.ld x4 whole1_S400x10000) (View.ld x0 whole1_S10000x16) (View.ld x1 whole1_S1x16) (View.ld x2 whole1_S16x48)⟩]

/-- The second band plus the bias row be: the block of the encoder output. -/
def encBlock (x0 : Vec F S10000x16 .f32) (x1 : Vec F S1x16 .f32) (x2 : Vec F S16x48 .f32) (x3 : Vec F S1x16 .f32) (x4 : Vec F S400x10000 .f32) : Vec F S400x16 .f32 :=
  View.canon [⟨whole1_S400x16, k1_pay3 (View.ld x4 whole1_S400x10000) (View.ld x0 whole1_S10000x16) (View.ld x1 whole1_S1x16) (View.ld x2 whole1_S16x48) (View.ld x3 whole1_S1x16)⟩]

/-- The third band: the block of m = h · W2. -/
def midBlock (x0 : Vec F S10000x16 .f32) (x1 : Vec F S1x16 .f32) (x2 : Vec F S16x48 .f32) (x3 : Vec F S1x16 .f32) (x4 : Vec F S400x10000 .f32) : Vec F S400x16 .f32 :=
  View.canon [⟨whole1_S400x16, k1_pay4 (View.ld x4 whole1_S400x10000) (View.ld x0 whole1_S10000x16) (View.ld x1 whole1_S1x16) (View.ld x2 whole1_S16x48)⟩]

/-- One store through the whole rectangle covers the buffer. -/
theorem cover1_S400x16 (p0 : Vec F S400x16 .f32) (y : S400x16.Idx) :
    ∃ pc ∈ ([⟨whole1_S400x16, p0⟩] : List (View.Piece (Elt F) S400x16 .f32)), y ∈ pc.1.set :=
  View.cover_of_tiled [⟨whole1_S400x16, p0⟩] S400x16.size (by rfl) y

/-! ## The body's triple -/

set_option maxHeartbeats 4000000 in
/-- On whole staging memrefs, the inputs' at read contents and the outputs' at anything, the body runs to a state with
    the inputs' as they were and each output's at the value named above. -/
theorem run_body1 (c : Dev nD) (E : Set ℕ) (i : grid1.Coords) (a0 : Memref sig .tc .vmem S10000x16 .f32) (ha0 : a0.IsWhole) (a1 : Memref sig .tc .vmem S1x16 .f32) (ha1 : a1.IsWhole) (a2 : Memref sig .tc .vmem S16x48 .f32) (ha2 : a2.IsWhole) (a3 : Memref sig .tc .vmem S1x16 .f32) (ha3 : a3.IsWhole) (a4 : Memref sig .tc .vmem S400x10000 .f32) (ha4 : a4.IsWhole) (a5 : Memref sig .tc .vmem S400x16 .f32) (ha5 : a5.IsWhole) (a6 : Memref sig .tc .vmem S400x16 .f32) (ha6 : a6.IsWhole) (a7 : Memref sig .tc .vmem S400x16 .f32) (ha7 : a7.IsWhole)
    (x0 : Vec F S10000x16 .f32) (x1 : Vec F S1x16 .f32) (x2 : Vec F S16x48 .f32) (x3 : Vec F S1x16 .f32) (x4 : Vec F S400x10000 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare (logitBlock x0 x1 x2 x3 x4)
            ∗ owns (c : Thread nD τ) a6 fullShare (encBlock x0 x1 x2 x3 x4)
            ∗ owns (c : Thread nD τ) a7 fullShare (midBlock x0 x1 x2 x3 x4)) -∗ K ⟨⟩))
      ⊢ wp frame (wpE (defs₀ (F := F)) Variants.none c none) E (cc1__stream_a i a0 ha0 a1 ha1 a2 ha2 a3 ha3 a4 ha4 a5 ha5 a6 ha6 a7 ha7) K := by
  simp only [cc1__stream_a_eq_skeleton]; unfold cc1__stream_a_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_S400x16 _)
  isplitl [H6]
  · iexists _; isplitr
    swap; · iexact H6
    ipureintro
    exact View.read_writes_eq_canon _ _ _ (cover1_S400x16 _)
  iexists _; isplitr
  swap; · iexact H7
  ipureintro
  exact View.read_writes_eq_canon _ _ _ (cover1_S400x16 _)

/-! ## The pipeline's proof data -/

/-- Pipeline 1 on core `c`: the arrays as the call finds them; after the body at point `t` each input's buffer at its
    block and each output's at the value named above of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => logitBlock (blk1 V c 0 t) (blk1 V c 1 t) (blk1 V c 2 t) (blk1 V c 3 t) (blk1 V c 4 t)
    | ⟨6, _⟩ => encBlock (blk1 V c 0 t) (blk1 V c 1 t) (blk1 V c 2 t) (blk1 V c 3 t) (blk1 V c 4 t)
    | ⟨7, _⟩ => midBlock (blk1 V c 0 t) (blk1 V c 1 t) (blk1 V c 2 t) (blk1 V c 3 t) (blk1 V c 4 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = logitBlock (blk1 V c 0 t) (blk1 V c 1 t) (blk1 V c 2 t) (blk1 V c 3 t) (blk1 V c 4 t) := by dsimp only [dat1]
theorem dat1_after6 (c : Dev nD) (t : Fin cfg1.N) : (dat1 V c).after 6 t = encBlock (blk1 V c 0 t) (blk1 V c 1 t) (blk1 V c 2 t) (blk1 V c 3 t) (blk1 V c 4 t) := by dsimp only [dat1]
theorem dat1_after7 (c : Dev nD) (t : Fin cfg1.N) : (dat1 V c).after 7 t = midBlock (blk1 V c 0 t) (blk1 V c 1 t) (blk1 V c 2 t) (blk1 V c 3 t) (blk1 V c 4 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d
theorem dat1_before3 (c : Dev nD) (t : Fin cfg1.N) (d) : (dat1 V c).before 3 t d = blk1 V c 3 t :=
  held1_3 V (dat1 V c) (dat1_A V c 3) (dat1_after3 V c) t d
theorem dat1_before4 (c : Dev nD) (t : Fin cfg1.N) (d) : (dat1 V c).before 4 t d = blk1 V c 4 t :=
  held1_4 V (dat1 V c) (dat1_A V c 4) (dat1_after4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the triple applies; the invariant and the core's dues
    pass through unread. -/
theorem body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2, dat1_before3, dat1_before4]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_body1 c Set.univ _ _ _ _ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation1 (c : Dev nD) : BodyObligation (dat1 (F := F) V c) (defs₀ (F := F)) Variants.none () Set.univ := fun t => by
  rw [bigSep_W1, bigSep_W1]
  exact body1 V c t

end Cert.KernelIdeal.Body

end
-- ==== Proof.KernelIdeal.AttentionBody.lean ====
/-
  The third pallas_call: the softmax over all 160000 logits, laid out as a 1250×128 array staged whole at the one grid
  point: the maximum of all entries is subtracted, the exponential taken, and each entry divided by the sum of all of them.
  The one store goes through the buffer's whole rectangle.
-/
import proofs.«107558_g86887188398718_cont_9to1c4b_243_24_alg».proof.Proof.Gen.KernelIdeal.Launch
import proofs.«107558_g86887188398718_cont_9to1c4b_243_24_alg».proof.Proof.Gen.KernelIdeal.Skeleton
import proofs.«107558_g86887188398718_cont_9to1c4b_243_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pallas_call is entered
variable (V : (c : Dev nD) → (b : Ref sig .tc) → Buf (Elt F) ((c : Thread nD τ).loc b))

/-! ## The windows' blocks -/

/-- Window `w`'s block at grid point `t`, read off the array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the logits holds its block at every point, fetched there or not (unfetched, the block index has not moved). -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: each staging buffer whole -/

abbrev whole2_S1250x128 : Rect S1250x128 := Rect.unit (s := S1250x128) ![0, 0] S1250x128.size inb_S1250x128_S1250x128_0_0

/-! ## What the body leaves in each output's staging buffer -/

/-- The softmax of the whole block. -/
def attention (x0 : Vec F S1250x128 .f32) : Vec F S1250x128 .f32 :=
  View.canon [⟨whole2_S1250x128, k2_pay1 (View.ld x0 whole2_S1250x128)⟩]

/-- One store through the whole rectangle covers the buffer. -/
theorem cover2_S1250x128 (p0 : Vec F S1250x128 .f32) (y : S1250x128.Idx) :
    ∃ pc ∈ ([⟨whole2_S1250x128, p0⟩] : List (View.Piece (Elt F) S1250x128 .f32)), y ∈ pc.1.set :=
  View.cover_of_tiled [⟨whole2_S1250x128, p0⟩] S1250x128.size (by rfl) y

/-! ## The body's triple -/

set_option maxHeartbeats 4000000 in
/-- On whole staging memrefs, the inputs' at read contents and the outputs' at anything, the body runs to a state with
    the inputs' as they were and each output's at the value named above. -/
theorem run_body2 (c : Dev nD) (E : Set ℕ) (a0 : Memref sig .tc .vmem S1250x128 .f32) (ha0 : a0.IsWhole) (a1 : Memref sig .tc .vmem S1250x128 .f32) (ha1 : a1.IsWhole)
    (x0 : Vec F S1250x128 .f32) (K : PUnit → sProp 𝕄) :
    iprop(owns (c : Thread nD τ) a0 fullShare x0 ∗ (∃ d, owns (c : Thread nD τ) a1 fullShare d)
        ∗ (iprop(owns (c : Thread nD τ) a0 fullShare x0
            ∗ owns (c : Thread nD τ) a1 fullShare (attention x0)) -∗ K ⟨⟩))
      ⊢ wp frame (wpE (defs₀ (F := F)) Variants.none c none) E (cc2__mk_al a0 ha0 a1 ha1) K := by
  simp only [cc2__mk_al_eq_skeleton]; unfold cc2__mk_al_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_S1250x128 _)

/-! ## The pipeline's proof data -/

/-- Pipeline 2 on core `c`: the arrays as the call finds them; after the body at point `t` each input's buffer at its
    block and each output's at the value named above of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => attention (blk2 V c 0 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = attention (blk2 V c 0 t) := by dsimp only [dat2]

theorem dat2_before0 (c : Dev nD) (t : Fin cfg2.N) (d) : (dat2 V c).before 0 t d = blk2 V c 0 t :=
  held2_0 V (dat2 V c) (dat2_A V c 0) (dat2_after0 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the inputs' memrefs hold their blocks, so the triple applies; the invariant and the core's dues
    pass through unread. -/
theorem body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before0]
  rw [show (dat2 V c).Φ t.succ = (dat2 V c).Φ t.castSucc from rfl,
    show (dat2 V c).owesAt () t.succ = (dat2 V c).owesAt () t.castSucc from rfl,
    dat2_after0, dat2_after1]
  iintro ⟨HΦ, Ho, ⟨%d0, H0⟩, ⟨%d1, H1⟩⟩
  iapply (run_body2 c Set.univ _ _ _ _ (blk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem obligation2 (c : Dev nD) : BodyObligation (dat2 (F := F) V c) (defs₀ (F := F)) Variants.none () Set.univ := fun t => by
  rw [bigSep_W2, bigSep_W2]
  exact body2 V c t

end Cert.KernelIdeal.Body

end
-- ==== Proof.KernelIdeal.StreamBBody.lean ====
/-
  The fourth pallas_call, the second stream over the adjacency matrix: at each of 25 grid points a block of 400 rows of
  adj is multiplied into the whole of m, the bias row b2 added, and the row-wise log-softmax taken (each row less its
  maximum, less the logarithm of the sum of the exponentials of that difference). The one store goes through the
  buffer's whole rectangle.
-/
import proofs.«107558_g86887188398718_cont_9to1c4b_243_24_alg».proof.Proof.Gen.KernelIdeal.Launch
import proofs.«107558_g86887188398718_cont_9to1c4b_243_24_alg».proof.Proof.Gen.KernelIdeal.Skeleton
import proofs.«107558_g86887188398718_cont_9to1c4b_243_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pallas_call is entered
variable (V : (c : Dev nD) → (b : Ref sig .tc) → Buf (Elt F) ((c : Thread nD τ).loc b))

/-! ## The windows' blocks -/

/-- Window `w`'s block at grid point `t`, read off the array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of the matrix m holds its block at every point, fetched there or not (unfetched, the block index has not moved). -/
theorem held3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The staging buffer of the bias row b2 holds its block at every point, fetched there or not (unfetched, the block index has not moved). -/
theorem held3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The staging buffer of the block of adj holds its block at every point, fetched there or not (unfetched, the block index has not moved). -/
theorem held3_2 {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-! ## The body's accesses: each staging buffer whole -/

abbrev whole3_S10000x16 : Rect S10000x16 := Rect.unit (s := S10000x16) ![0, 0] S10000x16.size inb_S10000x16_S10000x16_0_0
abbrev whole3_S1x16 : Rect S1x16 := Rect.unit (s := S1x16) ![0, 0] S1x16.size inb_S1x16_S1x16_0_0
abbrev whole3_S400x10000 : Rect S400x10000 := Rect.unit (s := S400x10000) ![0, 0] S400x10000.size inb_S400x10000_S400x10000_0_0
abbrev whole3_S400x16 : Rect S400x16 := Rect.unit (s := S400x16) ![0, 0] S400x16.size inb_S400x16_S400x16_0_0

/-! ## What the body leaves in each output's staging buffer -/

/-- The row-wise log-softmax of adj-block · m + b2. -/
def logSoftmaxBlock (x0 : Vec F S10000x16 .f32) (x1 : Vec F S1x16 .f32) (x2 : Vec F S400x10000 .f32) : Vec F S400x16 .f32 :=
  View.canon [⟨whole3_S400x16, k3_pay1 (View.ld x2 whole3_S400x10000) (View.ld x0 whole3_S10000x16) (View.ld x1 whole3_S1x16)⟩]

/-- One store through the whole rectangle covers the buffer. -/
theorem cover3_S400x16 (p0 : Vec F S400x16 .f32) (y : S400x16.Idx) :
    ∃ pc ∈ ([⟨whole3_S400x16, p0⟩] : List (View.Piece (Elt F) S400x16 .f32)), y ∈ pc.1.set :=
  View.cover_of_tiled [⟨whole3_S400x16, p0⟩] S400x16.size (by rfl) y

/-! ## The body's triple -/

set_option maxHeartbeats 4000000 in
/-- On whole staging memrefs, the inputs' at read contents and the outputs' at anything, the body runs to a state with
    the inputs' as they were and each output's at the value named above. -/
theorem run_body3 (c : Dev nD) (E : Set ℕ) (i : grid3.Coords) (a0 : Memref sig .tc .vmem S10000x16 .f32) (ha0 : a0.IsWhole) (a1 : Memref sig .tc .vmem S1x16 .f32) (ha1 : a1.IsWhole) (a2 : Memref sig .tc .vmem S400x10000 .f32) (ha2 : a2.IsWhole) (a3 : Memref sig .tc .vmem S400x16 .f32) (ha3 : a3.IsWhole)
    (x0 : Vec F S10000x16 .f32) (x1 : Vec F S1x16 .f32) (x2 : Vec F S400x10000 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0
            ∗ owns (c : Thread nD τ) a1 fullShare x1
            ∗ owns (c : Thread nD τ) a2 fullShare x2
            ∗ owns (c : Thread nD τ) a3 fullShare (logSoftmaxBlock x0 x1 x2)) -∗ K ⟨⟩))
      ⊢ wp frame (wpE (defs₀ (F := F)) Variants.none c none) E (cc3__stream_b i a0 ha0 a1 ha1 a2 ha2 a3 ha3) K := by
  simp only [cc3__stream_b_eq_skeleton]; unfold cc3__stream_b_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_S400x16 _)

/-! ## The pipeline's proof data -/

/-- Pipeline 3 on core `c`: the arrays as the call finds them; after the body at point `t` each input's buffer at its
    block and each output's at the value named above of the input blocks; the scoped rest and the generator register
    untouched; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => logSoftmaxBlock (blk3 V c 0 t) (blk3 V c 1 t) (blk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = logSoftmaxBlock (blk3 V c 0 t) (blk3 V c 1 t) (blk3 V c 2 t) := by dsimp only [dat3]

theorem dat3_before0 (c : Dev nD) (t : Fin cfg3.N) (d) : (dat3 V c).before 0 t d = blk3 V c 0 t :=
  held3_0 V (dat3 V c) (dat3_A V c 0) (dat3_after0 V c) t d
theorem dat3_before1 (c : Dev nD) (t : Fin cfg3.N) (d) : (dat3 V c).before 1 t d = blk3 V c 1 t :=
  held3_1 V (dat3 V c) (dat3_A V c 1) (dat3_after1 V c) t d
theorem dat3_before2 (c : Dev nD) (t : Fin cfg3.N) (d) : (dat3 V c).before 2 t d = blk3 V c 2 t :=
  held3_2 V (dat3 V c) (dat3_A V c 2) (dat3_after2 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the triple applies; the invariant and the core's dues
    pass through unread. -/
theorem body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [dat3_before0, dat3_before1, dat3_before2]
  rw [show (dat3 V c).Φ t.succ = (dat3 V c).Φ t.castSucc from rfl,
    show (dat3 V c).owesAt () t.succ = (dat3 V c).owesAt () t.castSucc from rfl,
    dat3_after0, dat3_after1, dat3_after2, dat3_after3]
  iintro ⟨HΦ, Ho, ⟨%d0, H0⟩, ⟨%d1, H1⟩, ⟨%d2, H2⟩, ⟨%d3, H3⟩⟩
  iapply (run_body3 c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation3 (c : Dev nD) : BodyObligation (dat3 (F := F) V c) (defs₀ (F := F)) Variants.none () Set.univ := fun t => by
  rw [bigSep_W3, bigSep_W3]
  exact body3 V c t

end Cert.KernelIdeal.Body

end
-- ==== Proof.KernelIdeal.MainRun.lean ====
/-
  The whole program as a chain of segments: a stretch of host operations, the four pallas_calls (two of them back to back,
  a reshape between the second and the third), and a last reshape. Between two segments the TensorCore holds every
  unscoped buffer whole at contents named here: the launch memory, then each host stretch's operations applied, then,
  after a pallas_call, its arrays at what the pipeline's write-backs leave and every other buffer as before. Each
  pallas_call is entered from those contents and left at the next ones; the run of the chain then ends with every
  unscoped buffer at the last contents, from which the arguments (never written) and the three results are read.
-/
import proofs.«107558_g86887188398718_cont_9to1c4b_243_24_alg».proof.Proof.KernelIdeal.SupportBody
import proofs.«107558_g86887188398718_cont_9to1c4b_243_24_alg».proof.Proof.KernelIdeal.StreamABody
import proofs.«107558_g86887188398718_cont_9to1c4b_243_24_alg».proof.Proof.KernelIdeal.AttentionBody
import proofs.«107558_g86887188398718_cont_9to1c4b_243_24_alg».proof.Proof.KernelIdeal.StreamBBody
import proofs.«107558_g86887188398718_cont_9to1c4b_243_24_alg».proof.Proof.Gen.KernelIdeal.Regions

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- At launch. -/
abbrev B0 : Dev nD → Valuation τ sig (Elt F) := fun c b => m (c, b)
/-- After the first host stretch (the bias rows reshaped, We transposed, the three weight matrices concatenated). -/
abbrev B1 : Dev nD → Valuation τ sig (Elt F) := fun c => StableHlo.after hostOps0 (B0 m c)
/-- The same, read at the TensorCore's references. -/
abbrev T1 : (c : Dev nD) → (b : Ref sig .tc) → Buf (Elt F) ((c : Thread nD τ).loc b) := fun c b => B1 m c b
/-- After the first pallas_call: its arrays at what its pipeline leaves, the rest as before. -/
def B2 (c : Dev nD) : Valuation τ sig (Elt F) :=
  Pipeline.withArrays spec0 c (B1 m c) fun w => (dat0 (T1 m) c).arrAt w cfg0.N
abbrev T2 : (c : Dev nD) → (b : Ref sig .tc) → Buf (Elt F) ((c : Thread nD τ).loc b) := fun c b => B2 m c b
/-- After the second pallas_call. -/
def B3 (c : Dev nD) : Valuation τ sig (Elt F) :=
  Pipeline.withArrays spec1 c (B2 m c) fun w => (dat1 (T2 m) c).arrAt w cfg1.N
abbrev T3 : (c : Dev nD) → (b : Ref sig .tc) → Buf (Elt F) ((c : Thread nD τ).loc b) := fun c b => B3 m c b
/-- After the reshape of the logits to 1250×128. -/
abbrev B4 : Dev nD → Valuation τ sig (Elt F) := fun c => StableHlo.after hostOps2 (B3 m c)
abbrev T4 : (c : Dev nD) → (b : Ref sig .tc) → Buf (Elt F) ((c : Thread nD τ).loc b) := fun c b => B4 m c b
/-- After the third pallas_call. -/
def B5 (c : Dev nD) : Valuation τ sig (Elt F) :=
  Pipeline.withArrays spec2 c (B4 m c) fun w => (dat2 (T4 m) c).arrAt w cfg2.N
abbrev T5 : (c : Dev nD) → (b : Ref sig .tc) → Buf (Elt F) ((c : Thread nD τ).loc b) := fun c b => B5 m c b
/-- After the fourth pallas_call. -/
def B6 (c : Dev nD) : Valuation τ sig (Elt F) :=
  Pipeline.withArrays spec3 c (B5 m c) fun w => (dat3 (T5 m) c).arrAt w cfg3.N
abbrev T6 : (c : Dev nD) → (b : Ref sig .tc) → Buf (Elt F) ((c : Thread nD τ).loc b) := fun c b => B6 m c b
/-- After the last reshape: the end. -/
abbrev B7 : Dev nD → Valuation τ sig (Elt F) := fun c => StableHlo.after hostOps4 (B6 m c)

theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w
theorem B2_rest (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem leaves0 (c : Dev nD) (w : Fin cfg0.W) : (dat0 (T1 m) c).arrAt w cfg0.N = T2 m c (Pipeline.arrRef spec0 w) :=
  (B2_arr m c w).symm
theorem keeps0 (c : Dev nD) : ∀ b, b ∉ Finset.univ.image (Pipeline.arrRef spec0) → T2 m c b = T1 m c b :=
  fun b hb => B2_rest m c b fun w e => hb (Finset.mem_image.mpr ⟨w, Finset.mem_univ _, e⟩)

theorem B3_arr (c : Dev nD) (w : Fin cfg1.W) :
    B3 m c (Proc.devRef .tc (Pipeline.arrRef spec1 w)) = (dat1 (T2 m) c).arrAt w cfg1.N := by
  unfold B3; exact Pipeline.withArrays_arr spec1 launch1.win.arr_inj c _ _ w
theorem B3_rest (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
theorem leaves1 (c : Dev nD) (w : Fin cfg1.W) : (dat1 (T2 m) c).arrAt w cfg1.N = T3 m c (Pipeline.arrRef spec1 w) :=
  (B3_arr m c w).symm
theorem keeps1 (c : Dev nD) : ∀ b, b ∉ Finset.univ.image (Pipeline.arrRef spec1) → T3 m c b = T2 m c b :=
  fun b hb => B3_rest m c b fun w e => hb (Finset.mem_image.mpr ⟨w, Finset.mem_univ _, e⟩)

theorem B5_arr (c : Dev nD) (w : Fin cfg2.W) :
    B5 m c (Proc.devRef .tc (Pipeline.arrRef spec2 w)) = (dat2 (T4 m) c).arrAt w cfg2.N := by
  unfold B5; exact Pipeline.withArrays_arr spec2 launch2.win.arr_inj c _ _ w
theorem B5_rest (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
theorem leaves2 (c : Dev nD) (w : Fin cfg2.W) : (dat2 (T4 m) c).arrAt w cfg2.N = T5 m c (Pipeline.arrRef spec2 w) :=
  (B5_arr m c w).symm
theorem keeps2 (c : Dev nD) : ∀ b, b ∉ Finset.univ.image (Pipeline.arrRef spec2) → T5 m c b = T4 m c b :=
  fun b hb => B5_rest m c b fun w e => hb (Finset.mem_image.mpr ⟨w, Finset.mem_univ _, e⟩)

theorem B6_arr (c : Dev nD) (w : Fin cfg3.W) :
    B6 m c (Proc.devRef .tc (Pipeline.arrRef spec3 w)) = (dat3 (T5 m) c).arrAt w cfg3.N := by
  unfold B6; exact Pipeline.withArrays_arr spec3 launch3.win.arr_inj c _ _ w
theorem B6_rest (c : Dev nD) (b : Ref sig .tc) (hb : ∀ w, Pipeline.arrRef spec3 w ≠ b) :
    B6 m c (Proc.devRef .tc b) = B5 m c (Proc.devRef .tc b) := by
  unfold B6; exact Pipeline.withArrays_of_ne spec3 c _ _ b hb
theorem leaves3 (c : Dev nD) (w : Fin cfg3.W) : (dat3 (T5 m) c).arrAt w cfg3.N = T6 m c (Pipeline.arrRef spec3 w) :=
  (B6_arr m c w).symm
theorem keeps3 (c : Dev nD) : ∀ b, b ∉ Finset.univ.image (Pipeline.arrRef spec3) → T6 m c b = T5 m c b :=
  fun b hb => B6_rest m c b fun w e => hb (Finset.mem_image.mpr ⟨w, Finset.mem_univ _, e⟩)

/-! ## The proof data family and what rides beside the buffers -/

/-- No pipeline has a prefetched table. -/
abbrev adm : (p : Fin 4) → (pcfgs (F := F) p).Adm := fun p => (cfgs p).toPCfg_adm
/-- Every pipeline's proof data, each at the contents its pallas_call is entered from. -/
def pdats : (p : Fin 4) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c
  | ⟨2, _⟩ => fun c => dat2 (T4 m) c
  | ⟨3, _⟩ => fun c => dat3 (T5 m) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and its dues, at nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (B7 m c) ∗ ∃ r, prngReg c r)

/-! ## The pallas_calls as segments -/

set_option backward.isDefEq.respectTransparency.types false in
/-- Pallas_call 0: entered with every unscoped buffer at `B1`, left with them at `B2`. Its arrays are split out of the
    unscoped buffers on entry and put back at what the pipeline leaves on exit; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (T1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1: entered with every unscoped buffer at `B2`, left with them at `B3`. Its arrays are split out of the
    unscoped buffers on entry and put back at what the pipeline leaves on exit; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (T2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T2 m c) (T3 m c) ((pdats m 1 c).arrAt · cfg1.N) (leaves1 m c) (keeps1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2: entered with every unscoped buffer at `B4`, left with them at `B5`. Its arrays are split out of the
    unscoped buffers on entry and put back at what the pipeline leaves on exit; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (T4 m) c).loose
  hwaits := Pipeline.hwaits_of_owed_zero _ _ _ _ L lv 2 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T4 m c) (T5 m c) ((pdats m 2 c).arrAt · cfg2.N) (leaves2 m c) (keeps2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 3: entered with every unscoped buffer at `B5`, left with them at `B6`. Its arrays are split out of the
    unscoped buffers on entry and put back at what the pipeline leaves on exit; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (T5 m) c).loose
  hwaits := Pipeline.hwaits_of_owed_zero _ _ _ _ L lv 3 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec3 c (T5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T5 m c) (T6 m c) ((pdats m 3 c).arrAt · cfg3.N) (leaves3 m c) (keeps3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The seven segments in order. -/
abbrev segs : List (Pipeline.Seg (pcfgs (F := F)) adm (pdats m) () defs₀ 𝒱₀ L lv) :=
  [ .host (hseg hostOps0 hostOps0_sub hostOps0_fresh (B0 m)),
    .region (reg0 m),
    .region (reg1 m),
    .host (hseg hostOps2 hostOps2_sub hostOps2_fresh (B3 m)),
    .region (reg2 m),
    .region (reg3 m),
    .host (hseg hostOps4 hostOps4_sub hostOps4_fresh (B6 m)) ]

/-- The program is the run of its segments. -/
theorem main_is_segs (c : Dev nD) : main (F := F) c = Pipeline.Seg.run (segs m) := (main_chain c).trans (by chain_rfl)

set_option backward.isDefEq.respectTransparency.types false in
/-- From any memory with zero counters every weakly fair execution of the program terminates, nothing faulting, and in
    every final state each unscoped TensorCore buffer holds the last contents `B7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (B7 m c) ∗ R c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

end Cert.KernelIdeal.Body

end
-- ==== Proof.KernelIdeal.ArgsKept.lean ====
/-
  No host operation and no pallas_call writes an argument array: a pallas_call reads it through an input window or does not
  touch it. So the last contents at an argument's buffer walk back, boundary by boundary, to the launch memory, and the
  run of the whole program ends with every argument array as launched.
-/
import proofs.«107558_g86887188398718_cont_9to1c4b_243_24_alg».proof.Proof.KernelIdeal.MainRun

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem B7_main_arg0 (c : Dev nD) : B7 m c (Proc.devRef .tc main_arg0) = m ((c : Thread nD τ).loc main_arg0) :=
  calc B7 m c (Proc.devRef .tc main_arg0)
    _ = B6 m c (Proc.devRef .tc main_arg0) := StableHlo.after_of_writes_sub hostOps4 _ hostOps4_writes (by decide)
    _ = B5 m c (Proc.devRef .tc main_arg0) := B6_rest m c main_arg0 (by decide)
    _ = B4 m c (Proc.devRef .tc main_arg0) := B5_rest m c main_arg0 (by decide)
    _ = B3 m c (Proc.devRef .tc main_arg0) := StableHlo.after_of_writes_sub hostOps2 _ hostOps2_writes (by decide)
    _ = B2 m c (Proc.devRef .tc main_arg0) := B3_rest m c main_arg0 (by decide)
    _ = B1 m c (Proc.devRef .tc main_arg0) := (B2_arr m c 0).trans (((dat0 (T1 m) c).arrAt_in 0 rfl _).trans (dat0_A (T1 m) c 0))
    _ = B0 m c (Proc.devRef .tc main_arg0) := StableHlo.after_of_writes_sub hostOps0 _ hostOps0_writes (by decide)
    _ = m ((c : Thread nD τ).loc main_arg0) := rfl

theorem B7_main_arg1 (c : Dev nD) : B7 m c (Proc.devRef .tc main_arg1) = m ((c : Thread nD τ).loc main_arg1) :=
  calc B7 m c (Proc.devRef .tc main_arg1)
    _ = B6 m c (Proc.devRef .tc main_arg1) := StableHlo.after_of_writes_sub hostOps4 _ hostOps4_writes (by decide)
    _ = B5 m c (Proc.devRef .tc main_arg1) := (B6_arr m c 2).trans (((dat3 (T5 m) c).arrAt_in 2 rfl _).trans (dat3_A (T5 m) c 2))
    _ = B4 m c (Proc.devRef .tc main_arg1) := B5_rest m c main_arg1 (by decide)
    _ = B3 m c (Proc.devRef .tc main_arg1) := StableHlo.after_of_writes_sub hostOps2 _ hostOps2_writes (by decide)
    _ = B2 m c (Proc.devRef .tc main_arg1) := (B3_arr m c 4).trans (((dat1 (T2 m) c).arrAt_in 4 rfl _).trans (dat1_A (T2 m) c 4))
    _ = B1 m c (Proc.devRef .tc main_arg1) := B2_rest m c main_arg1 (by decide)
    _ = B0 m c (Proc.devRef .tc main_arg1) := StableHlo.after_of_writes_sub hostOps0 _ hostOps0_writes (by decide)
    _ = m ((c : Thread nD τ).loc main_arg1) := rfl

theorem B7_main_arg2 (c : Dev nD) : B7 m c (Proc.devRef .tc main_arg2) = m ((c : Thread nD τ).loc main_arg2) :=
  calc B7 m c (Proc.devRef .tc main_arg2)
    _ = B6 m c (Proc.devRef .tc main_arg2) := StableHlo.after_of_writes_sub hostOps4 _ hostOps4_writes (by decide)
    _ = B5 m c (Proc.devRef .tc main_arg2) := B6_rest m c main_arg2 (by decide)
    _ = B4 m c (Proc.devRef .tc main_arg2) := B5_rest m c main_arg2 (by decide)
    _ = B3 m c (Proc.devRef .tc main_arg2) := StableHlo.after_of_writes_sub hostOps2 _ hostOps2_writes (by decide)
    _ = B2 m c (Proc.devRef .tc main_arg2) := B3_rest m c main_arg2 (by decide)
    _ = B1 m c (Proc.devRef .tc main_arg2) := (B2_arr m c 1).trans (((dat0 (T1 m) c).arrAt_in 1 rfl _).trans (dat0_A (T1 m) c 1))
    _ = B0 m c (Proc.devRef .tc main_arg2) := StableHlo.after_of_writes_sub hostOps0 _ hostOps0_writes (by decide)
    _ = m ((c : Thread nD τ).loc main_arg2) := rfl

theorem B7_main_arg3 (c : Dev nD) : B7 m c (Proc.devRef .tc main_arg3) = m ((c : Thread nD τ).loc main_arg3) :=
  calc B7 m c (Proc.devRef .tc main_arg3)
    _ = B6 m c (Proc.devRef .tc main_arg3) := StableHlo.after_of_writes_sub hostOps4 _ hostOps4_writes (by decide)
    _ = B5 m c (Proc.devRef .tc main_arg3) := B6_rest m c main_arg3 (by decide)
    _ = B4 m c (Proc.devRef .tc main_arg3) := B5_rest m c main_arg3 (by decide)
    _ = B3 m c (Proc.devRef .tc main_arg3) := StableHlo.after_of_writes_sub hostOps2 _ hostOps2_writes (by decide)
    _ = B2 m c (Proc.devRef .tc main_arg3) := B3_rest m c main_arg3 (by decide)
    _ = B1 m c (Proc.devRef .tc main_arg3) := B2_rest m c main_arg3 (by decide)
    _ = B0 m c (Proc.devRef .tc main_arg3) := StableHlo.after_of_writes_sub hostOps0 _ hostOps0_writes (by decide)
    _ = m ((c : Thread nD τ).loc main_arg3) := rfl

theorem B7_main_arg4 (c : Dev nD) : B7 m c (Proc.devRef .tc main_arg4) = m ((c : Thread nD τ).loc main_arg4) :=
  calc B7 m c (Proc.devRef .tc main_arg4)
    _ = B6 m c (Proc.devRef .tc main_arg4) := StableHlo.after_of_writes_sub hostOps4 _ hostOps4_writes (by decide)
    _ = B5 m c (Proc.devRef .tc main_arg4) := B6_rest m c main_arg4 (by decide)
    _ = B4 m c (Proc.devRef .tc main_arg4) := B5_rest m c main_arg4 (by decide)
    _ = B3 m c (Proc.devRef .tc main_arg4) := StableHlo.after_of_writes_sub hostOps2 _ hostOps2_writes (by decide)
    _ = B2 m c (Proc.devRef .tc main_arg4) := B3_rest m c main_arg4 (by decide)
    _ = B1 m c (Proc.devRef .tc main_arg4) := B2_rest m c main_arg4 (by decide)
    _ = B0 m c (Proc.devRef .tc main_arg4) := StableHlo.after_of_writes_sub hostOps0 _ hostOps0_writes (by decide)
    _ = m ((c : Thread nD τ).loc main_arg4) := rfl

theorem B7_main_arg5 (c : Dev nD) : B7 m c (Proc.devRef .tc main_arg5) = m ((c : Thread nD τ).loc main_arg5) :=
  calc B7 m c (Proc.devRef .tc main_arg5)
    _ = B6 m c (Proc.devRef .tc main_arg5) := StableHlo.after_of_writes_sub hostOps4 _ hostOps4_writes (by decide)
    _ = B5 m c (Proc.devRef .tc main_arg5) := B6_rest m c main_arg5 (by decide)
    _ = B4 m c (Proc.devRef .tc main_arg5) := B5_rest m c main_arg5 (by decide)
    _ = B3 m c (Proc.devRef .tc main_arg5) := StableHlo.after_of_writes_sub hostOps2 _ hostOps2_writes (by decide)
    _ = B2 m c (Proc.devRef .tc main_arg5) := B3_rest m c main_arg5 (by decide)
    _ = B1 m c (Proc.devRef .tc main_arg5) := B2_rest m c main_arg5 (by decide)
    _ = B0 m c (Proc.devRef .tc main_arg5) := StableHlo.after_of_writes_sub hostOps0 _ hostOps0_writes (by decide)
    _ = m ((c : Thread nD τ).loc main_arg5) := rfl

theorem B7_main_arg6 (c : Dev nD) : B7 m c (Proc.devRef .tc main_arg6) = m ((c : Thread nD τ).loc main_arg6) :=
  calc B7 m c (Proc.devRef .tc main_arg6)
    _ = B6 m c (Proc.devRef .tc main_arg6) := StableHlo.after_of_writes_sub hostOps4 _ hostOps4_writes (by decide)
    _ = B5 m c (Proc.devRef .tc main_arg6) := B6_rest m c main_arg6 (by decide)
    _ = B4 m c (Proc.devRef .tc main_arg6) := B5_rest m c main_arg6 (by decide)
    _ = B3 m c (Proc.devRef .tc main_arg6) := StableHlo.after_of_writes_sub hostOps2 _ hostOps2_writes (by decide)
    _ = B2 m c (Proc.devRef .tc main_arg6) := B3_rest m c main_arg6 (by decide)
    _ = B1 m c (Proc.devRef .tc main_arg6) := B2_rest m c main_arg6 (by decide)
    _ = B0 m c (Proc.devRef .tc main_arg6) := StableHlo.after_of_writes_sub hostOps0 _ hostOps0_writes (by decide)
    _ = m ((c : Thread nD τ).loc main_arg6) := rfl

theorem B7_main_arg7 (c : Dev nD) : B7 m c (Proc.devRef .tc main_arg7) = m ((c : Thread nD τ).loc main_arg7) :=
  calc B7 m c (Proc.devRef .tc main_arg7)
    _ = B6 m c (Proc.devRef .tc main_arg7) := StableHlo.after_of_writes_sub hostOps4 _ hostOps4_writes (by decide)
    _ = B5 m c (Proc.devRef .tc main_arg7) := B6_rest m c main_arg7 (by decide)
    _ = B4 m c (Proc.devRef .tc main_arg7) := B5_rest m c main_arg7 (by decide)
    _ = B3 m c (Proc.devRef .tc main_arg7) := StableHlo.after_of_writes_sub hostOps2 _ hostOps2_writes (by decide)
    _ = B2 m c (Proc.devRef .tc main_arg7) := B3_rest m c main_arg7 (by decide)
    _ = B1 m c (Proc.devRef .tc main_arg7) := B2_rest m c main_arg7 (by decide)
    _ = B0 m c (Proc.devRef .tc main_arg7) := StableHlo.after_of_writes_sub hostOps0 _ hostOps0_writes (by decide)
    _ = m ((c : Thread nD τ).loc main_arg7) := rfl

theorem B7_main_arg8 (c : Dev nD) : B7 m c (Proc.devRef .tc main_arg8) = m ((c : Thread nD τ).loc main_arg8) :=
  calc B7 m c (Proc.devRef .tc main_arg8)
    _ = B6 m c (Proc.devRef .tc main_arg8) := StableHlo.after_of_writes_sub hostOps4 _ hostOps4_writes (by decide)
    _ = B5 m c (Proc.devRef .tc main_arg8) := B6_rest m c main_arg8 (by decide)
    _ = B4 m c (Proc.devRef .tc main_arg8) := B5_rest m c main_arg8 (by decide)
    _ = B3 m c (Proc.devRef .tc main_arg8) := StableHlo.after_of_writes_sub hostOps2 _ hostOps2_writes (by decide)
    _ = B2 m c (Proc.devRef .tc main_arg8) := B3_rest m c main_arg8 (by decide)
    _ = B1 m c (Proc.devRef .tc main_arg8) := B2_rest m c main_arg8 (by decide)
    _ = B0 m c (Proc.devRef .tc main_arg8) := StableHlo.after_of_writes_sub hostOps0 _ hostOps0_writes (by decide)
    _ = m ((c : Thread nD τ).loc main_arg8) := rfl

/-- From any memory with zero counters every weakly fair execution terminates, nothing faulting, with every argument
    array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (B7_main_arg0 m c),
      (h c _ (mem_uc main_arg1 (by decide))).trans (B7_main_arg1 m c),
      (h c _ (mem_uc main_arg2 (by decide))).trans (B7_main_arg2 m c),
      (h c _ (mem_uc main_arg3 (by decide))).trans (B7_main_arg3 m c),
      (h c _ (mem_uc main_arg4 (by decide))).trans (B7_main_arg4 m c),
      (h c _ (mem_uc main_arg5 (by decide))).trans (B7_main_arg5 m c),
      (h c _ (mem_uc main_arg6 (by decide))).trans (B7_main_arg6 m c),
      (h c _ (mem_uc main_arg7 (by decide))).trans (B7_main_arg7 m c),
      (h c _ (mem_uc main_arg8 (by decide))).trans (B7_main_arg8 m c)⟩)
    (run_all m ρ)

end Cert.KernelIdeal.Body

end
-- ==== Proof.KernelIdeal.Contents.lean ====
/-
  What the buffers hold where the value of the program is read.
  At the end: the log-softmax result is the array the fourth pallas_call's write-backs leave; the encoder output is the
  second output array of the second pallas_call; the attention result is the third pallas_call's output array reshaped from
  1250×128 to 10000×16.
  On entry to each pallas_call: its input arrays are arguments as launched, or what the first host stretch made of them
  (the bias vectors as 1×16 rows; att, the transpose of We, and W2 side by side as a 16×48 matrix), or an earlier
  pallas_call's output array, possibly reshaped.
-/
import proofs.«107558_g86887188398718_cont_9to1c4b_243_24_alg».proof.Proof.KernelIdeal.ArgsKept

set_option maxRecDepth 16384

noncomputable section

namespace Cert.KernelIdeal.Body

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

/-! ## The three results at the end -/

theorem end_logSoftmax (c : Dev nD) : B7 m c (Proc.devRef .tc main_v9) = (dat3 (T5 m) c).arrAt 3 cfg3.N :=
  calc B7 m c (Proc.devRef .tc main_v9)
    _ = B6 m c (Proc.devRef .tc main_v9) := StableHlo.after_of_writes_sub hostOps4 _ hostOps4_writes (by decide)
    _ = (dat3 (T5 m) c).arrAt 3 cfg3.N := B6_arr m c 3

theorem end_enc (c : Dev nD) : B7 m c (Proc.devRef .tc main_v6_1) = (dat1 (T2 m) c).arrAt 6 cfg1.N :=
  calc B7 m c (Proc.devRef .tc main_v6_1)
    _ = B6 m c (Proc.devRef .tc main_v6_1) := StableHlo.after_of_writes_sub hostOps4 _ hostOps4_writes (by decide)
    _ = B5 m c (Proc.devRef .tc main_v6_1) := B6_rest m c main_v6_1 (by decide)
    _ = B4 m c (Proc.devRef .tc main_v6_1) := B5_rest m c main_v6_1 (by decide)
    _ = B3 m c (Proc.devRef .tc main_v6_1) := StableHlo.after_of_writes_sub hostOps2 _ hostOps2_writes (by decide)
    _ = (dat1 (T2 m) c).arrAt 6 cfg1.N := B3_arr m c 6

theorem attention_array (c : Dev nD) : B6 m c (Proc.devRef .tc main_v8) = (dat2 (T4 m) c).arrAt 1 cfg2.N :=
  calc B6 m c (Proc.devRef .tc main_v8)
    _ = B5 m c (Proc.devRef .tc main_v8) := B6_rest m c main_v8 (by decide)
    _ = (dat2 (T4 m) c).arrAt 1 cfg2.N := B5_arr m c 1

theorem end_attention (c : Dev nD) :
    (B7 m c (Proc.devRef .tc main_v10) : S10000x16.Idx → Elt F .f32)
      = shapeCast S10000x16 ((dat2 (T4 m) c).arrAt 1 cfg2.N) shapeCasts_S1250x128_S10000x16 := by
  rw [← attention_array m c]
  show StableHlo.after hostOps4 (B6 m c) (Proc.devRef .tc main_v10) = _
  after_results
  rfl

/-! ## The first pallas_call's inputs -/

theorem in0_x (c : Dev nD) : T1 m c main_arg0 = (m ((c : Thread nD τ).loc main_arg0)) :=
  StableHlo.after_of_writes_sub hostOps0 _ hostOps0_writes (by decide)
theorem in0_w1 (c : Dev nD) : T1 m c main_arg2 = (m ((c : Thread nD τ).loc main_arg2)) :=
  StableHlo.after_of_writes_sub hostOps0 _ hostOps0_writes (by decide)

/-! ## What the first host stretch makes -/

theorem row_b1 (c : Dev nD) : (T1 m c main_v0 : S1x16.Idx → Elt F .f32) = shapeCast S1x16 (m ((c : Thread nD τ).loc main_arg3)) shapeCasts_S16_S1x16 := by
  show StableHlo.after hostOps0 (B0 m c) (Proc.devRef .tc main_v0) = _
  after_results
  rfl
theorem row_b2 (c : Dev nD) : (T1 m c main_v1 : S1x16.Idx → Elt F .f32) = shapeCast S1x16 (m ((c : Thread nD τ).loc main_arg5)) shapeCasts_S16_S1x16 := by
  show StableHlo.after hostOps0 (B0 m c) (Proc.devRef .tc main_v1) = _
  after_results
  rfl
theorem row_be (c : Dev nD) : (T1 m c main_v2 : S1x16.Idx → Elt F .f32) = shapeCast S1x16 (m ((c : Thread nD τ).loc main_arg7)) shapeCasts_S16_S1x16 := by
  show StableHlo.after hostOps0 (B0 m c) (Proc.devRef .tc main_v2) = _
  after_results
  rfl
/-- A three-operand host operation's result, each operand's contents at its own reference. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

theorem weights_side_by_side (c : Dev nD) : (T1 m c main_v4 : S16x48.Idx → Elt F .f32)
    = concatenate S16x48 1 [⟨S16x16, (m ((c : Thread nD τ).loc main_arg8))⟩, ⟨S16x16, transpose S16x16 [1, 0] (m ((c : Thread nD τ).loc main_arg6)) transposes_S16x16_S16x16_1_0⟩, ⟨S16x16, (m ((c : Thread nD τ).loc main_arg4))⟩] concatenates_S16x16_S16x16_S16x16_S16x48_d1 := by
  show StableHlo.after hostOps0 (B0 m c) (Proc.devRef .tc main_v4) = _
  simp only [after_cons, after_nil]
  rw [nary3_result]
  rfl

/-! ## The second pallas_call's inputs -/

theorem in1_support (c : Dev nD) : T2 m c main_v5 = (dat0 (T1 m) c).arrAt 2 cfg0.N := B2_arr m c 2
theorem in1_b1 (c : Dev nD) : T2 m c main_v0 = T1 m c main_v0 := B2_rest m c main_v0 (by decide)
theorem in1_weights (c : Dev nD) : T2 m c main_v4 = T1 m c main_v4 := B2_rest m c main_v4 (by decide)
theorem in1_be (c : Dev nD) : T2 m c main_v2 = T1 m c main_v2 := B2_rest m c main_v2 (by decide)
theorem in1_adj (c : Dev nD) : B2 m c (Proc.devRef .tc main_arg1) = m ((c : Thread nD τ).loc main_arg1) :=
  calc B2 m c (Proc.devRef .tc main_arg1)
    _ = B1 m c (Proc.devRef .tc main_arg1) := B2_rest m c main_arg1 (by decide)
    _ = B0 m c (Proc.devRef .tc main_arg1) := StableHlo.after_of_writes_sub hostOps0 _ hostOps0_writes (by decide)
    _ = m ((c : Thread nD τ).loc main_arg1) := rfl

/-! ## The third pallas_call's input: the logits reshaped -/

theorem in2_logits (c : Dev nD) : (T4 m c main_v7 : S1250x128.Idx → Elt F .f32)
    = shapeCast S1250x128 ((dat1 (T2 m) c).arrAt 5 cfg1.N) shapeCasts_S10000x16_S1250x128 := by
  rw [← B3_arr m c 5]
  show StableHlo.after hostOps2 (B3 m c) (Proc.devRef .tc main_v7) = _
  after_results
  rfl

/-! ## The fourth pallas_call's inputs -/

theorem in3_mid (c : Dev nD) : B5 m c (Proc.devRef .tc main_v6_2) = (dat1 (T2 m) c).arrAt 7 cfg1.N :=
  calc B5 m c (Proc.devRef .tc main_v6_2)
    _ = B4 m c (Proc.devRef .tc main_v6_2) := B5_rest m c main_v6_2 (by decide)
    _ = B3 m c (Proc.devRef .tc main_v6_2) := StableHlo.after_of_writes_sub hostOps2 _ hostOps2_writes (by decide)
    _ = (dat1 (T2 m) c).arrAt 7 cfg1.N := B3_arr m c 7

theorem in3_b2 (c : Dev nD) : B5 m c (Proc.devRef .tc main_v1) = T1 m c main_v1 :=
  calc B5 m c (Proc.devRef .tc main_v1)
    _ = B4 m c (Proc.devRef .tc main_v1) := B5_rest m c main_v1 (by decide)
    _ = B3 m c (Proc.devRef .tc main_v1) := StableHlo.after_of_writes_sub hostOps2 _ hostOps2_writes (by decide)
    _ = B2 m c (Proc.devRef .tc main_v1) := B3_rest m c main_v1 (by decide)
    _ = B1 m c (Proc.devRef .tc main_v1) := B2_rest m c main_v1 (by decide)
    _ = T1 m c main_v1 := rfl

theorem in3_adj (c : Dev nD) : B5 m c (Proc.devRef .tc main_arg1) = m ((c : Thread nD τ).loc main_arg1) :=
  calc B5 m c (Proc.devRef .tc main_arg1)
    _ = B4 m c (Proc.devRef .tc main_arg1) := B5_rest m c main_arg1 (by decide)
    _ = B3 m c (Proc.devRef .tc main_arg1) := StableHlo.after_of_writes_sub hostOps2 _ hostOps2_writes (by decide)
    _ = B2 m c (Proc.devRef .tc main_arg1) := (B3_arr m c 4).trans (((dat1 (T2 m) c).arrAt_in 4 rfl _).trans (dat1_A (T2 m) c 4))
    _ = B1 m c (Proc.devRef .tc main_arg1) := B2_rest m c main_arg1 (by decide)
    _ = B0 m c (Proc.devRef .tc main_arg1) := StableHlo.after_of_writes_sub hostOps0 _ hostOps0_writes (by decide)
    _ = m ((c : Thread nD τ).loc main_arg1) := rfl

end Cert.KernelIdeal.Body

end
-- ==== Proof.KernelIdeal.PayMatmul.lean ====
/-
  The kernel's three matrix products read at an index. Each is a rows-by-contraction array times a
  contraction-by-columns array accumulated into zero; over the extended reals its entry at row p and column q is the sum
  over the contracted coordinate k of X p k * W k q. The contraction index of the dimension numbers has one axis, so the
  sum over it is re-indexed through that axis's coordinate; the two operand indices under the dimension numbers are then
  (p, k) and (k, q), coordinate by coordinate.
-/
import proofs.«107558_g86887188398718_cont_9to1c4b_243_24_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The left operand's row under the [10000, 128] by [128, 16] product's dimension numbers is the result's row. -/
theorem lhs0_10000x128_128x16 (i : S10000x16.Idx) (c : dot_S10000x128_S128x16_S10000x16_1_0_0_1_n_n.contr.Idx) : (dot_S10000x128_S128x16_S10000x16_1_0_0_1_n_n.lhsIdx i c 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
/-- The right operand's column is the result's column. -/
theorem rhs1_10000x128_128x16 (i : S10000x16.Idx) (c : dot_S10000x128_S128x16_S10000x16_1_0_0_1_n_n.contr.Idx) : (dot_S10000x128_S128x16_S10000x16_1_0_0_1_n_n.rhsIdx i c 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl
/-- The [10000, 128] by [128, 16] product into the zero accumulator, at (p, q): the sum over the 128 contracted coordinates k of X p k * W k q. -/
theorem matmul_10000x128_128x16_apply (X : FVec Ideal S10000x128 .f32) (W : FVec Ideal S128x16 .f32) (p : Fin 10000) (q : Fin 16) :
    matmul (F := Ideal) dot_S10000x128_S128x16_S10000x16_1_0_0_1_n_n none X W (constant (F := Ideal) S10000x16 .f32 0x00000000#32) (ix2 p q)
      = ∑ k : Fin 128, X (ix2 p k) * W (ix2 k q) := by
  refine (Ideal.matmul_constant_zero_apply dot_S10000x128_S128x16_S10000x16_1_0_0_1_n_n none X W (ix2 p q)).trans ?_
  rw [← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 p q) ((contrEquiv1 dot_S10000x128_S128x16_S10000x16_1_0_0_1_n_n 128 rfl rfl).symm k) = ix2 p k :=
    funext fun a => Fin.ext (by
      match a with
      | ⟨0, _⟩ => exact lhs0_10000x128_128x16 _ _
      | ⟨1, _⟩ => exact (dot_S10000x128_S128x16_S10000x16_1_0_0_1_n_n.lhsIdx_val_of_single rfl (ix2 p q) _).trans hk)
  have er : dot_S10000x128_S128x16_S10000x16_1_0_0_1_n_n.rhsIdx (ix2 p q) ((contrEquiv1 dot_S10000x128_S128x16_S10000x16_1_0_0_1_n_n 128 rfl rfl).symm k) = ix2 k q :=
    funext fun a => Fin.ext (by
      match a with
      | ⟨0, _⟩ => exact (dot_S10000x128_S128x16_S10000x16_1_0_0_1_n_n.rhsIdx_val_of_single rfl (ix2 p q) _).trans hk
      | ⟨1, _⟩ => exact rhs1_10000x128_128x16 _ _)
  rw [el, er]

/-- The left operand's row under the [400, 10000] by [10000, 16] product's dimension numbers is the result's row. -/
theorem lhs0_400x10000_10000x16 (i : S400x16.Idx) (c : dot_S400x10000_S10000x16_S400x16_1_0_0_1_n_n.contr.Idx) : (dot_S400x10000_S10000x16_S400x16_1_0_0_1_n_n.lhsIdx i c 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
/-- The right operand's column is the result's column. -/
theorem rhs1_400x10000_10000x16 (i : S400x16.Idx) (c : dot_S400x10000_S10000x16_S400x16_1_0_0_1_n_n.contr.Idx) : (dot_S400x10000_S10000x16_S400x16_1_0_0_1_n_n.rhsIdx i c 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl
/-- The [400, 10000] by [10000, 16] product into the zero accumulator, at (p, q): the sum over the 10000 contracted coordinates k of X p k * W k q. -/
theorem matmul_400x10000_10000x16_apply (X : FVec Ideal S400x10000 .f32) (W : FVec Ideal S10000x16 .f32) (p : Fin 400) (q : Fin 16) :
    matmul (F := Ideal) dot_S400x10000_S10000x16_S400x16_1_0_0_1_n_n none X W (constant (F := Ideal) S400x16 .f32 0x00000000#32) (ix2 p q)
      = ∑ k : Fin 10000, X (ix2 p k) * W (ix2 k q) := by
  refine (Ideal.matmul_constant_zero_apply dot_S400x10000_S10000x16_S400x16_1_0_0_1_n_n none X W (ix2 p q)).trans ?_
  rw [← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 p q) ((contrEquiv1 dot_S400x10000_S10000x16_S400x16_1_0_0_1_n_n 10000 rfl rfl).symm k) = ix2 p k :=
    funext fun a => Fin.ext (by
      match a with
      | ⟨0, _⟩ => exact lhs0_400x10000_10000x16 _ _
      | ⟨1, _⟩ => exact (dot_S400x10000_S10000x16_S400x16_1_0_0_1_n_n.lhsIdx_val_of_single rfl (ix2 p q) _).trans hk)
  have er : dot_S400x10000_S10000x16_S400x16_1_0_0_1_n_n.rhsIdx (ix2 p q) ((contrEquiv1 dot_S400x10000_S10000x16_S400x16_1_0_0_1_n_n 10000 rfl rfl).symm k) = ix2 k q :=
    funext fun a => Fin.ext (by
      match a with
      | ⟨0, _⟩ => exact (dot_S400x10000_S10000x16_S400x16_1_0_0_1_n_n.rhsIdx_val_of_single rfl (ix2 p q) _).trans hk
      | ⟨1, _⟩ => exact rhs1_400x10000_10000x16 _ _)
  rw [el, er]

/-- The left operand's row under the [400, 16] by [16, 48] product's dimension numbers is the result's row. -/
theorem lhs0_400x16_16x48 (i : S400x48.Idx) (c : dot_S400x16_S16x48_S400x48_1_0_0_1_n_n.contr.Idx) : (dot_S400x16_S16x48_S400x48_1_0_0_1_n_n.lhsIdx i c 0).val = (i 0).val := by
  unfold DotDims.lhsIdx
  rw [dif_neg (show ¬(0 : Fin S400x16.rank) ∈ dot_S400x16_S16x48_S400x48_1_0_0_1_n_n.lhsBatch by decide), dif_pos (show (0 : Fin S400x16.rank) ∈ dot_S400x16_S16x48_S400x48_1_0_0_1_n_n.lhsNonContracting by decide)]
  rfl
/-- The right operand's column is the result's column. -/
theorem rhs1_400x16_16x48 (i : S400x48.Idx) (c : dot_S400x16_S16x48_S400x48_1_0_0_1_n_n.contr.Idx) : (dot_S400x16_S16x48_S400x48_1_0_0_1_n_n.rhsIdx i c 1).val = (i 1).val := by
  unfold DotDims.rhsIdx
  rw [dif_neg (show ¬(1 : Fin S16x48.rank) ∈ dot_S400x16_S16x48_S400x48_1_0_0_1_n_n.rhsBatch by decide), dif_pos (show (1 : Fin S16x48.rank) ∈ dot_S400x16_S16x48_S400x48_1_0_0_1_n_n.rhsNonContracting by decide)]
  rfl
/-- The [400, 16] by [16, 48] product into the zero accumulator, at (p, q): the sum over the 16 contracted coordinates k of X p k * W k q. -/
theorem matmul_400x16_16x48_apply (X : FVec Ideal S400x16 .f32) (W : FVec Ideal S16x48 .f32) (p : Fin 400) (q : Fin 48) :
    matmul (F := Ideal) dot_S400x16_S16x48_S400x48_1_0_0_1_n_n none X W (constant (F := Ideal) S400x48 .f32 0x00000000#32) (ix2 p q)
      = ∑ k : Fin 16, X (ix2 p k) * W (ix2 k q) := by
  refine (Ideal.matmul_constant_zero_apply dot_S400x16_S16x48_S400x48_1_0_0_1_n_n none X W (ix2 p q)).trans ?_
  rw [← Equiv.sum_comp (contrEquiv1 dot_S400x16_S16x48_S400x48_1_0_0_1_n_n 16 rfl rfl).symm]
  refine Finset.sum_congr rfl fun k _ => ?_
  have hk := contrEquiv1_symm_val dot_S400x16_S16x48_S400x48_1_0_0_1_n_n 16 rfl rfl k
  have el : dot_S400x16_S16x48_S400x48_1_0_0_1_n_n.lhsIdx (ix2 p q) ((contrEquiv1 dot_S400x16_S16x48_S400x48_1_0_0_1_n_n 16 rfl rfl).symm k) = ix2 p k :=
    funext fun a => Fin.ext (by
      match a with
      | ⟨0, _⟩ => exact lhs0_400x16_16x48 _ _
      | ⟨1, _⟩ => exact (dot_S400x16_S16x48_S400x48_1_0_0_1_n_n.lhsIdx_val_of_single rfl (ix2 p q) _).trans hk)
  have er : dot_S400x16_S16x48_S400x48_1_0_0_1_n_n.rhsIdx (ix2 p q) ((contrEquiv1 dot_S400x16_S16x48_S400x48_1_0_0_1_n_n 16 rfl rfl).symm k) = ix2 k q :=
    funext fun a => Fin.ext (by
      match a with
      | ⟨0, _⟩ => exact (dot_S400x16_S16x48_S400x48_1_0_0_1_n_n.rhsIdx_val_of_single rfl (ix2 p q) _).trans hk
      | ⟨1, _⟩ => exact rhs1_400x16_16x48 _ _)
  rw [el, er]

end Cert.KernelIdeal.Pay

end
-- ==== Proof.KernelIdeal.PaySupport.lean ====
/-
  The support product read at an index: the first kernel call stores the matrix product of its two input blocks into a
  zero accumulator, so its stored value at row p and column q is the sum over the 128 contracted coordinates k of
  x p k * W k q.
-/
import proofs.«107558_g86887188398718_cont_9to1c4b_243_24_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«107558_g86887188398718_cont_9to1c4b_243_24_alg».proof.Proof.KernelIdeal.PayMatmul

noncomputable section

open scoped BigOperators

namespace Cert.KernelIdeal.Pay

open Cert.KernelIdeal Cert.KernelIdeal.Gen Idealize.ShloMosaic Idealize.ShloMosaic.ValueIdx

/-- THE SUPPORT PAYLOAD AT (p, q): the sum over k of X p k * W k q. -/
theorem k0_pay1_apply (X : Vec Ideal S10000x128 .f32) (W : Vec Ideal S128x16 .f32) (p : Fin 10000) (q : Fin 16) :
    k0_pay1 (F := Ideal) X W (ix2 p q) = ∑ k : Fin 128, X (ix2 p k) * W (ix2 k q) := by
  unfold k0_pay1
  exact matmul_10000x128_128x16_apply X W p q

end Cert.KernelIdeal.Pay

end
-- ==== Proof.GcnSpec.lean ====
/-
  The mathematics of the two-layer graph convolution with its encoder and attention heads, index by index over the
  extended reals. No program is imported: the nine argument arrays are functions of their coordinates and every
  result is a closed expression in them.

    support = x · W1                                  hidden = max (adj · support + b1) 0
    logit   = hidden · att                            enc    = hidden · Weᵀ + be
    mid     = hidden · W2                             pre2   = adj · mid + b2
    out1 p q = (pre2 p q - rowmax p) - log (∑ q', exp (pre2 p q' - rowmax p)),  rowmax p = sup over q of pre2 p q
    al p q   = exp (logit p q - gmax) / gsum, the maximum and the sum taken over all 160000 entries of logit,
               listed row by row (entry n is logit (n / 16) (n % 16)).

  The suprema are taken in the complete lattice of the extended reals, whose bottom is -∞: the value an empty or
  all -∞ family has. The exponential, logarithm and quotient are the extended reals' (exp (-∞) = 0, log 0 = -∞,
  x / ±∞ = 0).
-/
import Mathlib
import Idealize.ShloMosaic.PureOps.Ideal
import Idealize.ShloMosaic.Lib.ValueIdx

noncomputable section

open scoped BigOperators

namespace Cert.GcnSpec

open Idealize.ShloMosaic

/-- The first layer's feature product: row p of x against column q of W1. -/
def support (x : Fin 10000 → Fin 128 → EReal) (W1 : Fin 128 → Fin 16 → EReal) (p : Fin 10000) (q : Fin 16) : EReal :=
  ∑ k : Fin 128, x p k * W1 k q

/-- The hidden layer: the adjacency's row p against column q of the support, plus the bias, clamped below at zero. -/
def hidden (x : Fin 10000 → Fin 128 → EReal) (adj : Fin 10000 → Fin 10000 → EReal) (W1 : Fin 128 → Fin 16 → EReal)
    (b1 : Fin 16 → EReal) (p : Fin 10000) (q : Fin 16) : EReal :=
  max (∑ k : Fin 10000, adj p k * support x W1 k q + b1 q) 0

/-- The attention logits: the hidden layer against the attention matrix. -/
def logit (x : Fin 10000 → Fin 128 → EReal) (adj : Fin 10000 → Fin 10000 → EReal) (W1 : Fin 128 → Fin 16 → EReal)
    (b1 : Fin 16 → EReal) (att : Fin 16 → Fin 16 → EReal) (p : Fin 10000) (q : Fin 16) : EReal :=
  ∑ k : Fin 16, hidden x adj W1 b1 p k * att k q

/-- The encoder head: the hidden layer against the TRANSPOSE of We, plus its bias. -/
def enc (x : Fin 10000 → Fin 128 → EReal) (adj : Fin 10000 → Fin 10000 → EReal) (W1 : Fin 128 → Fin 16 → EReal)
    (b1 : Fin 16 → EReal) (We : Fin 16 → Fin 16 → EReal) (be : Fin 16 → EReal) (p : Fin 10000) (q : Fin 16) : EReal :=
  ∑ k : Fin 16, hidden x adj W1 b1 p k * We q k + be q

/-- The second layer's feature product: the hidden layer against W2. -/
def mid (x : Fin 10000 → Fin 128 → EReal) (adj : Fin 10000 → Fin 10000 → EReal) (W1 : Fin 128 → Fin 16 → EReal)
    (b1 : Fin 16 → EReal) (W2 : Fin 16 → Fin 16 → EReal) (p : Fin 10000) (q : Fin 16) : EReal :=
  ∑ k : Fin 16, hidden x adj W1 b1 p k * W2 k q

/-- The second layer before its normalisation: the adjacency against mid, plus the bias. -/
def pre2 (x : Fin 10000 → Fin 128 → EReal) (adj : Fin 10000 → Fin 10000 → EReal) (W1 : Fin 128 → Fin 16 → EReal)
    (b1 : Fin 16 → EReal) (W2 : Fin 16 → Fin 16 → EReal) (b2 : Fin 16 → EReal) (p : Fin 10000) (q : Fin 16) : EReal :=
  ∑ k : Fin 10000, adj p k * mid x adj W1 b1 W2 k q + b2 q

/-- The largest entry of row p of pre2 (the supremum of the sixteen; -∞ is the lattice's bottom). -/
def rowmax (x : Fin 10000 → Fin 128 → EReal) (adj : Fin 10000 → Fin 10000 → EReal) (W1 : Fin 128 → Fin 16 → EReal)
    (b1 : Fin 16 → EReal) (W2 : Fin 16 → Fin 16 → EReal) (b2 : Fin 16 → EReal) (p : Fin 10000) : EReal :=
  Finset.univ.sup (fun q : Fin 16 => pre2 x adj W1 b1 W2 b2 p q)

/-- FIRST RESULT: the row-wise log-softmax of pre2, in its shifted form. -/
def out1 (x : Fin 10000 → Fin 128 → EReal) (adj : Fin 10000 → Fin 10000 → EReal) (W1 : Fin 128 → Fin 16 → EReal)
    (b1 : Fin 16 → EReal) (W2 : Fin 16 → Fin 16 → EReal) (b2 : Fin 16 → EReal) (p : Fin 10000) (q : Fin 16) : EReal :=
  (pre2 x adj W1 b1 W2 b2 p q - rowmax x adj W1 b1 W2 b2 p)
    - Ideal.log (∑ q' : Fin 16, Ideal.exp (pre2 x adj W1 b1 W2 b2 p q' - rowmax x adj W1 b1 W2 b2 p))

/-- The attention logits listed row by row: entry n is logit (n / 16) (n % 16). -/
def flat (x : Fin 10000 → Fin 128 → EReal) (adj : Fin 10000 → Fin 10000 → EReal) (W1 : Fin 128 → Fin 16 → EReal)
    (b1 : Fin 16 → EReal) (att : Fin 16 → Fin 16 → EReal) (n : Fin 160000) : EReal :=
  logit x adj W1 b1 att ⟨n.val / 16, by have := n.isLt; omega⟩ ⟨n.val % 16, by omega⟩

/-- The largest of all 160000 logits. -/
def gmax (x : Fin 10000 → Fin 128 → EReal) (adj : Fin 10000 → Fin 10000 → EReal) (W1 : Fin 128 → Fin 16 → EReal)
    (b1 : Fin 16 → EReal) (att : Fin 16 → Fin 16 → EReal) : EReal :=
  Finset.univ.sup (flat x adj W1 b1 att)

/-- The sum of the shifted exponentials of all 160000 logits. -/
def gsum (x : Fin 10000 → Fin 128 → EReal) (adj : Fin 10000 → Fin 10000 → EReal) (W1 : Fin 128 → Fin 16 → EReal)
    (b1 : Fin 16 → EReal) (att : Fin 16 → Fin 16 → EReal) : EReal :=
  ∑ n : Fin 160000, Ideal.exp (flat x adj W1 b1 att n - gmax x adj W1 b1 att)

/-- SECOND RESULT is `enc`. THIRD RESULT: the softmax over all 160000 logits, laid out as the logits are. -/
def al (x : Fin 10000 → Fin 128 → EReal) (adj : Fin 10000 → Fin 10000 → EReal) (W1 : Fin 128 → Fin 16 → EReal)
    (b1 : Fin 16 → EReal) (att : Fin 16 → Fin 16 → EReal) (p : Fin 10000) (q : Fin 16) : EReal :=
  Ideal.div (Ideal.exp (logit x adj W1 b1 att p q - gmax x adj W1 b1 att)) (gsum x adj W1 b1 att)

end Cert.GcnSpec

end
-- ==== Proof.KernelIdeal.SupportArray.lean ====
/-
  The first pallas_call's output array, index by index: entry (p, q) is the sum over k of x p k · W1 k q.
  There is one grid point and every window is the whole array at block index 0, so a block's entry (p, q) is the array's
  entry (p, q); the one store's value is the matrix product into a zero accumulator, a plain sum over the contracted
  coordinate; and the one block covers the array.
-/
import proofs.«107558_g86887188398718_cont_9to1c4b_243_24_alg».proof.Proof.KernelIdeal.SupportBody
import proofs.«107558_g86887188398718_cont_9to1c4b_243_24_alg».proof.Proof.KernelIdeal.PaySupport
import proofs.«107558_g86887188398718_cont_9to1c4b_243_24_alg».proof.Proof.GcnSpec
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the pallas_call is entered, at the extended reals
variable (V : (c : Dev nD) → (b : Ref sig .tc) → Buf (Elt Ideal) ((c : Thread nD τ).loc b))

theorem origin2 : (![0, 0] : Fin 2 → Nat) = fun _ => 0 := funext fun a => by fin_cases a <;> rfl

/-- The printed block-index maps at the one grid point: every block index is 0. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of x read at (p, k) is x at (p, k). -/
theorem read0_x (c : Dev nD) (t : Fin cfg0.N) (p : Fin 10000) (k : Fin 128) :
    blk0 V c 0 t (ix2 p k) = V c main_arg0 (ix2 p k) := by
  obtain ⟨e0, e1, -⟩ := idx0 t
  show V c main_arg0 (((cfg0.win 0).blk t).view.emb (ix2 p k)) = _
  refine congrArg _ (funext fun a => Fin.ext ?_)
  match a with
  | ⟨0, _⟩ => show win0_0.index t (0 : Fin 2) * 10000 + 1 * p.val = p.val; omega
  | ⟨1, _⟩ => show win0_0.index t (1 : Fin 2) * 128 + 1 * k.val = k.val; omega

/-- The block of W1 read at (k, q) is W1 at (k, q). -/
theorem read0_w1 (c : Dev nD) (t : Fin cfg0.N) (k : Fin 128) (q : Fin 16) :
    blk0 V c 1 t (ix2 k q) = V c main_arg2 (ix2 k q) := by
  obtain ⟨-, -, e0, e1, -⟩ := idx0 t
  show V c main_arg2 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 16 + 1 * q.val = q.val; omega

/-- The output block's entry (p, q) sits at the array's (p, q). -/
theorem place0 (t : Fin cfg0.N) (p : Fin 10000) (q : Fin 16) :
    ((cfg0.win 2).blk t).view.emb (ix2 p q) = ix2 p q := by
  obtain ⟨-, -, -, -, e0, e1⟩ := idx0 t
  refine funext fun a => Fin.ext ?_
  match a with
  | ⟨0, _⟩ => show win0_2.index t (0 : Fin 2) * 10000 + 1 * p.val = p.val; omega
  | ⟨1, _⟩ => show win0_2.index t (1 : Fin 2) * 16 + 1 * q.val = q.val; omega

/-- The output array after the call is the specification's support of the entry contents of x and W1. -/
theorem support_array (c : Dev nD) (X : Fin 10000 → Fin 128 → EReal) (W1 : Fin 128 → Fin 16 → EReal)
    (hx : ∀ p k, V c main_arg0 (ix2 p k) = X p k) (hw : ∀ k q, V c main_arg2 (ix2 k q) = W1 k q) :
    (dat0 V c).arrAt 2 cfg0.N = fun i => Cert.GcnSpec.support X W1 (i 0) (i 1) := by
  refine (dat0 V c).arrAt_eq_of_cover 2 _ (fun t _ => ?_) (fun i => ?_)
  · show (cfg0.win 2).cut (grid0.coords t) ((dat0 V c).after 2 t) = _
    rw [dat0_after2]
    unfold support
    rw [View.canon_unit_zero origin2]
    simp only [View.ld_unit_zero (S := S10000x128) origin2, View.ld_unit_zero (S := S128x16) origin2]
    funext j
    obtain ⟨p, q, rfl⟩ : ∃ (p : Fin 10000) (q : Fin 16), j = ix2 p q := ⟨j 0, j 1, eq_ix2 j⟩
    show k0_pay1 (F := Ideal) (blk0 V c 0 t) (blk0 V c 1 t) (ix2 p q)
      = Cert.GcnSpec.support X W1 ((((cfg0.win 2).blk t).view.emb (ix2 p q)) 0) ((((cfg0.win 2).blk t).view.emb (ix2 p q)) 1)
    rw [place0 t p q]
    refine (Cert.KernelIdeal.Pay.k0_pay1_apply _ _ p q).trans ?_
    show _ = ∑ k : Fin 128, X p k * W1 k q
    refine Finset.sum_congr rfl fun k _ => ?_
    rw [read0_x, read0_w1, hx, hw]
  · refine ⟨t0_0, flush0_2 _, ?_⟩
    obtain ⟨-, -, -, -, e0, e1⟩ := idx0 t0_0
    show i ∈ ((View.whole main_v5).slice (win0_2.rect t0_0)).set
    rw [View.set_slice_whole, Rect.mem_set_unit]
    intro a
    match a with
    | ⟨0, _⟩ =>
      show win0_2.index t0_0 (0 : Fin 2) * 10000 ≤ (i 0).val ∧ (i 0).val < win0_2.index t0_0 (0 : Fin 2) * 10000 + 10000
      have h := idx2_lt0 i; omega
    | ⟨1, _⟩ =>
      show win0_2.index t0_0 (1 : Fin 2) * 16 ≤ (i 1).val ∧ (i 1).val < win0_2.index t0_0 (1 : Fin 2) * 16 + 16
      have h := idx2_lt1 i; omega

end Cert.KernelIdeal.Body

end
-- ==== Proof.KernelIdeal.PayStreamA.lean ====
/-
  The first adjacency stream read at an index. One block of 400 adjacency rows A, the whole support S, the bias row b and
  the 16 by 48 matrix wc of the three heads side by side give the hidden rows
      hid y k = max (∑ j, A y j * S j k + b k) 0
  and the product of the hidden rows with wc. The three stored results are that product's three bands of sixteen columns:
  columns 0 to 15 unchanged, columns 16 to 31 with the bias row be added, columns 32 to 47 unchanged. Over the extended
  reals each matrix product at an index is the sum over its contracted coordinate, a cast to the same shape is the
  identity, a row broadcast reads its one row, and a slice along the columns reads the column moved by its offset.
-/
import proofs.«107558_g86887188398718_cont_9to1c4b_243_24_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«107558_g86887188398718_cont_9to1c4b_243_24_alg».proof.Proof.KernelIdeal.PayMatmul

noncomputable section

open scoped BigOperators

namespace Cert.KernelIdeal.Pay

open Cert.KernelIdeal Cert.KernelIdeal.Gen Idealize.ShloMosaic Idealize.ShloMosaic.ValueIdx

/-- The hidden layer on one block of adjacency rows: row y of the block against column k of the support, plus the bias,
    clamped below at zero. -/
def hid (A : Vec Ideal S400x10000 .f32) (S : Vec Ideal S10000x16 .f32) (b : Vec Ideal S1x16 .f32) (y : Fin 400) (k : Fin 16) : EReal :=
  max (∑ j : Fin 10000, A (ix2 y j) * S (ix2 j k) + b (ix2 (0 : Fin 1) k)) 0

/-- The product of the hidden rows with the side-by-side head matrix, at (y, c): the sum over k of hid y k * wc k c. -/
theorem k1_pay1_apply (A : Vec Ideal S400x10000 .f32) (S : Vec Ideal S10000x16 .f32) (b : Vec Ideal S1x16 .f32)
    (wc : Vec Ideal S16x48 .f32) (y : Fin 400) (c : Fin 48) :
    k1_pay1 (F := Ideal) A S b wc (ix2 y c) = ∑ k : Fin 16, hid A S b y k * wc (ix2 k c) := by
  unfold k1_pay1
  refine (matmul_400x16_16x48_apply _ _ y c).trans ?_
  refine Finset.sum_congr rfl fun k _ => ?_
  rw [shapeCast_self, shapeCast_self, shapeCast_self]
  refine congrArg (· * wc (ix2 k c)) ?_
  show max (matmul (F := Ideal) dot_S400x10000_S10000x16_S400x16_1_0_0_1_n_n none A S (constant (F := Ideal) S400x16 .f32 0x00000000#32) (ix2 y k)
      + broadcastTo S400x16 b broadcasts_S1x16_S400x16 (ix2 y k)) (Ideal.ofBits .f32 0x00000000#32) = _
  rw [matmul_400x10000_10000x16_apply, broadcastTo_1b_ab_apply, Ideal.ofBits_zero_f32]
  rfl

/-- THE FIRST BAND AT (y, q): columns 0 to 15 of the product, the attention logits' block. -/
theorem k1_pay2_apply (A : Vec Ideal S400x10000 .f32) (S : Vec Ideal S10000x16 .f32) (b : Vec Ideal S1x16 .f32)
    (wc : Vec Ideal S16x48 .f32) (y : Fin 400) (q : Fin 16) :
    k1_pay2 (F := Ideal) A S b wc (ix2 y q)
      = ∑ k : Fin 16, hid A S b y k * wc (ix2 k (⟨q.val, by have := q.isLt; omega⟩ : Fin 48)) := by
  unfold k1_pay2
  refine (slice2_axis1_apply 0 _ slices_S400x48_o0_0_S400x16 y q (⟨q.val, by have := q.isLt; omega⟩ : Fin 48)
    (Nat.zero_add _).symm).trans ?_
  exact k1_pay1_apply A S b wc y _

/-- THE SECOND BAND AT (y, q): columns 16 to 31 of the product plus the bias row be, the encoder head's block. -/
theorem k1_pay3_apply (A : Vec Ideal S400x10000 .f32) (S : Vec Ideal S10000x16 .f32) (b : Vec Ideal S1x16 .f32)
    (wc : Vec Ideal S16x48 .f32) (be : Vec Ideal S1x16 .f32) (y : Fin 400) (q : Fin 16) :
    k1_pay3 (F := Ideal) A S b wc be (ix2 y q)
      = ∑ k : Fin 16, hid A S b y k * wc (ix2 k (⟨16 + q.val, by have := q.isLt; omega⟩ : Fin 48))
        + be (ix2 (0 : Fin 1) q) := by
  unfold k1_pay3
  rw [shapeCast_self]
  show extractStridedSlice S400x16 ![0, 16] (k1_pay1 (F := Ideal) A S b wc) slices_S400x48_o0_16_S400x16 (ix2 y q)
      + broadcastTo S400x16 be broadcasts_S1x16_S400x16 (ix2 y q) = _
  rw [broadcastTo_1b_ab_apply]
  refine congrArg (· + be (ix2 (0 : Fin 1) q)) ?_
  refine (slice2_axis1_apply 16 _ slices_S400x48_o0_16_S400x16 y q (⟨16 + q.val, by have := q.isLt; omega⟩ : Fin 48) rfl).trans ?_
  exact k1_pay1_apply A S b wc y _

/-- THE THIRD BAND AT (y, q): columns 32 to 47 of the product, the second layer's feature block. -/
theorem k1_pay4_apply (A : Vec Ideal S400x10000 .f32) (S : Vec Ideal S10000x16 .f32) (b : Vec Ideal S1x16 .f32)
    (wc : Vec Ideal S16x48 .f32) (y : Fin 400) (q : Fin 16) :
    k1_pay4 (F := Ideal) A S b wc (ix2 y q)
      = ∑ k : Fin 16, hid A S b y k * wc (ix2 k (⟨32 + q.val, by have := q.isLt; omega⟩ : Fin 48)) := by
  unfold k1_pay4
  refine (slice2_axis1_apply 32 _ slices_S400x48_o0_32_S400x16 y q (⟨32 + q.val, by have := q.isLt; omega⟩ : Fin 48) rfl).trans ?_
  exact k1_pay1_apply A S b wc y _

end Cert.KernelIdeal.Pay

end
-- ==== Proof.KernelIdeal.StreamAArrays.lean ====
/-
  The second pallas_call's three output arrays, index by index. Grid point t stages rows 400·t … 400·t + 399 of adj and
  of each output; the support, the two bias rows and the 16×48 weights are staged whole at every point. So entry (p, q) of
  an output block at point t is the array's entry (400·t + p, q), and the body's value there is a sum over the sixteen
  hidden units of row 400·t + p — each the clamped adjacency-row product with the support plus the bias — against a column
  of the band's weight matrix: att for the first band, We read transposed for the second (plus be), W2 for the third.
  The 25 blocks of 400 rows cover the 10000 rows.
-/
import proofs.«107558_g86887188398718_cont_9to1c4b_243_24_alg».proof.Proof.KernelIdeal.StreamABody
import proofs.«107558_g86887188398718_cont_9to1c4b_243_24_alg».proof.Proof.KernelIdeal.SupportArray
import proofs.«107558_g86887188398718_cont_9to1c4b_243_24_alg».proof.Proof.KernelIdeal.PayStreamA
import proofs.«107558_g86887188398718_cont_9to1c4b_243_24_alg».proof.Proof.GcnSpec
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the pallas_call is entered, at the extended reals
variable (V : (c : Dev nD) → (b : Ref sig .tc) → Buf (Elt Ideal) ((c : Thread nD τ).loc b))

/-- The printed block-index maps over the 25 grid points: the four whole operands stay at block 0; adj and the three outputs
    move down one block of rows per point. -/
theorem idx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem point_lt1 (t : Fin cfg1.N) : t.val < 25 := Nat.lt_of_lt_of_eq t.isLt N_1

/-- The staged support read at (j, k) is the support array at (j, k). -/
theorem read1_support (c : Dev nD) (t : Fin cfg1.N) (j : Fin 10000) (k : Fin 16) :
    blk1 V c 0 t (ix2 j k) = V c main_v5 (ix2 j k) := by
  obtain ⟨e0, e1, -⟩ := idx1 t
  show V c main_v5 (((cfg1.win 0).blk t).view.emb (ix2 j k)) = _
  refine congrArg _ (funext fun a => Fin.ext ?_)
  match a with
  | ⟨0, _⟩ => show win1_0.index t (0 : Fin 2) * 10000 + 1 * j.val = j.val; omega
  | ⟨1, _⟩ => show win1_0.index t (1 : Fin 2) * 16 + 1 * k.val = k.val; omega

/-- The staged bias row b1 read at (0, k). -/
theorem read1_b1 (c : Dev nD) (t : Fin cfg1.N) (k : Fin 16) :
    blk1 V c 1 t (ix2 (0 : Fin 1) k) = V c main_v0 (ix2 (0 : Fin 1) k) := by
  obtain ⟨-, -, e0, e1, -⟩ := idx1 t
  show V c main_v0 (((cfg1.win 1).blk t).view.emb (ix2 (0 : Fin 1) k)) = _
  refine congrArg _ (funext fun a => Fin.ext ?_)
  match a with
  | ⟨0, _⟩ => show win1_1.index t (0 : Fin 2) * 1 + 1 * (0 : Fin 1).val = (0 : Fin 1).val; omega
  | ⟨1, _⟩ => show win1_1.index t (1 : Fin 2) * 16 + 1 * k.val = k.val; omega

/-- The staged 16×48 weights read at (k, r). -/
theorem read1_weights (c : Dev nD) (t : Fin cfg1.N) (k : Fin 16) (r : Fin 48) :
    blk1 V c 2 t (ix2 k r) = V c main_v4 (ix2 k r) := by
  obtain ⟨-, -, -, -, e0, e1, -⟩ := idx1 t
  show V c main_v4 (((cfg1.win 2).blk t).view.emb (ix2 k r)) = _
  refine congrArg _ (funext fun a => Fin.ext ?_)
  match a with
  | ⟨0, _⟩ => show win1_2.index t (0 : Fin 2) * 16 + 1 * k.val = k.val; omega
  | ⟨1, _⟩ => show win1_2.index t (1 : Fin 2) * 48 + 1 * r.val = r.val; omega

/-- The staged bias row be read at (0, q). -/
theorem read1_be (c : Dev nD) (t : Fin cfg1.N) (q : Fin 16) :
    blk1 V c 3 t (ix2 (0 : Fin 1) q) = V c main_v2 (ix2 (0 : Fin 1) q) := by
  obtain ⟨-, -, -, -, -, -, e0, e1, -⟩ := idx1 t
  show V c main_v2 (((cfg1.win 3).blk t).view.emb (ix2 (0 : Fin 1) q)) = _
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 16 + 1 * q.val = q.val; omega

/-- The block of adj at point t read at (p, j) is adj at row 400·t + p. -/
theorem read1_adj (c : Dev nD) (t : Fin cfg1.N) (p : Fin 400) (j : Fin 10000) (h : 400 * t.val + p.val < 10000) :
    blk1 V c 4 t (ix2 p j) = V c main_arg1 (ix2 (⟨400 * t.val + p.val, h⟩ : Fin 10000) j) := by
  obtain ⟨-, -, -, -, -, -, -, -, e0, e1, -⟩ := idx1 t
  show V c main_arg1 (((cfg1.win 4).blk t).view.emb (ix2 p j)) = _
  refine congrArg _ (funext fun a => Fin.ext ?_)
  match a with
  | ⟨0, _⟩ => show win1_4.index t (0 : Fin 2) * 400 + 1 * p.val = 400 * t.val + p.val; omega
  | ⟨1, _⟩ => show win1_4.index t (1 : Fin 2) * 10000 + 1 * j.val = j.val; omega

/-- Entry (p, q) of the logits block at point t sits at the array's (400·t + p, q). -/
theorem place1_5 (t : Fin cfg1.N) (p : Fin 400) (q : Fin 16) (h : 400 * t.val + p.val < 10000) :
    ((cfg1.win 5).blk t).view.emb (ix2 p q) = ix2 (⟨400 * t.val + p.val, h⟩ : Fin 10000) q := by
  obtain ⟨-, -, -, -, -, -, -, -, -, -, e0, e1, -⟩ := idx1 t
  refine funext fun a => Fin.ext ?_
  match a with
  | ⟨0, _⟩ => show win1_5.index t (0 : Fin 2) * 400 + 1 * p.val = 400 * t.val + p.val; omega
  | ⟨1, _⟩ => show win1_5.index t (1 : Fin 2) * 16 + 1 * q.val = q.val; omega

/-- Entry (p, q) of the enc block at point t sits at the array's (400·t + p, q). -/
theorem place1_6 (t : Fin cfg1.N) (p : Fin 400) (q : Fin 16) (h : 400 * t.val + p.val < 10000) :
    ((cfg1.win 6).blk t).view.emb (ix2 p q) = ix2 (⟨400 * t.val + p.val, h⟩ : Fin 10000) q := by
  obtain ⟨-, -, -, -, -, -, -, -, -, -, -, -, e0, e1, -⟩ := idx1 t
  refine funext fun a => Fin.ext ?_
  match a with
  | ⟨0, _⟩ => show win1_6.index t (0 : Fin 2) * 400 + 1 * p.val = 400 * t.val + p.val; omega
  | ⟨1, _⟩ => show win1_6.index t (1 : Fin 2) * 16 + 1 * q.val = q.val; omega

/-- Entry (p, q) of the mid block at point t sits at the array's (400·t + p, q). -/
theorem place1_7 (t : Fin cfg1.N) (p : Fin 400) (q : Fin 16) (h : 400 * t.val + p.val < 10000) :
    ((cfg1.win 7).blk t).view.emb (ix2 p q) = ix2 (⟨400 * t.val + p.val, h⟩ : Fin 10000) q := by
  obtain ⟨-, -, -, -, -, -, -, -, -, -, -, -, -, -, e0, e1⟩ := idx1 t
  refine funext fun a => Fin.ext ?_
  match a with
  | ⟨0, _⟩ => show win1_7.index t (0 : Fin 2) * 400 + 1 * p.val = 400 * t.val + p.val; omega
  | ⟨1, _⟩ => show win1_7.index t (1 : Fin 2) * 16 + 1 * q.val = q.val; omega

section Values

variable (c : Dev nD) (X : Fin 10000 → Fin 128 → EReal) (ADJ : Fin 10000 → Fin 10000 → EReal) (W1 : Fin 128 → Fin 16 → EReal)
  (B1 : Fin 16 → EReal)
  (hS : ∀ j k, V c main_v5 (ix2 j k) = Cert.GcnSpec.support X W1 j k)
  (hb1 : ∀ k, V c main_v0 (ix2 (0 : Fin 1) k) = B1 k)
  (hadj : ∀ p j, V c main_arg1 (ix2 p j) = ADJ p j)
include hS hb1 hadj

/-- The hidden unit k of block row p at point t is the specification's hidden unit of row 400·t + p. -/
theorem hidden_of_blocks (t : Fin cfg1.N) (p : Fin 400) (k : Fin 16) (h : 400 * t.val + p.val < 10000) :
    Cert.KernelIdeal.Pay.hid (blk1 V c 4 t) (blk1 V c 0 t) (blk1 V c 1 t) p k
      = Cert.GcnSpec.hidden X ADJ W1 B1 (⟨400 * t.val + p.val, h⟩ : Fin 10000) k := by
  unfold Cert.KernelIdeal.Pay.hid Cert.GcnSpec.hidden
  rw [read1_b1, hb1]
  refine congrArg (fun z => max (z + B1 k) 0) ?_
  refine Finset.sum_congr rfl fun j _ => ?_
  rw [read1_adj V c t p j h, read1_support, hadj, hS]

/-- The first output array is the specification's attention logits. -/
theorem logits_array (ATT : Fin 16 → Fin 16 → EReal)
    (hatt : ∀ (k q : Fin 16), V c main_v4 (ix2 k (⟨q.val, by have := q.isLt; omega⟩ : Fin 48)) = ATT k q) :
    (dat1 V c).arrAt 5 cfg1.N = fun i => Cert.GcnSpec.logit X ADJ W1 B1 ATT (i 0) (i 1) := by
  refine (dat1 V c).arrAt_eq_of_cover 5 _ (fun t _ => ?_) (fun i => ?_)
  · have ht := point_lt1 t
    show (cfg1.win 5).cut (grid1.coords t) ((dat1 V c).after 5 t) = _
    rw [dat1_after5]
    unfold logitBlock
    rw [View.canon_unit_zero origin2]
    simp only [View.ld_unit_zero (S := S400x10000) origin2, View.ld_unit_zero (S := S10000x16) origin2,
      View.ld_unit_zero (S := S1x16) origin2, View.ld_unit_zero (S := S16x48) origin2]
    funext j
    obtain ⟨p, q, rfl⟩ : ∃ (p : Fin 400) (q : Fin 16), j = ix2 p q := ⟨j 0, j 1, eq_ix2 j⟩
    have hp : 400 * t.val + p.val < 10000 := by have := p.isLt; omega
    show k1_pay2 (F := Ideal) (blk1 V c 4 t) (blk1 V c 0 t) (blk1 V c 1 t) (blk1 V c 2 t) (ix2 p q)
      = Cert.GcnSpec.logit X ADJ W1 B1 ATT ((((cfg1.win 5).blk t).view.emb (ix2 p q)) 0) ((((cfg1.win 5).blk t).view.emb (ix2 p q)) 1)
    rw [place1_5 t p q hp]
    refine (Cert.KernelIdeal.Pay.k1_pay2_apply _ _ _ _ p q).trans ?_
    show _ = ∑ k : Fin 16, Cert.GcnSpec.hidden X ADJ W1 B1 (⟨400 * t.val + p.val, hp⟩ : Fin 10000) k * ATT k q
    refine Finset.sum_congr rfl fun k _ => ?_
    rw [hidden_of_blocks V c X ADJ W1 B1 hS hb1 hadj t p k hp, read1_weights, hatt]
  · have hi0 := idx2_lt0 i
    have hi1 := idx2_lt1 i
    have htN : (i 0).val / 400 < cfg1.N := by rw [show cfg1.N = 25 from N_1]; omega
    refine ⟨⟨(i 0).val / 400, htN⟩, flush1_5 _, ?_⟩
    obtain ⟨-, -, -, -, -, -, -, -, -, -, e0, e1, -⟩ := idx1 ⟨(i 0).val / 400, htN⟩
    show i ∈ ((View.whole main_v6_0).slice (win1_5.rect ⟨(i 0).val / 400, htN⟩)).set
    rw [View.set_slice_whole, Rect.mem_set_unit]
    intro a
    match a with
    | ⟨0, _⟩ =>
      show win1_5.index ⟨(i 0).val / 400, htN⟩ (0 : Fin 2) * 400 ≤ (i 0).val
        ∧ (i 0).val < win1_5.index ⟨(i 0).val / 400, htN⟩ (0 : Fin 2) * 400 + 400
      rw [e0]; show (i 0).val / 400 * 400 ≤ (i 0).val ∧ (i 0).val < (i 0).val / 400 * 400 + 400; omega
    | ⟨1, _⟩ =>
      show win1_5.index ⟨(i 0).val / 400, htN⟩ (1 : Fin 2) * 16 ≤ (i 1).val
        ∧ (i 1).val < win1_5.index ⟨(i 0).val / 400, htN⟩ (1 : Fin 2) * 16 + 16
      rw [e1]; omega

/-- The second output array is the specification's encoder output: the weights' middle band is We read transposed. -/
theorem enc_array (WE : Fin 16 → Fin 16 → EReal) (BE : Fin 16 → EReal)
    (hwe : ∀ (k q : Fin 16), V c main_v4 (ix2 k (⟨16 + q.val, by have := q.isLt; omega⟩ : Fin 48)) = WE q k)
    (hbe : ∀ q : Fin 16, V c main_v2 (ix2 (0 : Fin 1) q) = BE q) :
    (dat1 V c).arrAt 6 cfg1.N = fun i => Cert.GcnSpec.enc X ADJ W1 B1 WE BE (i 0) (i 1) := by
  refine (dat1 V c).arrAt_eq_of_cover 6 _ (fun t _ => ?_) (fun i => ?_)
  · have ht := point_lt1 t
    show (cfg1.win 6).cut (grid1.coords t) ((dat1 V c).after 6 t) = _
    rw [dat1_after6]
    unfold encBlock
    rw [View.canon_unit_zero origin2]
    simp only [View.ld_unit_zero (S := S400x10000) origin2, View.ld_unit_zero (S := S10000x16) origin2,
      View.ld_unit_zero (S := S1x16) origin2, View.ld_unit_zero (S := S16x48) origin2]
    funext j
    obtain ⟨p, q, rfl⟩ : ∃ (p : Fin 400) (q : Fin 16), j = ix2 p q := ⟨j 0, j 1, eq_ix2 j⟩
    have hp : 400 * t.val + p.val < 10000 := by have := p.isLt; omega
    show k1_pay3 (F := Ideal) (blk1 V c 4 t) (blk1 V c 0 t) (blk1 V c 1 t) (blk1 V c 2 t) (blk1 V c 3 t) (ix2 p q)
      = Cert.GcnSpec.enc X ADJ W1 B1 WE BE ((((cfg1.win 6).blk t).view.emb (ix2 p q)) 0) ((((cfg1.win 6).blk t).view.emb (ix2 p q)) 1)
    rw [place1_6 t p q hp]
    refine (Cert.KernelIdeal.Pay.k1_pay3_apply _ _ _ _ _ p q).trans ?_
    show _ = ∑ k : Fin 16, Cert.GcnSpec.hidden X ADJ W1 B1 (⟨400 * t.val + p.val, hp⟩ : Fin 10000) k * WE q k + BE q
    rw [read1_be, hbe]
    refine congrArg (fun z => z + BE q) ?_
    refine Finset.sum_congr rfl fun k _ => ?_
    rw [hidden_of_blocks V c X ADJ W1 B1 hS hb1 hadj t p k hp, read1_weights, hwe]
  · have hi0 := idx2_lt0 i
    have hi1 := idx2_lt1 i
    have htN : (i 0).val / 400 < cfg1.N := by rw [show cfg1.N = 25 from N_1]; omega
    refine ⟨⟨(i 0).val / 400, htN⟩, flush1_6 _, ?_⟩
    obtain ⟨-, -, -, -, -, -, -, -, -, -, -, -, e0, e1, -⟩ := idx1 ⟨(i 0).val / 400, htN⟩
    show i ∈ ((View.whole main_v6_1).slice (win1_6.rect ⟨(i 0).val / 400, htN⟩)).set
    rw [View.set_slice_whole, Rect.mem_set_unit]
    intro a
    match a with
    | ⟨0, _⟩ =>
      show win1_6.index ⟨(i 0).val / 400, htN⟩ (0 : Fin 2) * 400 ≤ (i 0).val
        ∧ (i 0).val < win1_6.index ⟨(i 0).val / 400, htN⟩ (0 : Fin 2) * 400 + 400
      rw [e0]; show (i 0).val / 400 * 400 ≤ (i 0).val ∧ (i 0).val < (i 0).val / 400 * 400 + 400; omega
    | ⟨1, _⟩ =>
      show win1_6.index ⟨(i 0).val / 400, htN⟩ (1 : Fin 2) * 16 ≤ (i 1).val
        ∧ (i 1).val < win1_6.index ⟨(i 0).val / 400, htN⟩ (1 : Fin 2) * 16 + 16
      rw [e1]; omega

/-- The third output array is the specification's second-layer feature product. -/
theorem mid_array (W2 : Fin 16 → Fin 16 → EReal)
    (hw2 : ∀ (k q : Fin 16), V c main_v4 (ix2 k (⟨32 + q.val, by have := q.isLt; omega⟩ : Fin 48)) = W2 k q) :
    (dat1 V c).arrAt 7 cfg1.N = fun i => Cert.GcnSpec.mid X ADJ W1 B1 W2 (i 0) (i 1) := by
  refine (dat1 V c).arrAt_eq_of_cover 7 _ (fun t _ => ?_) (fun i => ?_)
  · have ht := point_lt1 t
    show (cfg1.win 7).cut (grid1.coords t) ((dat1 V c).after 7 t) = _
    rw [dat1_after7]
    unfold midBlock
    rw [View.canon_unit_zero origin2]
    simp only [View.ld_unit_zero (S := S400x10000) origin2, View.ld_unit_zero (S := S10000x16) origin2,
      View.ld_unit_zero (S := S1x16) origin2, View.ld_unit_zero (S := S16x48) origin2]
    funext j
    obtain ⟨p, q, rfl⟩ : ∃ (p : Fin 400) (q : Fin 16), j = ix2 p q := ⟨j 0, j 1, eq_ix2 j⟩
    have hp : 400 * t.val + p.val < 10000 := by have := p.isLt; omega
    show k1_pay4 (F := Ideal) (blk1 V c 4 t) (blk1 V c 0 t) (blk1 V c 1 t) (blk1 V c 2 t) (ix2 p q)
      = Cert.GcnSpec.mid X ADJ W1 B1 W2 ((((cfg1.win 7).blk t).view.emb (ix2 p q)) 0) ((((cfg1.win 7).blk t).view.emb (ix2 p q)) 1)
    rw [place1_7 t p q hp]
    refine (Cert.KernelIdeal.Pay.k1_pay4_apply _ _ _ _ p q).trans ?_
    show _ = ∑ k : Fin 16, Cert.GcnSpec.hidden X ADJ W1 B1 (⟨400 * t.val + p.val, hp⟩ : Fin 10000) k * W2 k q
    refine Finset.sum_congr rfl fun k _ => ?_
    rw [hidden_of_blocks V c X ADJ W1 B1 hS hb1 hadj t p k hp, read1_weights, hw2]
  · have hi0 := idx2_lt0 i
    have hi1 := idx2_lt1 i
    have htN : (i 0).val / 400 < cfg1.N := by rw [show cfg1.N = 25 from N_1]; omega
    refine ⟨⟨(i 0).val / 400, htN⟩, flush1_7 _, ?_⟩
    obtain ⟨-, -, -, -, -, -, -, -, -, -, -, -, -, -, e0, e1⟩ := idx1 ⟨(i 0).val / 400, htN⟩
    show i ∈ ((View.whole main_v6_2).slice (win1_7.rect ⟨(i 0).val / 400, htN⟩)).set
    rw [View.set_slice_whole, Rect.mem_set_unit]
    intro a
    match a with
    | ⟨0, _⟩ =>
      show win1_7.index ⟨(i 0).val / 400, htN⟩ (0 : Fin 2) * 400 ≤ (i 0).val
        ∧ (i 0).val < win1_7.index ⟨(i 0).val / 400, htN⟩ (0 : Fin 2) * 400 + 400
      rw [e0]; show (i 0).val / 400 * 400 ≤ (i 0).val ∧ (i 0).val < (i 0).val / 400 * 400 + 400; omega
    | ⟨1, _⟩ =>
      show win1_7.index ⟨(i 0).val / 400, htN⟩ (1 : Fin 2) * 16 ≤ (i 1).val
        ∧ (i 1).val < win1_7.index ⟨(i 0).val / 400, htN⟩ (1 : Fin 2) * 16 + 16
      rw [e1]; omega

end Values

end Cert.KernelIdeal.Body

end
-- ==== Proof.KernelIdeal.PaySoftmax.lean ====
/-
  The attention softmax read at an index. The whole [1250, 128] block L of logits is taken to its largest entry
      M = the supremum over all (a, b) of L a b,
  the shifted exponentials are summed over all entries,
      Z = ∑ over all (a, b) of exp (L a b - M),
  and the stored value at (a, b) is exp (L a b - M) / Z. Both reductions run over every entry of the block viewed as a
  [1, 1250, 128] array and leave one number: a reduction into a shape whose axes all have size one runs over all source
  indices, the maximum started from -∞ is the supremum (the maximum is the lattice's join and -∞ its bottom), and the
  indices of the [1, 1250, 128] view are the pairs (a, b).
-/
import proofs.«107558_g86887188398718_cont_9to1c4b_243_24_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The pattern of the negative infinity denotes the bottom of the extended reals. -/
theorem ofBits_neg_inf_f32 : Ideal.ofBits .f32 0xFF800000#32 = (⊥ : EReal) := by simp [Ideal.ofBits, Ideal.ieee]

/-- The indices of a [1, 1250, 128] array are the pairs (row, column). -/
def idxPairs : S1x1250x128.Idx ≃ Fin 1250 × Fin 128 where
  toFun i := (i 1, i 2)
  invFun ab := ix3 (0 : Fin 1) ab.1 ab.2
  left_inv i := by
    show ix3 (0 : Fin 1) (i 1) (i 2) = i
    funext c
    match c with
    | ⟨0, _⟩ => exact Fin.ext (by have h : (i 0).val < 1 := (i 0).isLt; show 0 = (i 0).val; omega)
    | ⟨1, _⟩ => rfl
    | ⟨2, _⟩ => rfl
  right_inv _ := rfl

/-- Every axis of the one-entry shape has size one. -/
theorem size_S1 (b : Fin S1.rank) : S1.size b = 1 := by
  match b with
  | ⟨0, _⟩ => rfl

/-- The maximum-reduction of a [1, 1250, 128] array over its last two axes, started from -∞: the supremum of all its
    entries, listed by (row, column). -/
theorem allMax_apply (V : FVec Ideal S1x1250x128 .f32) (j : S1.Idx) :
    multiReduction (F := Ideal) .maximumf [1, 2] S1 V 0xFF800000#32 reduces_S1x1250x128_S1 (.inl rfl) rfl j
      = Finset.univ.sup (fun ab : Fin 1250 × Fin 128 => V (ix3 (0 : Fin 1) ab.1 ab.2)) := by
  refine (multiReduction_maximumf_eq_fold V 0xFF800000#32 reduces_S1x1250x128_S1 (.inl rfl) rfl j).trans ?_
  rw [Finset.filter_true_of_mem fun i _ => funext fun b => Fin.ext (by
    have := (reduces_S1x1250x128_S1.drop i b).isLt; have := (j b).isLt; have := size_S1 b; omega)]
  show (Finset.univ : Finset S1x1250x128.Idx).fold max (Ideal.ofBits .f32 0xFF800000#32) V = _
  rw [ofBits_neg_inf_f32, ← Finset.map_univ_equiv idxPairs.symm, Finset.fold_map]
  rfl

/-- The sum-reduction of a [1, 1250, 128] array over its last two axes: the sum of all its entries, listed by
    (row, column). -/
theorem allSum_apply (V : FVec Ideal S1x1250x128 .f32) (j : S1.Idx) :
    multiReduction (F := Ideal) .add [1, 2] S1 V 0x00000000#32 reduces_S1x1250x128_S1 (.inl rfl) rfl j
      = ∑ ab : Fin 1250 × Fin 128, V (ix3 (0 : Fin 1) ab.1 ab.2) := by
  refine (Ideal.multiReduction_add_total V 0x00000000#32 reduces_S1x1250x128_S1 size_S1 (.inl rfl) rfl j).trans ?_
  exact (Equiv.sum_comp idxPairs.symm V).symm

/-- The largest entry of the block: the supremum over all pairs (row, column). -/
def M (L : Vec Ideal S1250x128 .f32) : EReal :=
  Finset.univ.sup (fun ab : Fin 1250 × Fin 128 => L (ix2 ab.1 ab.2))

/-- The sum over all pairs (row, column) of the shifted exponentials. -/
def Z (L : Vec Ideal S1250x128 .f32) : EReal :=
  ∑ ab : Fin 1250 × Fin 128, Ideal.exp (L (ix2 ab.1 ab.2) - M L)

/-- The one number a reduction leaves, read through the reshape [1] to [1, 1, 1] at position (0, 0, 0), is the
    reduction at an index of [1]. -/
theorem extract_cast (v : FVec Ideal S1 .f32) :
    ∃ j : S1.Idx, extractAt ![0, 0, 0] (shapeCast S1x1x1 v shapeCasts_S1_S1x1x1) inpos_S1x1x1_p0_0_0 = v j :=
  ⟨_, rfl⟩

/-- THE ATTENTION PAYLOAD AT (a, b): exp (L a b - M) / Z. -/
theorem k2_pay1_apply (L : Vec Ideal S1250x128 .f32) (a : Fin 1250) (b : Fin 128) :
    k2_pay1 (F := Ideal) L (ix2 a b) = Ideal.div (Ideal.exp (L (ix2 a b) - M L)) (Z L) := by
  unfold k2_pay1
  rw [shapeCast_self]
  obtain ⟨j1, h1⟩ := extract_cast (multiReduction (F := Ideal) .maximumf [1, 2] S1
    (shapeCast S1x1250x128 L shapeCasts_S1250x128_S1x1250x128) 0xFF800000#32 reduces_S1x1250x128_S1 (.inl rfl) rfl)
  have hM : extractAt ![0, 0, 0] (shapeCast S1x1x1 (multiReduction (F := Ideal) .maximumf [1, 2] S1
      (shapeCast S1x1250x128 L shapeCasts_S1250x128_S1x1250x128) 0xFF800000#32 reduces_S1x1250x128_S1 (.inl rfl) rfl)
      shapeCasts_S1_S1x1x1) inpos_S1x1x1_p0_0_0 = M L := by
    rw [h1, allMax_apply]
    unfold M
    exact congrArg _ (funext fun ab => shapeCast_ab_1ab_apply L _ (0 : Fin 1) ab.1 ab.2)
  rw [hM]
  obtain ⟨j2, h2⟩ := extract_cast (multiReduction (F := Ideal) .add [1, 2] S1
    (shapeCast S1x1250x128 (exp (subf L (broadcast S1250x128 (M L)))) shapeCasts_S1250x128_S1x1250x128)
    0x00000000#32 reduces_S1x1250x128_S1 (.inl rfl) rfl)
  have hZ : extractAt ![0, 0, 0] (shapeCast S1x1x1 (multiReduction (F := Ideal) .add [1, 2] S1
      (shapeCast S1x1250x128 (exp (subf L (broadcast S1250x128 (M L)))) shapeCasts_S1250x128_S1x1250x128)
      0x00000000#32 reduces_S1x1250x128_S1 (.inl rfl) rfl)
      shapeCasts_S1_S1x1x1) inpos_S1x1x1_p0_0_0 = Z L := by
    rw [h2, allSum_apply]
    unfold Z
    exact Finset.sum_congr rfl fun ab _ => shapeCast_ab_1ab_apply _ _ (0 : Fin 1) ab.1 ab.2
  rw [hZ]
  rfl

end Cert.KernelIdeal.Pay

end
-- ==== Proof.LibFlatten.lean ====
/-
  Re-indexing between a two-dimensional block and its row-major flattening. Entry (i, j) of an [a, b] block sits at
  position b * i + j of the flattened array of a * b entries; the map is a bijection, so a supremum or a sum over
  all positions is the supremum or the sum over all (i, j). The two blocks that occur together here, [1250, 128]
  and [10000, 16], flatten to the same 160000 positions, and the arithmetic that passes from one layout to the
  other is stated on the positions' values.
-/
import Mathlib

open scoped BigOperators

namespace Cert.LibFlatten

/-- The row-major position of entry (i, j) of an [a, b] block, among n = a * b positions: b * i + j. -/
def flat {a b n : ℕ} (h : a * b = n) (i : Fin a) (j : Fin b) : Fin n :=
  ⟨b * i.val + j.val, by
    have hi := i.isLt
    have hj := j.isLt
    have h1 : b * i.val + j.val < b * (i.val + 1) := by rw [Nat.mul_add, Nat.mul_one]; omega
    have h2 : b * (i.val + 1) ≤ b * a := Nat.mul_le_mul_left b hi
    have h3 : b * a = n := by rw [Nat.mul_comm]; exact h
    omega⟩

/-- The position's value is b * i + j. -/
@[simp] theorem flat_val {a b n : ℕ} (h : a * b = n) (i : Fin a) (j : Fin b) : (flat h i j).val = b * i.val + j.val := rfl

/-- The row of a position: (b * i + j) / b = i. -/
theorem flat_div {a b n : ℕ} (h : a * b = n) (i : Fin a) (j : Fin b) : (flat h i j).val / b = i.val := by
  have hj := j.isLt
  rw [flat_val, Nat.mul_add_div (by omega), Nat.div_eq_of_lt hj, Nat.add_zero]

/-- The column of a position: (b * i + j) % b = j. -/
theorem flat_mod {a b n : ℕ} (h : a * b = n) (i : Fin a) (j : Fin b) : (flat h i j).val % b = j.val := by
  rw [flat_val, Nat.mul_add_mod, Nat.mod_eq_of_lt j.isLt]

/-- Entries of an [a, b] block and positions of its flattening correspond one to one. -/
def flatEquiv {a b n : ℕ} (h : a * b = n) : Fin a × Fin b ≃ Fin n :=
  finProdFinEquiv.trans (finCongr h)

/-- The correspondence sends (i, j) to position b * i + j. -/
theorem flatEquiv_apply {a b n : ℕ} (h : a * b = n) (ij : Fin a × Fin b) : flatEquiv h ij = flat h ij.1 ij.2 := by
  apply Fin.ext
  simp [flatEquiv, flat, finProdFinEquiv]
  omega

/-- A supremum over all positions is the supremum over all entries (i, j), as one family over the pairs. -/
theorem sup_flat {α : Type*} [SemilatticeSup α] [OrderBot α] {a b n : ℕ} (h : a * b = n) (f : Fin n → α) :
    Finset.univ.sup (fun ij : Fin a × Fin b => f (flat h ij.1 ij.2)) = Finset.univ.sup f := by
  have e : (fun ij : Fin a × Fin b => f (flat h ij.1 ij.2)) = f ∘ (flatEquiv h).toEmbedding :=
    funext fun ij => by simp [flatEquiv_apply]
  rw [e, ← Finset.sup_map, Finset.map_univ_equiv]

/-- A supremum over all positions is the supremum over the rows of the suprema within each row. -/
theorem sup_sup_flat {α : Type*} [SemilatticeSup α] [OrderBot α] {a b n : ℕ} (h : a * b = n) (f : Fin n → α) :
    Finset.univ.sup (fun i : Fin a => Finset.univ.sup (fun j : Fin b => f (flat h i j))) = Finset.univ.sup f := by
  rw [← sup_flat h f, ← Finset.univ_product_univ, Finset.sup_product_left]

/-- A sum over all positions is the sum over all entries (i, j), as one family over the pairs. -/
theorem sum_flat {M : Type*} [AddCommMonoid M] {a b n : ℕ} (h : a * b = n) (f : Fin n → M) :
    ∑ ij : Fin a × Fin b, f (flat h ij.1 ij.2) = ∑ k : Fin n, f k := by
  rw [← Equiv.sum_comp (flatEquiv h) f]
  exact Finset.sum_congr rfl fun ij _ => by rw [flatEquiv_apply]

/-- A sum over all positions is the sum over the rows of the sums within each row. -/
theorem sum_sum_flat {M : Type*} [AddCommMonoid M] {a b n : ℕ} (h : a * b = n) (f : Fin n → M) :
    ∑ i : Fin a, ∑ j : Fin b, f (flat h i j) = ∑ k : Fin n, f k := by
  rw [← sum_flat h f, Fintype.sum_prod_type]

/-! ## The two blocks of 160000 entries -/

/-- The position of entry (i, j) of the [1250, 128] block: 128 * i + j. -/
abbrev flatIdx (i : Fin 1250) (j : Fin 128) : Fin 160000 := flat (a := 1250) (b := 128) (n := 160000) (by norm_num) i j

/-- The position of entry (p, q) of the [10000, 16] block: 16 * p + q. -/
abbrev rowIdx (p : Fin 10000) (q : Fin 16) : Fin 160000 := flat (a := 10000) (b := 16) (n := 160000) (by norm_num) p q

theorem flatIdx_val (i : Fin 1250) (j : Fin 128) : (flatIdx i j).val = 128 * i.val + j.val := rfl
theorem rowIdx_val (p : Fin 10000) (q : Fin 16) : (rowIdx p q).val = 16 * p.val + q.val := rfl

/-- Supremum over all 160000 positions, by the [1250, 128] layout. -/
theorem sup_flatIdx {α : Type*} [SemilatticeSup α] [OrderBot α] (f : Fin 160000 → α) :
    Finset.univ.sup (fun ij : Fin 1250 × Fin 128 => f (flatIdx ij.1 ij.2)) = Finset.univ.sup f := sup_flat _ f

/-- Sum over all 160000 positions, by the [1250, 128] layout. -/
theorem sum_flatIdx {M : Type*} [AddCommMonoid M] (f : Fin 160000 → M) :
    ∑ ij : Fin 1250 × Fin 128, f (flatIdx ij.1 ij.2) = ∑ k : Fin 160000, f k := sum_flat _ f

/-- Supremum over all 160000 positions, by the [10000, 16] layout. -/
theorem sup_rowIdx {α : Type*} [SemilatticeSup α] [OrderBot α] (f : Fin 160000 → α) :
    Finset.univ.sup (fun pq : Fin 10000 × Fin 16 => f (rowIdx pq.1 pq.2)) = Finset.univ.sup f := sup_flat _ f

/-- Sum over all 160000 positions, by the [10000, 16] layout. -/
theorem sum_rowIdx {M : Type*} [AddCommMonoid M] (f : Fin 160000 → M) :
    ∑ pq : Fin 10000 × Fin 16, f (rowIdx pq.1 pq.2) = ∑ k : Fin 160000, f k := sum_flat _ f

/-- A position of the [1250, 128] layout read in the [10000, 16] layout: its row n / 16 and column n % 16 are in
    range and give the position back. -/
theorem flatIdx_as_row (i : Fin 1250) (j : Fin 128) :
    (128 * i.val + j.val) / 16 < 10000 ∧ (128 * i.val + j.val) % 16 < 16
      ∧ 16 * ((128 * i.val + j.val) / 16) + (128 * i.val + j.val) % 16 = 128 * i.val + j.val := by
  have hi := i.isLt
  have hj := j.isLt
  omega

/-- A position of the [10000, 16] layout read in the [1250, 128] layout and back: its row n / 128 and column
    n % 128 are in range, and n / 16, n % 16 are the entry's own coordinates. -/
theorem rowIdx_as_flat (p : Fin 10000) (q : Fin 16) :
    (16 * p.val + q.val) / 128 < 1250 ∧ (16 * p.val + q.val) % 128 < 128
      ∧ (16 * p.val + q.val) / 16 = p.val ∧ (16 * p.val + q.val) % 16 = q.val
      ∧ 128 * ((16 * p.val + q.val) / 128) + (16 * p.val + q.val) % 128 = 16 * p.val + q.val := by
  have hp := p.isLt
  have hq := q.isLt
  omega

/-- Every position is the position of its own row n / 16 and column n % 16 in the [10000, 16] layout. -/
theorem rowIdx_div_mod (n : Fin 160000) :
    rowIdx ⟨n.val / 16, by have := n.isLt; omega⟩ ⟨n.val % 16, by omega⟩ = n := by
  apply Fin.ext
  show 16 * (n.val / 16) + n.val % 16 = n.val
  omega

/-- Every position is the position of its own row n / 128 and column n % 128 in the [1250, 128] layout. -/
theorem flatIdx_div_mod (n : Fin 160000) :
    flatIdx ⟨n.val / 128, by have := n.isLt; omega⟩ ⟨n.val % 128, by omega⟩ = n := by
  apply Fin.ext
  show 128 * (n.val / 128) + n.val % 128 = n.val
  omega

end Cert.LibFlatten
-- ==== Proof.KernelIdeal.AttentionArray.lean ====
/-
  The third pallas_call's output array, index by index. Its input is the [1250, 128] array whose entry (a, b) is the
  logit at row-major position 128 * a + b. There is one grid point and both windows are the whole array at block
  index 0, so a block's entry (a, b) is the array's entry (a, b); the one store's value at (a, b) is
  exp (L a b - M) / Z with M the supremum and Z the sum of shifted exponentials over all entries of the block; every
  position 0 … 159999 is the position of exactly one (a, b), so M is the supremum of all logits and Z the sum over
  all of them; and the one block covers the array.
-/
import proofs.«107558_g86887188398718_cont_9to1c4b_243_24_alg».proof.Proof.KernelIdeal.AttentionBody
import proofs.«107558_g86887188398718_cont_9to1c4b_243_24_alg».proof.Proof.KernelIdeal.SupportArray
import proofs.«107558_g86887188398718_cont_9to1c4b_243_24_alg».proof.Proof.KernelIdeal.PaySoftmax
import proofs.«107558_g86887188398718_cont_9to1c4b_243_24_alg».proof.Proof.LibFlatten
import proofs.«107558_g86887188398718_cont_9to1c4b_243_24_alg».proof.Proof.GcnSpec
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the pallas_call is entered, at the extended reals
variable (V : (c : Dev nD) → (b : Ref sig .tc) → Buf (Elt Ideal) ((c : Thread nD τ).loc b))

/-- The printed block-index maps at the one grid point: every block index is 0. -/
theorem idx2 : ∀ t : Fin cfg2.N, win2_0.index t (0 : Fin 2) = 0 ∧ win2_0.index t (1 : Fin 2) = 0
    ∧ win2_1.index t (0 : Fin 2) = 0 ∧ win2_1.index t (1 : Fin 2) = 0 :=
  (by decide +kernel : ∀ t : Fin grid2.N, _)

/-- The block of logits read at (a, b) is the array at (a, b). -/
theorem read2_logits (c : Dev nD) (t : Fin cfg2.N) (a : Fin 1250) (b : Fin 128) :
    blk2 V c 0 t (ix2 a b) = V c main_v7 (ix2 a b) := by
  obtain ⟨e0, e1, -⟩ := idx2 t
  show V c main_v7 (((cfg2.win 0).blk t).view.emb (ix2 a b)) = _
  refine congrArg _ (funext fun x => Fin.ext ?_)
  match x with
  | ⟨0, _⟩ => show win2_0.index t (0 : Fin 2) * 1250 + 1 * a.val = a.val; omega
  | ⟨1, _⟩ => show win2_0.index t (1 : Fin 2) * 128 + 1 * b.val = b.val; omega

/-- The output block's entry (a, b) sits at the array's (a, b). -/
theorem place2 (t : Fin cfg2.N) (a : Fin 1250) (b : Fin 128) :
    ((cfg2.win 1).blk t).view.emb (ix2 a b) = ix2 a b := by
  obtain ⟨-, -, e0, e1⟩ := idx2 t
  refine funext fun x => Fin.ext ?_
  match x with
  | ⟨0, _⟩ => show win2_1.index t (0 : Fin 2) * 1250 + 1 * a.val = a.val; omega
  | ⟨1, _⟩ => show win2_1.index t (1 : Fin 2) * 128 + 1 * b.val = b.val; omega

/-- A function of the output array's index read through the one block's window at (a, b) is the function at (a, b). -/
theorem read2_out (G : (⟨S1250x128, .f32⟩ : BufTy).Contents (Elt Ideal)) (t : Fin cfg2.N) (a : Fin 1250) (b : Fin 128) :
    View.read (Elt Ideal) ((View.whole main_v8).slice ((win2 1).rect t)) G (ix2 a b) = G (ix2 a b) := by
  show G (((cfg2.win 1).blk t).view.emb (ix2 a b)) = _
  rw [place2 t a b]

/-- The output array after the call: entry (a, b) is the global softmax's entry at position 128 * a + b, given that the
    input array's entry (a, b) is the logit at that position. -/
theorem attention_array_eq (c : Dev nD) (X : Fin 10000 → Fin 128 → EReal) (ADJ : Fin 10000 → Fin 10000 → EReal)
    (W1 : Fin 128 → Fin 16 → EReal) (B1 : Fin 16 → EReal) (ATT : Fin 16 → Fin 16 → EReal)
    (hL : ∀ (a : Fin 1250) (b : Fin 128),
      V c main_v7 (ix2 a b) = Cert.GcnSpec.flat X ADJ W1 B1 ATT (Cert.LibFlatten.flatIdx a b)) :
    (dat2 V c).arrAt 1 cfg2.N = fun i =>
      Ideal.div (Ideal.exp (Cert.GcnSpec.flat X ADJ W1 B1 ATT (Cert.LibFlatten.flatIdx (i 0) (i 1))
        - Cert.GcnSpec.gmax X ADJ W1 B1 ATT)) (Cert.GcnSpec.gsum X ADJ W1 B1 ATT) := by
  refine (dat2 V c).arrAt_eq_of_cover 1 _ (fun t _ => ?_) (fun i => ?_)
  · show (cfg2.win 1).cut (grid2.coords t) ((dat2 V c).after 1 t) = _
    rw [dat2_after1]
    unfold attention
    rw [View.canon_unit_zero origin2]
    simp only [View.ld_unit_zero (S := S1250x128) origin2]
    funext j
    obtain ⟨a, b, rfl⟩ : ∃ (a : Fin 1250) (b : Fin 128), j = ix2 a b := ⟨j 0, j 1, eq_ix2 j⟩
    have hblk : ∀ (a : Fin 1250) (b : Fin 128),
        blk2 V c 0 t (ix2 a b) = Cert.GcnSpec.flat X ADJ W1 B1 ATT (Cert.LibFlatten.flatIdx a b) := fun a b => by
      rw [read2_logits, hL]
    have hM : Cert.KernelIdeal.Pay.M (blk2 V c 0 t) = Cert.GcnSpec.gmax X ADJ W1 B1 ATT :=
      (Finset.sup_congr rfl fun ab _ => hblk ab.1 ab.2).trans
        (Cert.LibFlatten.sup_flatIdx (Cert.GcnSpec.flat X ADJ W1 B1 ATT))
    have hZ : Cert.KernelIdeal.Pay.Z (blk2 V c 0 t) = Cert.GcnSpec.gsum X ADJ W1 B1 ATT := by
      unfold Cert.KernelIdeal.Pay.Z
      rw [hM]
      exact (Finset.sum_congr rfl fun ab _ => by rw [hblk ab.1 ab.2]).trans
        (Cert.LibFlatten.sum_flatIdx fun n =>
          Ideal.exp (Cert.GcnSpec.flat X ADJ W1 B1 ATT n - Cert.GcnSpec.gmax X ADJ W1 B1 ATT))
    rw [read2_out]
    show k2_pay1 (F := Ideal) (blk2 V c 0 t) (ix2 a b) = _
    refine (Cert.KernelIdeal.Pay.k2_pay1_apply _ a b).trans ?_
    rw [hM, hZ, hblk]
    rfl
  · refine ⟨t2_0, flush2_1 _, ?_⟩
    obtain ⟨-, -, e0, e1⟩ := idx2 t2_0
    show i ∈ ((View.whole main_v8).slice (win2_1.rect t2_0)).set
    rw [View.set_slice_whole, Rect.mem_set_unit]
    intro x
    match x with
    | ⟨0, _⟩ =>
      show win2_1.index t2_0 (0 : Fin 2) * 1250 ≤ (i 0).val ∧ (i 0).val < win2_1.index t2_0 (0 : Fin 2) * 1250 + 1250
      have h := idx2_lt0 i; omega
    | ⟨1, _⟩ =>
      show win2_1.index t2_0 (1 : Fin 2) * 128 ≤ (i 1).val ∧ (i 1).val < win2_1.index t2_0 (1 : Fin 2) * 128 + 128
      have h := idx2_lt1 i; omega

end Cert.KernelIdeal.Body

end
-- ==== Proof.KernelIdeal.PayStreamB.lean ====
/-
  The second adjacency stream read at an index. One block of 400 adjacency rows A, the whole feature array m and the bias
  row b give the rows
      pre y q = ∑ j, A y j * m j q + b q,
  and the stored result is their row-wise log-softmax in the shifted form
      (pre y q - rm y) - log (∑ q', exp (pre y q' - rm y)),   rm y = the supremum over q of pre y q.
  Over the extended reals the maximum-reduction along a row started from -∞ is the row's supremum (the maximum is the
  lattice's join and -∞ its bottom), the sum-reduction along a row is the sum over the sixteen columns, and the
  keepdims reshape [400] to [400, 1] followed by the broadcast to [400, 16] reads the reduced value of the row.
-/
import proofs.«107558_g86887188398718_cont_9to1c4b_243_24_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«107558_g86887188398718_cont_9to1c4b_243_24_alg».proof.Proof.KernelIdeal.PayMatmul

noncomputable section

open scoped BigOperators

namespace Cert.KernelIdeal.Pay

open Cert.KernelIdeal Cert.KernelIdeal.Gen Idealize.ShloMosaic Idealize.ShloMosaic.ValueIdx

section Keepdims
variable {α : Type}

/-- An [a] array cast to [a, 1] reads, at (i, u), the operand at i, whatever the unit coordinate u: both have row-major
    position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

/-- The pattern of the negative infinity denotes the bottom of the extended reals. -/
theorem ofBits_neg_inf_f32 : Ideal.ofBits .f32 0xFF800000#32 = (⊥ : EReal) := by simp [Ideal.ofBits, Ideal.ieee]

/-- A row index of a [400, 16] array with the column put back is the pair (row, column). -/
theorem lift_row (y : Fin 400) (k : Fin (S400x16.size 1)) :
    reduces_S400x16_S400.lift (ix1 y) k = ix2 y (⟨k.val, k.isLt⟩ : Fin 16) := by
  funext c; apply Fin.ext
  match c with
  | ⟨0, _⟩ => rfl
  | ⟨1, _⟩ => rfl

/-- The maximum-reduction of a [400, 16] array along its rows, started from -∞, at row y: the supremum of the row's
    sixteen entries. -/
theorem rowMax_apply (V : FVec Ideal S400x16 .f32) (y : Fin 400) :
    multiReduction (F := Ideal) .maximumf [1] S400 V 0xFF800000#32 reduces_S400x16_S400 (.inl rfl) rfl (ix1 y)
      = Finset.univ.sup (fun q : Fin 16 => V (ix2 y q)) := by
  refine (Ideal.multiReduction_maximumf_single V 0xFF800000#32 reduces_S400x16_S400 (.inl rfl) rfl (ix1 y)).trans ?_
  show (Finset.univ : Finset (Fin 16)).fold max (Ideal.ofBits .f32 0xFF800000#32)
      (fun k : Fin 16 => V (reduces_S400x16_S400.lift (ix1 y) k)) = _
  have hf : (fun k : Fin 16 => V (reduces_S400x16_S400.lift (ix1 y) k)) = fun q : Fin 16 => V (ix2 y q) :=
    funext fun k => congrArg V (lift_row y k)
  rw [ofBits_neg_inf_f32, hf]
  rfl

/-- The sum-reduction of a [400, 16] array along its rows at row y: the sum of the row's sixteen entries. -/
theorem rowSum_apply (V : FVec Ideal S400x16 .f32) (y : Fin 400) :
    multiReduction (F := Ideal) .add [1] S400 V 0x00000000#32 reduces_S400x16_S400 (.inl rfl) rfl (ix1 y)
      = ∑ q : Fin 16, V (ix2 y q) := by
  refine (Ideal.multiReduction_add_single V 0x00000000#32 reduces_S400x16_S400 (.inl rfl) rfl (ix1 y)).trans ?_
  show ∑ k : Fin 16, V (reduces_S400x16_S400.lift (ix1 y) k) = _
  exact Finset.sum_congr rfl fun k _ => congrArg V (lift_row y k)

/-- The row maxima as a column, spread back over the sixteen columns. -/
def rowMaxCol (V : FVec Ideal S400x16 .f32) : FVec Ideal S400x16 .f32 :=
  broadcastTo S400x16 (shapeCast S400x1
    (multiReduction (F := Ideal) .maximumf [1] S400 V 0xFF800000#32 reduces_S400x16_S400 (.inl rfl) rfl)
    shapeCasts_S400_S400x1) broadcasts_S400x1_S400x16

/-- At (y, q) it is the supremum of row y. -/
theorem rowMaxCol_apply (V : FVec Ideal S400x16 .f32) (y : Fin 400) (q : Fin 16) :
    rowMaxCol V (ix2 y q) = Finset.univ.sup (fun q' : Fin 16 => V (ix2 y q')) := by
  unfold rowMaxCol
  rw [broadcastTo_a1_ab_apply, shapeCast_a_a1_apply, rowMax_apply]

/-- The logarithm of the row sums of the exponentials as a column, spread back over the sixteen columns. -/
def rowLseCol (V : FVec Ideal S400x16 .f32) : FVec Ideal S400x16 .f32 :=
  broadcastTo S400x16 (log (shapeCast S400x1
    (multiReduction (F := Ideal) .add [1] S400 (exp V) 0x00000000#32 reduces_S400x16_S400 (.inl rfl) rfl)
    shapeCasts_S400_S400x1)) broadcasts_S400x1_S400x16

/-- At (y, q) it is the logarithm of the sum over row y of the exponentials. -/
theorem rowLseCol_apply (V : FVec Ideal S400x16 .f32) (y : Fin 400) (q : Fin 16) :
    rowLseCol V (ix2 y q) = Ideal.log (∑ q' : Fin 16, Ideal.exp (V (ix2 y q'))) := by
  unfold rowLseCol
  rw [broadcastTo_a1_ab_apply]
  show Ideal.log (shapeCast S400x1
    (multiReduction (F := Ideal) .add [1] S400 (exp V) 0x00000000#32 reduces_S400x16_S400 (.inl rfl) rfl)
    shapeCasts_S400_S400x1 (ix2 y (0 : Fin 1))) = _
  rw [shapeCast_a_a1_apply, rowSum_apply]
  rfl

/-- The second layer before its normalisation on one block of adjacency rows: row y of the block against column q of
    the feature array, plus the bias. -/
def pre (A : Vec Ideal S400x10000 .f32) (Mm : Vec Ideal S10000x16 .f32) (b : Vec Ideal S1x16 .f32) (y : Fin 400) (q : Fin 16) : EReal :=
  ∑ j : Fin 10000, A (ix2 y j) * Mm (ix2 j q) + b (ix2 (0 : Fin 1) q)

/-- The largest entry of row y of pre: the supremum of the sixteen. -/
def rm (A : Vec Ideal S400x10000 .f32) (Mm : Vec Ideal S10000x16 .f32) (b : Vec Ideal S1x16 .f32) (y : Fin 400) : EReal :=
  Finset.univ.sup (fun q : Fin 16 => pre A Mm b y q)

/-- The same rows as an array. -/
def preVec (A : Vec Ideal S400x10000 .f32) (Mm : Vec Ideal S10000x16 .f32) (b : Vec Ideal S1x16 .f32) : FVec Ideal S400x16 .f32 :=
  addf (matmul (F := Ideal) (φ₁ := .f32) (φ₂ := .f32) dot_S400x10000_S10000x16_S400x16_1_0_0_1_n_n none A Mm
      (constant (F := Ideal) S400x16 .f32 0x00000000#32))
    (broadcastTo S400x16 b broadcasts_S1x16_S400x16)

theorem preVec_apply (A : Vec Ideal S400x10000 .f32) (Mm : Vec Ideal S10000x16 .f32) (b : Vec Ideal S1x16 .f32) (y : Fin 400) (q : Fin 16) :
    preVec A Mm b (ix2 y q) = pre A Mm b y q := by
  unfold preVec pre
  show matmul (F := Ideal) (φ₁ := .f32) (φ₂ := .f32) dot_S400x10000_S10000x16_S400x16_1_0_0_1_n_n none A Mm
        (constant (F := Ideal) S400x16 .f32 0x00000000#32) (ix2 y q)
      + broadcastTo S400x16 b broadcasts_S1x16_S400x16 (ix2 y q) = _
  rw [matmul_400x10000_10000x16_apply, broadcastTo_1b_ab_apply]

/-- THE SECOND STREAM'S PAYLOAD AT (y, q): the shifted row-wise log-softmax of pre. -/
theorem k3_pay1_apply (A : Vec Ideal S400x10000 .f32) (Mm : Vec Ideal S10000x16 .f32) (b : Vec Ideal S1x16 .f32) (y : Fin 400) (q : Fin 16) :
    k3_pay1 (F := Ideal) A Mm b (ix2 y q)
      = (pre A Mm b y q - rm A Mm b y) - Ideal.log (∑ q' : Fin 16, Ideal.exp (pre A Mm b y q' - rm A Mm b y)) := by
  unfold k3_pay1
  rw [shapeCast_self, shapeCast_self]
  show (preVec A Mm b (ix2 y q) - rowMaxCol (preVec A Mm b) (ix2 y q))
      - rowLseCol (subf (preVec A Mm b) (rowMaxCol (preVec A Mm b))) (ix2 y q) = _
  rw [rowLseCol_apply, rowMaxCol_apply]
  simp only [subf_apply, rowMaxCol_apply, preVec_apply]
  rfl

end Cert.KernelIdeal.Pay

end
-- ==== Proof.KernelIdeal.StreamBArray.lean ====
/-
  The fourth kernel call's output array, index by index. Grid point t stages rows 400·t … 400·t + 399 of adj and of the
  output; the feature array m and the bias row b2 are staged whole at every point. So entry (p, q) of the output block at
  point t is the array's entry (400·t + p, q), and the body's value there is the shifted row-wise log-softmax of
      pre (400·t + p) q = ∑ j, adj (400·t + p) j * m j q + b2 q :
  (pre - rowmax) - log (∑ q', exp (pre q' - rowmax)), the row's maximum being the supremum of its sixteen entries.
  The 25 blocks of 400 rows cover the 10000 rows.
-/
import proofs.«107558_g86887188398718_cont_9to1c4b_243_24_alg».proof.Proof.KernelIdeal.StreamBBody
import proofs.«107558_g86887188398718_cont_9to1c4b_243_24_alg».proof.Proof.KernelIdeal.SupportArray
import proofs.«107558_g86887188398718_cont_9to1c4b_243_24_alg».proof.Proof.KernelIdeal.PayStreamB
import proofs.«107558_g86887188398718_cont_9to1c4b_243_24_alg».proof.Proof.GcnSpec
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the call is entered, at the extended reals
variable (V : (c : Dev nD) → (b : Ref sig .tc) → Buf (Elt Ideal) ((c : Thread nD τ).loc b))

/-- The printed block-index maps over the 25 grid points: the two whole operands stay at block 0; adj and the output move
    down one block of rows per point. -/
theorem idx3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem point_lt3 (t : Fin cfg3.N) : t.val < 25 := Nat.lt_of_lt_of_eq t.isLt N_3

/-- The staged feature array m read at (j, k) is the array at (j, k). -/
theorem read3_mid (c : Dev nD) (t : Fin cfg3.N) (j : Fin 10000) (k : Fin 16) :
    blk3 V c 0 t (ix2 j k) = V c main_v6_2 (ix2 j k) := by
  obtain ⟨e0, e1, -⟩ := idx3 t
  show V c main_v6_2 (((cfg3.win 0).blk t).view.emb (ix2 j k)) = _
  refine congrArg _ (funext fun a => Fin.ext ?_)
  match a with
  | ⟨0, _⟩ => show win3_0.index t (0 : Fin 2) * 10000 + 1 * j.val = j.val; omega
  | ⟨1, _⟩ => show win3_0.index t (1 : Fin 2) * 16 + 1 * k.val = k.val; omega

/-- The staged bias row b2 read at (0, k). -/
theorem read3_b2 (c : Dev nD) (t : Fin cfg3.N) (k : Fin 16) :
    blk3 V c 1 t (ix2 (0 : Fin 1) k) = V c main_v1 (ix2 (0 : Fin 1) k) := by
  obtain ⟨-, -, e0, e1, -⟩ := idx3 t
  show V c main_v1 (((cfg3.win 1).blk t).view.emb (ix2 (0 : Fin 1) k)) = _
  refine congrArg _ (funext fun a => Fin.ext ?_)
  match a with
  | ⟨0, _⟩ => show win3_1.index t (0 : Fin 2) * 1 + 1 * (0 : Fin 1).val = (0 : Fin 1).val; omega
  | ⟨1, _⟩ => show win3_1.index t (1 : Fin 2) * 16 + 1 * k.val = k.val; omega

/-- The block of adj at point t read at (p, j) is adj at row 400·t + p. -/
theorem read3_adj (c : Dev nD) (t : Fin cfg3.N) (p : Fin 400) (j : Fin 10000) (h : 400 * t.val + p.val < 10000) :
    blk3 V c 2 t (ix2 p j) = V c main_arg1 (ix2 (⟨400 * t.val + p.val, h⟩ : Fin 10000) j) := by
  obtain ⟨-, -, -, -, e0, e1, -⟩ := idx3 t
  show V c main_arg1 (((cfg3.win 2).blk t).view.emb (ix2 p j)) = _
  refine congrArg _ (funext fun a => Fin.ext ?_)
  match a with
  | ⟨0, _⟩ => show win3_2.index t (0 : Fin 2) * 400 + 1 * p.val = 400 * t.val + p.val; omega
  | ⟨1, _⟩ => show win3_2.index t (1 : Fin 2) * 10000 + 1 * j.val = j.val; omega

/-- Entry (p, q) of the output block at point t sits at the array's (400·t + p, q). -/
theorem place3_3 (t : Fin cfg3.N) (p : Fin 400) (q : Fin 16) (h : 400 * t.val + p.val < 10000) :
    ((cfg3.win 3).blk t).view.emb (ix2 p q) = ix2 (⟨400 * t.val + p.val, h⟩ : Fin 10000) q := by
  obtain ⟨-, -, -, -, -, -, e0, e1⟩ := idx3 t
  refine funext fun a => Fin.ext ?_
  match a with
  | ⟨0, _⟩ => show win3_3.index t (0 : Fin 2) * 400 + 1 * p.val = 400 * t.val + p.val; omega
  | ⟨1, _⟩ => show win3_3.index t (1 : Fin 2) * 16 + 1 * q.val = q.val; omega

section Values

variable (c : Dev nD) (X : Fin 10000 → Fin 128 → EReal) (ADJ : Fin 10000 → Fin 10000 → EReal) (W1 : Fin 128 → Fin 16 → EReal)
  (B1 : Fin 16 → EReal) (W2 : Fin 16 → Fin 16 → EReal) (B2 : Fin 16 → EReal)
  (hM : ∀ j k, V c main_v6_2 (ix2 j k) = Cert.GcnSpec.mid X ADJ W1 B1 W2 j k)
  (hb2 : ∀ k, V c main_v1 (ix2 (0 : Fin 1) k) = B2 k)
  (hadj : ∀ p j, V c main_arg1 (ix2 p j) = ADJ p j)
include hM hb2 hadj

/-- Entry q of block row p at point t before the normalisation is the specification's entry of row 400·t + p. -/
theorem pre_of_blocks (t : Fin cfg3.N) (p : Fin 400) (q : Fin 16) (h : 400 * t.val + p.val < 10000) :
    Cert.KernelIdeal.Pay.pre (blk3 V c 2 t) (blk3 V c 0 t) (blk3 V c 1 t) p q
      = Cert.GcnSpec.pre2 X ADJ W1 B1 W2 B2 (⟨400 * t.val + p.val, h⟩ : Fin 10000) q := by
  unfold Cert.KernelIdeal.Pay.pre Cert.GcnSpec.pre2
  rw [read3_b2, hb2]
  refine congrArg (fun z => z + B2 q) ?_
  refine Finset.sum_congr rfl fun j _ => ?_
  rw [read3_adj V c t p j h, read3_mid, hadj, hM]

/-- The maximum of block row p at point t is the specification's maximum of row 400·t + p. -/
theorem rowmax_of_blocks (t : Fin cfg3.N) (p : Fin 400) (h : 400 * t.val + p.val < 10000) :
    Cert.KernelIdeal.Pay.rm (blk3 V c 2 t) (blk3 V c 0 t) (blk3 V c 1 t) p
      = Cert.GcnSpec.rowmax X ADJ W1 B1 W2 B2 (⟨400 * t.val + p.val, h⟩ : Fin 10000) := by
  unfold Cert.KernelIdeal.Pay.rm Cert.GcnSpec.rowmax
  exact congrArg (Finset.sup Finset.univ) (funext fun q => pre_of_blocks V c X ADJ W1 B1 W2 B2 hM hb2 hadj t p q h)

/-- The output array is the specification's row-wise log-softmax of the second layer. -/
theorem logSoftmax_array :
    (dat3 V c).arrAt 3 cfg3.N = fun i => Cert.GcnSpec.out1 X ADJ W1 B1 W2 B2 (i 0) (i 1) := by
  refine (dat3 V c).arrAt_eq_of_cover 3 _ (fun t _ => ?_) (fun i => ?_)
  · have ht := point_lt3 t
    show (cfg3.win 3).cut (grid3.coords t) ((dat3 V c).after 3 t) = _
    rw [dat3_after3]
    unfold logSoftmaxBlock
    rw [View.canon_unit_zero origin2]
    simp only [View.ld_unit_zero (S := S400x10000) origin2, View.ld_unit_zero (S := S10000x16) origin2,
      View.ld_unit_zero (S := S1x16) origin2]
    funext j
    obtain ⟨p, q, rfl⟩ : ∃ (p : Fin 400) (q : Fin 16), j = ix2 p q := ⟨j 0, j 1, eq_ix2 j⟩
    have hp : 400 * t.val + p.val < 10000 := by have := p.isLt; omega
    show k3_pay1 (F := Ideal) (blk3 V c 2 t) (blk3 V c 0 t) (blk3 V c 1 t) (ix2 p q)
      = Cert.GcnSpec.out1 X ADJ W1 B1 W2 B2 ((((cfg3.win 3).blk t).view.emb (ix2 p q)) 0) ((((cfg3.win 3).blk t).view.emb (ix2 p q)) 1)
    rw [place3_3 t p q hp]
    refine (Cert.KernelIdeal.Pay.k3_pay1_apply _ _ _ p q).trans ?_
    have hpre : ∀ q' : Fin 16, Cert.KernelIdeal.Pay.pre (blk3 V c 2 t) (blk3 V c 0 t) (blk3 V c 1 t) p q'
        = Cert.GcnSpec.pre2 X ADJ W1 B1 W2 B2 (⟨400 * t.val + p.val, hp⟩ : Fin 10000) q' :=
      fun q' => pre_of_blocks V c X ADJ W1 B1 W2 B2 hM hb2 hadj t p q' hp
    rw [rowmax_of_blocks V c X ADJ W1 B1 W2 B2 hM hb2 hadj t p hp]
    simp only [hpre]
    rfl
  · have hi0 := idx2_lt0 i
    have hi1 := idx2_lt1 i
    have htN : (i 0).val / 400 < cfg3.N := by rw [show cfg3.N = 25 from N_3]; omega
    refine ⟨⟨(i 0).val / 400, htN⟩, flush3_3 _, ?_⟩
    obtain ⟨-, -, -, -, -, -, e0, e1⟩ := idx3 ⟨(i 0).val / 400, htN⟩
    show i ∈ ((View.whole main_v9).slice (win3_3.rect ⟨(i 0).val / 400, htN⟩)).set
    rw [View.set_slice_whole, Rect.mem_set_unit]
    intro a
    match a with
    | ⟨0, _⟩ =>
      show win3_3.index ⟨(i 0).val / 400, htN⟩ (0 : Fin 2) * 400 ≤ (i 0).val
        ∧ (i 0).val < win3_3.index ⟨(i 0).val / 400, htN⟩ (0 : Fin 2) * 400 + 400
      rw [e0]; show (i 0).val / 400 * 400 ≤ (i 0).val ∧ (i 0).val < (i 0).val / 400 * 400 + 400; omega
    | ⟨1, _⟩ =>
      show win3_3.index ⟨(i 0).val / 400, htN⟩ (1 : Fin 2) * 16 ≤ (i 1).val
        ∧ (i 1).val < win3_3.index ⟨(i 0).val / 400, htN⟩ (1 : Fin 2) * 16 + 16
      rw [e1]; omega

end Values

end Cert.KernelIdeal.Body

end
-- ==== Proof.KernelIdeal.Reshapes.lean ====
/-
  The two reshapes between the [10000, 16] and the [1250, 128] layouts of the same 160000 numbers, read at an index.
  A reshape keeps the row-major position: entry (a, b) of the [1250, 128] array is at position 128 * a + b, which in
  the [10000, 16] array is row (128 * a + b) / 16, column (128 * a + b) % 16; and entry (p, q) of the [10000, 16]
  array is at position 16 * p + q, which in the [1250, 128] array is row (16 * p + q) / 128, column (16 * p + q) % 128.
-/
import Idealize.ShloMosaic.Lib.ValueIdx
import Idealize.ShloMosaic.Lib.Pipeline.Value

noncomputable section

namespace Cert.KernelIdeal.Body

open Idealize.ShloMosaic Idealize.ShloMosaic.ValueIdx

/-- The [10000, 16] array read as [1250, 128]: entry (a, b) is the entry at row (128 a + b) / 16 and column
    (128 a + b) % 16. -/
theorem logits_as_lanes {α : Type} (L : (⟨2, ![10000, 16]⟩ : Shape).Idx → α)
    (h : (⟨2, ![10000, 16]⟩ : Shape).ShapeCasts ⟨2, ![1250, 128]⟩) (a : Fin 1250) (b : Fin 128) :
    shapeCast ⟨2, ![1250, 128]⟩ L h (ix2 a b)
      = L (ix2 (⟨(128 * a.val + b.val) / 16, by have := a.isLt; have := b.isLt; omega⟩ : Fin 10000)
          (⟨(128 * a.val + b.val) % 16, by omega⟩ : Fin 16)) :=
  shapeCast_apply L h _ _ (by
    rw [Shape.rowMajor_val_two, Shape.rowMajor_val_two]
    show (128 * a.val + b.val) / 16 * 16 + (128 * a.val + b.val) % 16 = a.val * 128 + b.val
    omega)

/-- The [1250, 128] array read as [10000, 16]: entry (p, q) is the entry at row (16 p + q) / 128 and column
    (16 p + q) % 128. -/
theorem lanes_as_rows {α : Type} (A : (⟨2, ![1250, 128]⟩ : Shape).Idx → α)
    (h : (⟨2, ![1250, 128]⟩ : Shape).ShapeCasts ⟨2, ![10000, 16]⟩) (p : Fin 10000) (q : Fin 16) :
    shapeCast ⟨2, ![10000, 16]⟩ A h (ix2 p q)
      = A (ix2 (⟨(16 * p.val + q.val) / 128, by have := p.isLt; have := q.isLt; omega⟩ : Fin 1250)
          (⟨(16 * p.val + q.val) % 128, by omega⟩ : Fin 128)) :=
  shapeCast_apply A h _ _ (by
    rw [Shape.rowMajor_val_two, Shape.rowMajor_val_two]
    show (16 * p.val + q.val) / 128 * 128 + (16 * p.val + q.val) % 128 = p.val * 16 + q.val
    omega)

end Cert.KernelIdeal.Body

end
-- ==== Proof.LibThreeBands.lean ====
/-
  General lemma: three matrices of equal width side by side, read at an index.

  A concatenation along the columns of three matrices of the same shape, read at an index whose column is k, n + k or
  n + n + k with k below the common width n, is the first, second or third piece at column k of the same row.
-/
import Idealize.ShloMosaic.Lib.Pipeline.Value
import Idealize.ShloMosaic.Lib.ValueIdx

noncomputable section

namespace Cert.LibThreeBands

open Idealize.ShloMosaic Idealize.ShloMosaic.ValueIdx

variable {α : Type}

/-- Three matrices of equal width `n` side by side, read where the column is `n · r + k` (r = 0, 1, 2): piece `r` at
    column `k`. -/
theorem concat3_cols_apply {B n N : Nat} (x₀ x₁ x₂ : (⟨2, ![B, n]⟩ : Shape).Idx → α)
    (h : Shape.Concatenates [(⟨2, ![B, n]⟩ : Shape), ⟨2, ![B, n]⟩, ⟨2, ![B, n]⟩] ⟨2, ![B, N]⟩ 1)
    (j : (⟨2, ![B, N]⟩ : Shape).Idx) (p : Fin B) (k : Fin n) (hp : (j 0).val = p.val) :
    ((j 1).val = k.val → concatenate (⟨2, ![B, N]⟩ : Shape) 1 [⟨⟨2, ![B, n]⟩, x₀⟩, ⟨⟨2, ![B, n]⟩, x₁⟩, ⟨⟨2, ![B, n]⟩, x₂⟩] h j = x₀ (ix2 p k))
    ∧ ((j 1).val = n + k.val → concatenate (⟨2, ![B, N]⟩ : Shape) 1 [⟨⟨2, ![B, n]⟩, x₀⟩, ⟨⟨2, ![B, n]⟩, x₁⟩, ⟨⟨2, ![B, n]⟩, x₂⟩] h j = x₁ (ix2 p k))
    ∧ ((j 1).val = n + n + k.val → concatenate (⟨2, ![B, N]⟩ : Shape) 1 [⟨⟨2, ![B, n]⟩, x₀⟩, ⟨⟨2, ![B, n]⟩, x₁⟩, ⟨⟨2, ![B, n]⟩, x₂⟩] h j = x₂ (ix2 p k)) := by
  have hrow : ∀ d : Fin 2, d.cast rfl ≠ (1 : Fin 2) → ((ix2 p k : (⟨2, ![B, n]⟩ : Shape).Idx) d).val = (j (d.cast rfl)).val := fun d hd =>
    match d, hd with
    | ⟨0, _⟩, _ => hp.symm
    | ⟨1, _⟩, hd => absurd rfl hd
  refine ⟨fun e => ?_, fun e => ?_, fun e => ?_⟩
  · exact concatenate_apply_piece 1 [⟨⟨2, ![B, n]⟩, x₀⟩, ⟨⟨2, ![B, n]⟩, x₁⟩, ⟨⟨2, ![B, n]⟩, x₂⟩] h j 0 (by show 0 < 3; omega) _ x₀ rfl rfl 0 (by simp) (ix2 p k) hrow (by show 0 + k.val = (j 1).val; omega)
  · exact concatenate_apply_piece 1 [⟨⟨2, ![B, n]⟩, x₀⟩, ⟨⟨2, ![B, n]⟩, x₁⟩, ⟨⟨2, ![B, n]⟩, x₂⟩] h j 1 (by show 1 < 3; omega) _ x₁ rfl rfl n (by simp) (ix2 p k) hrow (by show n + k.val = (j 1).val; omega)
  · exact concatenate_apply_piece 1 [⟨⟨2, ![B, n]⟩, x₀⟩, ⟨⟨2, ![B, n]⟩, x₁⟩, ⟨⟨2, ![B, n]⟩, x₂⟩] h j 2 (by show 2 < 3; omega) _ x₂ rfl rfl (n + n) (by simp) (ix2 p k) hrow (by show n + n + k.val = (j 1).val; omega)

end Cert.LibThreeBands

end
-- ==== Proof.KernelIdeal.KernelValue.lean ====
/-
  The idealized kernel's value: every weakly fair execution ends with the three result buffers at the specification's
  functions of the launch arguments, and the arguments unchanged.
  The four pallas_calls are chained through what each finds on entry: the support array feeds the first stream over adj,
  whose three outputs are the attention logits, the encoder output (a result as it stands) and the second layer's feature
  product; the logits, relaid as 1250×128, feed the global softmax, whose output relaid as 10000×16 is the attention
  result; the feature product feeds the second stream over adj, whose row-wise log-softmax is the first result.
  The bias vectors enter as 1×16 rows (entry (0, k) of the row is entry k of the vector) and att, We and W2 as the three
  16-column bands of one 16×48 matrix, the middle band being We transposed.
-/
import proofs.«107558_g86887188398718_cont_9to1c4b_243_24_alg».proof.Proof.KernelIdeal.Contents
import proofs.«107558_g86887188398718_cont_9to1c4b_243_24_alg».proof.Proof.KernelIdeal.SupportArray
import proofs.«107558_g86887188398718_cont_9to1c4b_243_24_alg».proof.Proof.KernelIdeal.StreamAArrays
import proofs.«107558_g86887188398718_cont_9to1c4b_243_24_alg».proof.Proof.KernelIdeal.AttentionArray
import proofs.«107558_g86887188398718_cont_9to1c4b_243_24_alg».proof.Proof.KernelIdeal.StreamBArray
import proofs.«107558_g86887188398718_cont_9to1c4b_243_24_alg».proof.Proof.KernelIdeal.Reshapes
import proofs.«107558_g86887188398718_cont_9to1c4b_243_24_alg».proof.Proof.LibThreeBands
import proofs.«107558_g86887188398718_cont_9to1c4b_243_24_alg».proof.Proof.LibFlatten
import proofs.«107558_g86887188398718_cont_9to1c4b_243_24_alg».proof.Proof.GcnSpec
import Idealize.ShloMosaic.Lib.ValueLayout

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)
open Cert.LibFlatten Cert.LibThreeBands
open scoped BigOperators

variable (m : (ℓ : Loc nD τ sig) → Buf (Elt Ideal) ℓ) (c : Dev nD)

/-! ## The launch arguments as functions of their coordinates -/

abbrev argX : Fin 10000 → Fin 128 → EReal := fun i j => (m ((c.tc : Thread nD τ).loc main_arg0)) (ix2 i j)
abbrev argADJ : Fin 10000 → Fin 10000 → EReal := fun i j => (m ((c.tc : Thread nD τ).loc main_arg1)) (ix2 i j)
abbrev argW1 : Fin 128 → Fin 16 → EReal := fun i j => (m ((c.tc : Thread nD τ).loc main_arg2)) (ix2 i j)
abbrev argB1 : Fin 16 → EReal := fun i => (m ((c.tc : Thread nD τ).loc main_arg3)) (ix1 i)
abbrev argW2 : Fin 16 → Fin 16 → EReal := fun i j => (m ((c.tc : Thread nD τ).loc main_arg4)) (ix2 i j)
abbrev argB2 : Fin 16 → EReal := fun i => (m ((c.tc : Thread nD τ).loc main_arg5)) (ix1 i)
abbrev argWE : Fin 16 → Fin 16 → EReal := fun i j => (m ((c.tc : Thread nD τ).loc main_arg6)) (ix2 i j)
abbrev argBE : Fin 16 → EReal := fun i => (m ((c.tc : Thread nD τ).loc main_arg7)) (ix1 i)
abbrev argATT : Fin 16 → Fin 16 → EReal := fun i j => (m ((c.tc : Thread nD τ).loc main_arg8)) (ix2 i j)

/-! ## The first pallas_call -/

theorem support_is : (dat0 (T1 m) c).arrAt 2 cfg0.N = fun i => Cert.GcnSpec.support (argX m c) (argW1 m c) (i 0) (i 1) :=
  support_array (T1 m) c (argX m c) (argW1 m c)
    (fun p k => congrFun (in0_x m c) (ix2 p k)) (fun k q => congrFun (in0_w1 m c) (ix2 k q))

/-! ## What the second pallas_call finds -/

theorem finds1_support (j : Fin 10000) (k : Fin 16) :
    T2 m c main_v5 (ix2 j k) = Cert.GcnSpec.support (argX m c) (argW1 m c) j k :=
  (congrFun (in1_support m c) (ix2 j k)).trans (congrFun (support_is m c) (ix2 j k))

theorem finds1_b1 (k : Fin 16) : T2 m c main_v0 (ix2 (0 : Fin 1) k) = argB1 m c k :=
  (congrFun (in1_b1 m c) (ix2 (0 : Fin 1) k)).trans
    ((congrFun (row_b1 m c) (ix2 (0 : Fin 1) k)).trans (shapeCast_a_1a_apply _ _ (0 : Fin 1) k))

theorem finds1_be (q : Fin 16) : T2 m c main_v2 (ix2 (0 : Fin 1) q) = argBE m c q :=
  (congrFun (in1_be m c) (ix2 (0 : Fin 1) q)).trans
    ((congrFun (row_be m c) (ix2 (0 : Fin 1) q)).trans (shapeCast_a_1a_apply _ _ (0 : Fin 1) q))

theorem finds1_adj (p j : Fin 10000) : T2 m c main_arg1 (ix2 p j) = argADJ m c p j :=
  congrFun (in1_adj m c) (ix2 p j)

theorem finds1_att (k q : Fin 16) :
    T2 m c main_v4 (ix2 k (⟨q.val, by have := q.isLt; omega⟩ : Fin 48)) = argATT m c k q :=
  (congrFun (in1_weights m c) _).trans ((congrFun (weights_side_by_side m c) _).trans
    ((concat3_cols_apply _ _ _ _ (ix2 k (⟨q.val, by have := q.isLt; omega⟩ : Fin 48)) k q rfl).1 rfl))

theorem finds1_we (k q : Fin 16) :
    T2 m c main_v4 (ix2 k (⟨16 + q.val, by have := q.isLt; omega⟩ : Fin 48)) = argWE m c q k :=
  (congrFun (in1_weights m c) _).trans ((congrFun (weights_side_by_side m c) _).trans
    (((concat3_cols_apply _ _ _ _ (ix2 k (⟨16 + q.val, by have := q.isLt; omega⟩ : Fin 48)) k q rfl).2.1 rfl).trans
      (transpose_ix2_apply _ _ k q)))

theorem finds1_w2 (k q : Fin 16) :
    T2 m c main_v4 (ix2 k (⟨32 + q.val, by have := q.isLt; omega⟩ : Fin 48)) = argW2 m c k q :=
  (congrFun (in1_weights m c) _).trans ((congrFun (weights_side_by_side m c) _).trans
    ((concat3_cols_apply _ _ _ _ (ix2 k (⟨32 + q.val, by have := q.isLt; omega⟩ : Fin 48)) k q rfl).2.2
      (by show 32 + q.val = 16 + 16 + q.val; omega)))

/-! ## The second pallas_call's three arrays -/

theorem logits_is : (dat1 (T2 m) c).arrAt 5 cfg1.N
    = fun i => Cert.GcnSpec.logit (argX m c) (argADJ m c) (argW1 m c) (argB1 m c) (argATT m c) (i 0) (i 1) :=
  logits_array (T2 m) c (argX m c) (argADJ m c) (argW1 m c) (argB1 m c)
    (finds1_support m c) (finds1_b1 m c) (finds1_adj m c) (argATT m c) (finds1_att m c)

theorem enc_is : (dat1 (T2 m) c).arrAt 6 cfg1.N
    = fun i => Cert.GcnSpec.enc (argX m c) (argADJ m c) (argW1 m c) (argB1 m c) (argWE m c) (argBE m c) (i 0) (i 1) :=
  enc_array (T2 m) c (argX m c) (argADJ m c) (argW1 m c) (argB1 m c)
    (finds1_support m c) (finds1_b1 m c) (finds1_adj m c) (argWE m c) (argBE m c) (finds1_we m c) (finds1_be m c)

theorem mid_is : (dat1 (T2 m) c).arrAt 7 cfg1.N
    = fun i => Cert.GcnSpec.mid (argX m c) (argADJ m c) (argW1 m c) (argB1 m c) (argW2 m c) (i 0) (i 1) :=
  mid_array (T2 m) c (argX m c) (argADJ m c) (argW1 m c) (argB1 m c)
    (finds1_support m c) (finds1_b1 m c) (finds1_adj m c) (argW2 m c) (finds1_w2 m c)

/-! ## The global softmax -/

/-- The relaid logits: lane (a, b) of the 1250×128 layout is entry 128·a + b of the logits listed row by row. -/
theorem finds2_logits (a : Fin 1250) (b : Fin 128) :
    T4 m c main_v7 (ix2 a b)
      = Cert.GcnSpec.flat (argX m c) (argADJ m c) (argW1 m c) (argB1 m c) (argATT m c) (flatIdx a b) :=
  (congrFun (in2_logits m c) (ix2 a b)).trans
    ((logits_as_lanes _ _ a b).trans (congrFun (logits_is m c) _))

theorem attention_is : (dat2 (T4 m) c).arrAt 1 cfg2.N
    = fun i => Ideal.div (Ideal.exp (Cert.GcnSpec.flat (argX m c) (argADJ m c) (argW1 m c) (argB1 m c) (argATT m c) (flatIdx (i 0) (i 1))
        - Cert.GcnSpec.gmax (argX m c) (argADJ m c) (argW1 m c) (argB1 m c) (argATT m c)))
        (Cert.GcnSpec.gsum (argX m c) (argADJ m c) (argW1 m c) (argB1 m c) (argATT m c)) :=
  attention_array_eq (T4 m) c (argX m c) (argADJ m c) (argW1 m c) (argB1 m c) (argATT m c) (finds2_logits m c)

/-- Entry 16·p + q of the row-by-row list, found through its lane, is the logit at (p, q). -/
theorem flat_of_lane (p : Fin 10000) (q : Fin 16) (h1 : (16 * p.val + q.val) / 128 < 1250) (h2 : (16 * p.val + q.val) % 128 < 128) :
    Cert.GcnSpec.flat (argX m c) (argADJ m c) (argW1 m c) (argB1 m c) (argATT m c)
        (flatIdx ⟨(16 * p.val + q.val) / 128, h1⟩ ⟨(16 * p.val + q.val) % 128, h2⟩)
      = Cert.GcnSpec.logit (argX m c) (argADJ m c) (argW1 m c) (argB1 m c) (argATT m c) p q := by
  unfold Cert.GcnSpec.flat
  have hq := q.isLt
  refine congrArg₂ (Cert.GcnSpec.logit (argX m c) (argADJ m c) (argW1 m c) (argB1 m c) (argATT m c)) (Fin.ext ?_) (Fin.ext ?_)
  · show (128 * ((16 * p.val + q.val) / 128) + (16 * p.val + q.val) % 128) / 16 = p.val; omega
  · show (128 * ((16 * p.val + q.val) / 128) + (16 * p.val + q.val) % 128) % 16 = q.val; omega

/-! ## What the fourth pallas_call finds -/

theorem finds3_mid (j : Fin 10000) (k : Fin 16) :
    T5 m c main_v6_2 (ix2 j k) = Cert.GcnSpec.mid (argX m c) (argADJ m c) (argW1 m c) (argB1 m c) (argW2 m c) j k :=
  (congrFun (in3_mid m c) (ix2 j k)).trans (congrFun (mid_is m c) (ix2 j k))

theorem finds3_b2 (k : Fin 16) : T5 m c main_v1 (ix2 (0 : Fin 1) k) = argB2 m c k :=
  (congrFun (in3_b2 m c) (ix2 (0 : Fin 1) k)).trans
    ((congrFun (row_b2 m c) (ix2 (0 : Fin 1) k)).trans (shapeCast_a_1a_apply _ _ (0 : Fin 1) k))

theorem finds3_adj (p j : Fin 10000) : T5 m c main_arg1 (ix2 p j) = argADJ m c p j :=
  congrFun (in3_adj m c) (ix2 p j)

theorem logSoftmax_is : (dat3 (T5 m) c).arrAt 3 cfg3.N
    = fun i => Cert.GcnSpec.out1 (argX m c) (argADJ m c) (argW1 m c) (argB1 m c) (argW2 m c) (argB2 m c) (i 0) (i 1) :=
  logSoftmax_array (T5 m) c (argX m c) (argADJ m c) (argW1 m c) (argB1 m c) (argW2 m c) (argB2 m c)
    (finds3_mid m c) (finds3_b2 m c) (finds3_adj m c)

/-! ## The three results at the end -/

theorem result_logSoftmax : B7 m c (Proc.devRef .tc main_v9)
    = fun i => Cert.GcnSpec.out1 (argX m c) (argADJ m c) (argW1 m c) (argB1 m c) (argW2 m c) (argB2 m c) (i 0) (i 1) :=
  (end_logSoftmax m c).trans (logSoftmax_is m c)

theorem result_enc : B7 m c (Proc.devRef .tc main_v6_1)
    = fun i => Cert.GcnSpec.enc (argX m c) (argADJ m c) (argW1 m c) (argB1 m c) (argWE m c) (argBE m c) (i 0) (i 1) :=
  (end_enc m c).trans (enc_is m c)

theorem result_attention : (B7 m c (Proc.devRef .tc main_v10) : S10000x16.Idx → Elt Ideal .f32)
    = fun i => Cert.GcnSpec.al (argX m c) (argADJ m c) (argW1 m c) (argB1 m c) (argATT m c) (i 0) (i 1) := by
  rw [end_attention m c]
  funext i
  obtain ⟨p, q, rfl⟩ : ∃ (p : Fin 10000) (q : Fin 16), i = ix2 p q := ⟨i 0, i 1, eq_ix2 i⟩
  refine (lanes_as_rows _ _ p q).trans ((congrFun (attention_is m c) _).trans ?_)
  show Ideal.div (Ideal.exp (Cert.GcnSpec.flat (argX m c) (argADJ m c) (argW1 m c) (argB1 m c) (argATT m c) (flatIdx _ _) - _)) _
    = Cert.GcnSpec.al (argX m c) (argADJ m c) (argW1 m c) (argB1 m c) (argATT m c) p q
  unfold Cert.GcnSpec.al
  exact congrArg (fun z => Ideal.div (Ideal.exp (z - Cert.GcnSpec.gmax (argX m c) (argADJ m c) (argW1 m c) (argB1 m c) (argATT m c)))
    (Cert.GcnSpec.gsum (argX m c) (argADJ m c) (argW1 m c) (argB1 m c) (argATT m c))) (flat_of_lane m c p q _ _)

/-! ## The run, read -/

variable (ρ : Dev nD → PrngReg)

/-- Every weakly fair execution of the idealized kernel terminates, nothing faulting, with the three results at the
    specification's functions of the launch arguments and every argument array as launched. -/
theorem run_spec : θ_run defs (onTc (τ := τ) (main (F := Ideal))) ⟨m, fun _ => 0, ρ⟩ (fun r => ∀ c : Dev nD,
      r.2.mem ((c.tc : Thread nD τ).loc main_v9)
        = (fun i => Cert.GcnSpec.out1 (argX m c) (argADJ m c) (argW1 m c) (argB1 m c) (argW2 m c) (argB2 m c) (i 0) (i 1))
      ∧ r.2.mem ((c.tc : Thread nD τ).loc main_v6_1)
        = (fun i => Cert.GcnSpec.enc (argX m c) (argADJ m c) (argW1 m c) (argB1 m c) (argWE m c) (argBE m c) (i 0) (i 1))
      ∧ r.2.mem ((c.tc : Thread nD τ).loc main_v10)
        = (fun i => Cert.GcnSpec.al (argX m c) (argADJ m c) (argW1 m c) (argB1 m c) (argATT m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v9 (by decide))).trans (result_logSoftmax m c),
      (h c _ (mem_uc main_v6_1 (by decide))).trans (result_enc m c),
      (h c _ (mem_uc main_v10 (by decide))).trans (result_attention m c),
      (h c _ (mem_uc main_arg0 (by decide))).trans (B7_main_arg0 m c),
      (h c _ (mem_uc main_arg1 (by decide))).trans (B7_main_arg1 m c),
      (h c _ (mem_uc main_arg2 (by decide))).trans (B7_main_arg2 m c),
      (h c _ (mem_uc main_arg3 (by decide))).trans (B7_main_arg3 m c),
      (h c _ (mem_uc main_arg4 (by decide))).trans (B7_main_arg4 m c),
      (h c _ (mem_uc main_arg5 (by decide))).trans (B7_main_arg5 m c),
      (h c _ (mem_uc main_arg6 (by decide))).trans (B7_main_arg6 m c),
      (h c _ (mem_uc main_arg7 (by decide))).trans (B7_main_arg7 m c),
      (h c _ (mem_uc main_arg8 (by decide))).trans (B7_main_arg8 m c)⟩)
    (run_all m ρ)

end Cert.KernelIdeal.Body

end
-- ==== Proof.ReferenceRun.lean ====
/-
  The reference's run (every weakly fair execution ends with each result at the composed term of the arguments) and its
  operations read at an index, gathered under one import for the modules that compare the reference with the kernel.
-/
import proofs.«107558_g86887188398718_cont_9to1c4b_243_24_alg».proof.Proof.ReferenceRunRead
import proofs.«107558_g86887188398718_cont_9to1c4b_243_24_alg».proof.Proof.ReferenceReadAt
-- ==== Proof.ReduceAsSup.lean ====
/-
  A maximum-reduction that starts from -∞ is a supremum, and a sum over a one-axis index set is the sum over its
  coordinate. Two shapes occur: the sixteen entries of a row of a [10000, 16] array, and all entries of a
  [160000] array. Over the extended reals the maximum is the lattice's join and -∞ its bottom, so the fold of the
  maximum from -∞ over a finite family IS the family's supremum.
-/
import Mathlib
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.ReduceAsSup

open Idealize.ShloMosaic Idealize.ShloMosaic.ValueIdx

/-- The pattern of the negative infinity denotes the bottom of the extended reals. -/
theorem ofBits_neg_inf_f32 : Ideal.ofBits .f32 0xFF800000#32 = (⊥ : EReal) := by simp [Ideal.ofBits, Ideal.ieee]

/-- The fold of the maximum from -∞ over a finite family of extended reals is the family's supremum. -/
theorem fold_max_bot {ι : Type} [Fintype ι] (f : ι → EReal) :
    (Finset.univ : Finset ι).fold (max : EReal → EReal → EReal) ⊥ f = Finset.univ.sup f := rfl

/-- A row index with the column put back is the pair (row, column). -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The maximum-reduction of a [10000, 16] array along its rows, started from an initial value, at row p: the fold
    of the maximum over the row's sixteen entries. -/
theorem rowReduce_max (x : (⟨2, ![10000, 16]⟩ : Shape).Idx → EReal) (init : (⟨0, ![]⟩ : Shape).Idx → EReal)
    (h' : (⟨2, ![10000, 16]⟩ : Shape).ReducesTo [1] (⟨1, ![10000]⟩ : Shape)) (hu : 0 < (⟨0, ![]⟩ : Shape).numel)
    (p : Fin 10000) :
    Host.reduce (FloatOps.maximumf (F := Ideal) (φ := .f32)) x init h' hu (ix1 p)
      = (Finset.univ : Finset (Fin 16)).fold (max : EReal → EReal → EReal) (init (Shape.Idx.first hu)) (fun q => x (ix2 p q)) := by
  have h : (⟨2, ![10000, 16]⟩ : Shape).Reduces [1] (⟨1, ![10000]⟩ : Shape) := by decide
  rw [Host.reduce_eq_fold_single (FloatOps.maximumf (F := Ideal) (φ := .f32)) x init h' h hu]
  have hf : (x ∘ h.lift (ix1 p)) = fun q : Fin 16 => x (ix2 p q) := funext fun k => congrArg x (lift_row h p k)
  exact congrArg (fun f => Finset.fold (max : EReal → EReal → EReal) (init (Shape.Idx.first hu)) f (Finset.univ : Finset (Fin 16))) hf

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The maximum-reduction of a [160000] array to a scalar, started from an initial value: the fold of the maximum
    over all its entries (every entry reduces to the one scalar index). -/
theorem allReduce_max (x : (⟨1, ![160000]⟩ : Shape).Idx → EReal) (init : (⟨0, ![]⟩ : Shape).Idx → EReal)
    (h' : (⟨1, ![160000]⟩ : Shape).ReducesTo [0] (⟨0, ![]⟩ : Shape)) (hu : 0 < (⟨0, ![]⟩ : Shape).numel)
    (j : (⟨0, ![]⟩ : Shape).Idx) :
    Host.reduce (FloatOps.maximumf (F := Ideal) (φ := .f32)) x init h' hu j
      = (Finset.univ : Finset (Fin 160000)).fold (max : EReal → EReal → EReal) (init (Shape.Idx.first hu)) (fun n => x (ix1 n)) := by
  rw [Host.reduce_eq_fold]
  rw [Finset.filter_true_of_mem (fun i _ => funext fun b => b.elim0)]
  rw [← Finset.map_univ_equiv (idxEquiv1 (n := 160000)).symm, Finset.fold_map]
  rfl

end Cert.ReduceAsSup

end
-- ==== Proof.ReferenceIsSpec.lean ====
/-
  The reference program computes the specification. Each stage of the reference, read at an index, is the
  specification's function of the same name at that index's coordinates: the products are the finite sums, the
  bias rows are read through their two broadcasts, the clamp at zero is the maximum with 0, the maximum-reductions
  from -∞ are suprema, and the flattened array's entry n is the entry (n / 16, n % 16) of the [10000, 16] array,
  so that entry (p, q) of the result read back through the inverse layout is entry p * 16 + q.
-/
import proofs.«107558_g86887188398718_cont_9to1c4b_243_24_alg».proof.Proof.ReferenceRun
import proofs.«107558_g86887188398718_cont_9to1c4b_243_24_alg».proof.Proof.GcnSpec
import proofs.«107558_g86887188398718_cont_9to1c4b_243_24_alg».proof.Proof.ReduceAsSup

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.ReduceAsSup Cert.GcnSpec

/-! ## The index maps of the reference's operations at an index given by its coordinates -/

section Indices
variable (p : Fin 10000) (q : Fin 16)

theorem lidx0 (k : Fin 128) : lidx_main_v0 (ix2 p q) k = ix2 p k := by funext a; fin_cases a <;> rfl
theorem ridx0 (k : Fin 128) : ridx_main_v0 (ix2 p q) k = ix2 k q := by funext a; fin_cases a <;> rfl
theorem lidx1 (k : Fin 10000) : lidx_main_v1 (ix2 p q) k = ix2 p k := by funext a; fin_cases a <;> rfl
theorem ridx1 (k : Fin 10000) : ridx_main_v1 (ix2 p q) k = ix2 k q := by funext a; fin_cases a <;> rfl
theorem idx3 : idx_main_v2 (idx_main_v3 (ix2 p q)) = ix1 q := by funext a; fin_cases a; rfl
theorem lidx6 (k : Fin 16) : lidx_main_v6 (ix2 p q) k = ix2 p k := by funext a; fin_cases a <;> rfl
theorem ridx6 (k : Fin 16) : ridx_main_v6 (ix2 p q) k = ix2 k q := by funext a; fin_cases a <;> rfl
theorem lidx7 (k : Fin 10000) : lidx_main_v7 (ix2 p q) k = ix2 p k := by funext a; fin_cases a <;> rfl
theorem ridx7 (k : Fin 10000) : ridx_main_v7 (ix2 p q) k = ix2 k q := by funext a; fin_cases a <;> rfl
theorem idx9 : idx_main_v8 (idx_main_v9 (ix2 p q)) = ix1 q := by funext a; fin_cases a; rfl
theorem idx11 (k : Fin 16) : idx_main_v11 (ix2 k q) = ix2 q k := by funext a; fin_cases a <;> rfl
theorem lidx12 (k : Fin 16) : lidx_main_v12 (ix2 p q) k = ix2 p k := by funext a; fin_cases a <;> rfl
theorem ridx12 (k : Fin 16) : ridx_main_v12 (ix2 p q) k = ix2 k q := by funext a; fin_cases a <;> rfl
theorem idx14 : idx_main_v13 (idx_main_v14 (ix2 p q)) = ix1 q := by funext a; fin_cases a; rfl
theorem lidx16 (k : Fin 16) : lidx_main_v16 (ix2 p q) k = ix2 p k := by funext a; fin_cases a <;> rfl
theorem ridx16 (k : Fin 16) : ridx_main_v16 (ix2 p q) k = ix2 k q := by funext a; fin_cases a <;> rfl

end Indices

variable (a0 : (⟨S10000x128, .f32⟩ : BufTy).Contents (Elt Ideal)) (a1 : (⟨S10000x10000, .f32⟩ : BufTy).Contents (Elt Ideal)) (a2 : (⟨S128x16, .f32⟩ : BufTy).Contents (Elt Ideal))
  (a3 : (⟨S16, .f32⟩ : BufTy).Contents (Elt Ideal)) (a4 : (⟨S16x16, .f32⟩ : BufTy).Contents (Elt Ideal)) (a5 : (⟨S16, .f32⟩ : BufTy).Contents (Elt Ideal)) (a6 : (⟨S16x16, .f32⟩ : BufTy).Contents (Elt Ideal))
  (a7 : (⟨S16, .f32⟩ : BufTy).Contents (Elt Ideal)) (a8 : (⟨S16x16, .f32⟩ : BufTy).Contents (Elt Ideal))

/-! ## The hidden layer and its three products -/

theorem ref_support (p : Fin 10000) (q : Fin 16) :
    val_main_v0 (F := Ideal) a0 a2 (ix2 p q) = support (fun i j => a0 (ix2 i j)) (fun i j => a2 (ix2 i j)) p q := by
  rw [val_main_v0_apply]
  simp only [lidx0, ridx0]
  rfl

theorem ref_hidden (p : Fin 10000) (q : Fin 16) :
    val_main_v5 (F := Ideal) a0 a1 a2 a3 (ix2 p q) = hidden (fun i j => a0 (ix2 i j)) (fun i j => a1 (ix2 i j)) (fun i j => a2 (ix2 i j)) (fun i => a3 (ix1 i)) p q := by
  rw [val_main_v5_apply, val_main_v4_apply, val_main_v1_apply, val_main_v3_apply, val_main_v2_apply,
    val_main_call0_v0_apply, val_main_call0_cst_apply]
  simp only [Ideal.maximumf_def, Ideal.addf_def, Ideal.ofBits_def, Ideal.ofBits_zero_f32, lidx1, ridx1, idx3, ref_support]
  rfl

theorem ref_logit (p : Fin 10000) (q : Fin 16) :
    val_main_v16 (F := Ideal) a0 a1 a2 a3 a8 (ix2 p q) = logit (fun i j => a0 (ix2 i j)) (fun i j => a1 (ix2 i j)) (fun i j => a2 (ix2 i j)) (fun i => a3 (ix1 i)) (fun i j => a8 (ix2 i j)) p q := by
  rw [val_main_v16_apply]
  simp only [lidx16, ridx16, ref_hidden]
  rfl

theorem ref_mid (p : Fin 10000) (q : Fin 16) :
    val_main_v6 (F := Ideal) a0 a1 a2 a3 a4 (ix2 p q) = mid (fun i j => a0 (ix2 i j)) (fun i j => a1 (ix2 i j)) (fun i j => a2 (ix2 i j)) (fun i => a3 (ix1 i)) (fun i j => a4 (ix2 i j)) p q := by
  rw [val_main_v6_apply]
  simp only [lidx6, ridx6, ref_hidden]
  rfl

/-- SECOND RESULT: the reference's encoder head is the specification's. -/
theorem ref_enc (p : Fin 10000) (q : Fin 16) :
    val_main_v15 (F := Ideal) a0 a1 a2 a3 a6 a7 (ix2 p q) = enc (fun i j => a0 (ix2 i j)) (fun i j => a1 (ix2 i j)) (fun i j => a2 (ix2 i j)) (fun i => a3 (ix1 i)) (fun i j => a6 (ix2 i j)) (fun i => a7 (ix1 i)) p q := by
  rw [val_main_v15_apply, val_main_v12_apply, val_main_v14_apply, val_main_v13_apply]
  simp only [Ideal.addf_def, lidx12, ridx12, val_main_v11_apply, idx11, idx14, ref_hidden]
  rfl

theorem ref_pre2 (p : Fin 10000) (q : Fin 16) :
    val_main_v10 (F := Ideal) a0 a1 a2 a3 a4 a5 (ix2 p q) = pre2 (fun i j => a0 (ix2 i j)) (fun i j => a1 (ix2 i j)) (fun i j => a2 (ix2 i j)) (fun i => a3 (ix1 i)) (fun i j => a4 (ix2 i j)) (fun i => a5 (ix1 i)) p q := by
  rw [val_main_v10_apply, val_main_v7_apply, val_main_v9_apply, val_main_v8_apply]
  simp only [Ideal.addf_def, lidx7, ridx7, idx9, ref_mid]
  rfl

/-! ## The row-wise log-softmax -/

section RowIndices
variable (p : Fin 10000) (q : Fin 16)

theorem idxc4 : idx_main_call1_v3 (idx_main_call1_v4 (ix2 p q)) = ix1 p := by funext a; fin_cases a; rfl
theorem idxc10 : idx_main_call1_v8 (idx_main_call1_v10 (ix2 p q)) = ix1 p := by funext a; fin_cases a; rfl
theorem idxc7 (k : Fin 16) : idx_main_call1_v7 (ix1 p) k = ix2 p k := by funext a; fin_cases a <;> rfl

end RowIndices

theorem ref_rowmax (p : Fin 10000) :
    val_main_call1_v2 (F := Ideal) a0 a1 a2 a3 a4 a5 (ix1 p) = rowmax (fun i j => a0 (ix2 i j)) (fun i j => a1 (ix2 i j)) (fun i j => a2 (ix2 i j)) (fun i => a3 (ix1 i)) (fun i j => a4 (ix2 i j)) (fun i => a5 (ix1 i)) p := by
  rw [val_main_call1_v2_apply, val_main_call1_v1_apply, val_main_call1_cst_0_apply]
  have hr : val_main_call1_v0 (F := Ideal) a0 a1 a2 a3 a4 a5 (ix1 p)
      = (Finset.univ : Finset (Fin 16)).fold (max : EReal → EReal → EReal) ⊥
          (fun q => pre2 (fun i j => a0 (ix2 i j)) (fun i j => a1 (ix2 i j)) (fun i j => a2 (ix2 i j)) (fun i => a3 (ix1 i)) (fun i j => a4 (ix2 i j)) (fun i => a5 (ix1 i)) p q) := by
    unfold val_main_call1_v0
    refine (rowReduce_max _ _ _ _ p).trans ?_
    rw [val_main_call1_cst_apply]
    simp only [Ideal.ofBits_def, ofBits_neg_inf_f32, ref_pre2]
  rw [hr, fold_max_bot]
  simp only [Ideal.maximumf_def, Ideal.ofBits_def, ofBits_neg_inf_f32]
  exact max_eq_right bot_le

/-- FIRST RESULT: the reference's log-softmax is the specification's. -/
theorem ref_out1 (p : Fin 10000) (q : Fin 16) :
    val_main_v29 (F := Ideal) a0 a1 a2 a3 a4 a5 (ix2 p q) = out1 (fun i j => a0 (ix2 i j)) (fun i j => a1 (ix2 i j)) (fun i j => a2 (ix2 i j)) (fun i => a3 (ix1 i)) (fun i j => a4 (ix2 i j)) (fun i => a5 (ix1 i)) p q := by
  rw [val_main_v29_apply, val_main_call1_v5_apply, val_main_call1_v4_apply, val_main_call1_v3_apply,
    val_main_call1_v10_apply, val_main_call1_v9_apply, val_main_call1_v8_apply, val_main_call1_v7_apply,
    val_main_call1_cst_1_apply]
  simp only [idxc4, idxc10, idxc7, ref_rowmax, ref_pre2, val_main_call1_v6_apply, val_main_call1_v5_apply,
    val_main_call1_v4_apply, val_main_call1_v3_apply, Ideal.subf_def, Ideal.hostUnary_exp_def, Ideal.hostUnary_log_def,
    Ideal.ofBits_def, Ideal.ofBits_zero_f32, zero_add]
  rfl

/-! ## The softmax over all 160000 logits -/

theorem idx17 (n : Fin 160000) :
    idx_main_v17 (ix1 n) = ix2 (⟨n.val / 16, by have := n.isLt; omega⟩ : Fin 10000) (⟨n.val % 16, by omega⟩ : Fin 16) := by
  funext a; fin_cases a <;> rfl

theorem idx28 (p : Fin 10000) (q : Fin 16) : idx_main_v17 (idx_main_v28 (ix2 p q)) = ix2 p q := by
  funext a; apply Fin.ext
  fin_cases a
  · show (p.val * 16 + q.val) / 16 = p.val
    have := q.isLt; omega
  · show (p.val * 16 + q.val) % 16 = q.val
    have := q.isLt; omega

theorem ref_flat (n : Fin 160000) :
    val_main_v17 (F := Ideal) a0 a1 a2 a3 a8 (ix1 n) = flat (fun i j => a0 (ix2 i j)) (fun i j => a1 (ix2 i j)) (fun i j => a2 (ix2 i j)) (fun i => a3 (ix1 i)) (fun i j => a8 (ix2 i j)) n := by
  rw [val_main_v17_apply, idx17, ref_logit]
  rfl

theorem ref_gmax (j : S_.Idx) :
    val_main_v19 (F := Ideal) a0 a1 a2 a3 a8 j = gmax (fun i j => a0 (ix2 i j)) (fun i j => a1 (ix2 i j)) (fun i j => a2 (ix2 i j)) (fun i => a3 (ix1 i)) (fun i j => a8 (ix2 i j)) := by
  rw [val_main_v19_apply, val_main_cst_0_apply]
  have hr : val_main_v18 (F := Ideal) a0 a1 a2 a3 a8 j
      = (Finset.univ : Finset (Fin 160000)).fold (max : EReal → EReal → EReal) ⊥ (flat (fun i j => a0 (ix2 i j)) (fun i j => a1 (ix2 i j)) (fun i j => a2 (ix2 i j)) (fun i => a3 (ix1 i)) (fun i j => a8 (ix2 i j))) := by
    unfold val_main_v18
    refine (allReduce_max _ _ _ _ j).trans ?_
    rw [val_main_cst_apply]
    simp only [Ideal.ofBits_def, ofBits_neg_inf_f32, ref_flat]
  rw [hr, fold_max_bot]
  simp only [Ideal.maximumf_def, Ideal.ofBits_def, ofBits_neg_inf_f32]
  exact max_eq_right bot_le

theorem ref_gsum (j : S_.Idx) :
    val_main_v24 (F := Ideal) a0 a1 a2 a3 a8 j = gsum (fun i j => a0 (ix2 i j)) (fun i j => a1 (ix2 i j)) (fun i j => a2 (ix2 i j)) (fun i => a3 (ix1 i)) (fun i j => a8 (ix2 i j)) := by
  rw [val_main_v24_apply, val_main_cst_1_apply, sum_idx1]
  simp only [val_main_v23_apply, val_main_v22_apply, val_main_v21_apply, val_main_v20_apply, ref_gmax, ref_flat,
    Ideal.subf_def, Ideal.hostUnary_exp_def, Ideal.ofBits_def, Ideal.ofBits_zero_f32, zero_add]
  rfl

/-- THIRD RESULT: the reference's softmax over all logits is the specification's. -/
theorem ref_al (p : Fin 10000) (q : Fin 16) :
    val_main_v28 (F := Ideal) a0 a1 a2 a3 a8 (ix2 p q) = al (fun i j => a0 (ix2 i j)) (fun i j => a1 (ix2 i j)) (fun i j => a2 (ix2 i j)) (fun i => a3 (ix1 i)) (fun i j => a8 (ix2 i j)) p q := by
  rw [val_main_v28_apply, val_main_v27_apply, val_main_v26_apply, val_main_v25_apply, ref_gsum, val_main_v23_apply,
    val_main_v22_apply, val_main_v21_apply, val_main_v20_apply, ref_gmax, val_main_v17_apply, idx28, ref_logit]
  simp only [Ideal.hostDivf_def, Ideal.subf_def, Ideal.hostUnary_exp_def]
  rfl

end Cert.ReferenceIdeal.RefValue

end
-- ==== Proof.ReferenceFrameAndValue.lean ====
/-
  The reference as a whole: it runs to the end with its nine argument arrays unchanged, and its three result
  arrays are, entry by entry, the specification's three functions of the argument arrays read by coordinates.
-/
import proofs.«107558_g86887188398718_cont_9to1c4b_243_24_alg».proof.Defs
import proofs.«107558_g86887188398718_cont_9to1c4b_243_24_alg».proof.Proof.Gen.Pre_finite_inputs
import proofs.«107558_g86887188398718_cont_9to1c4b_243_24_alg».proof.Proof.ReferenceRun
import proofs.«107558_g86887188398718_cont_9to1c4b_243_24_alg».proof.Proof.ReferenceIsSpec

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.ReadP

/-- The reference runs and leaves its arguments as they were. -/
theorem ref_frame : Cert.frame_ReferenceIdeal := fun m ρ _ =>
  (θ_run Cert.ReferenceIdeal.defs _ _).mono (fun _ h c => (h c).2.2.2) (Cert.ReferenceIdeal.ValueP.run (F := Ideal) m ρ)

/-- The reference runs, leaves its arguments as they were, and its three results are the specification's
    log-softmax, encoder head and global softmax of the arguments, entry (i 0, i 1) at index i. -/
theorem ref_run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
        = (fun i => Cert.GcnSpec.out1 (fun i j => (m ((c.tc : Thread nD τ).loc main_arg0)) (ix2 i j)) (fun i j => (m ((c.tc : Thread nD τ).loc main_arg1)) (ix2 i j)) (fun i j => (m ((c.tc : Thread nD τ).loc main_arg2)) (ix2 i j)) (fun i => (m ((c.tc : Thread nD τ).loc main_arg3)) (ix1 i)) (fun i j => (m ((c.tc : Thread nD τ).loc main_arg4)) (ix2 i j)) (fun i => (m ((c.tc : Thread nD τ).loc main_arg5)) (ix1 i)) (i 0) (i 1))
      ∧ r.2.mem ((c.tc : Thread nD τ).loc main_v15)
        = (fun i => Cert.GcnSpec.enc (fun i j => (m ((c.tc : Thread nD τ).loc main_arg0)) (ix2 i j)) (fun i j => (m ((c.tc : Thread nD τ).loc main_arg1)) (ix2 i j)) (fun i j => (m ((c.tc : Thread nD τ).loc main_arg2)) (ix2 i j)) (fun i => (m ((c.tc : Thread nD τ).loc main_arg3)) (ix1 i)) (fun i j => (m ((c.tc : Thread nD τ).loc main_arg6)) (ix2 i j)) (fun i => (m ((c.tc : Thread nD τ).loc main_arg7)) (ix1 i)) (i 0) (i 1))
      ∧ r.2.mem ((c.tc : Thread nD τ).loc main_v28)
        = (fun i => Cert.GcnSpec.al (fun i j => (m ((c.tc : Thread nD τ).loc main_arg0)) (ix2 i j)) (fun i j => (m ((c.tc : Thread nD τ).loc main_arg1)) (ix2 i j)) (fun i j => (m ((c.tc : Thread nD τ).loc main_arg2)) (ix2 i j)) (fun i => (m ((c.tc : Thread nD τ).loc main_arg3)) (ix1 i)) (fun i j => (m ((c.tc : Thread nD τ).loc main_arg8)) (ix2 i j)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run Cert.ReferenceIdeal.defs _ _).mono (fun _ h c => ?_) (Cert.ReferenceIdeal.ValueP.run (F := Ideal) m ρ)
  obtain ⟨h29, h15, h28, hargs⟩ := h c
  refine ⟨h29.trans ?_, h15.trans ?_, h28.trans ?_, hargs⟩
  · rw [val_main_v29_eq]
    funext i
    obtain ⟨p, q, rfl⟩ : ∃ (p : Fin 10000) (q : Fin 16), i = ix2 p q := ⟨i 0, i 1, eq_ix2 i⟩
    exact ref_out1 _ _ _ _ _ _ p q
  · rw [val_main_v15_eq]
    funext i
    obtain ⟨p, q, rfl⟩ : ∃ (p : Fin 10000) (q : Fin 16), i = ix2 p q := ⟨i 0, i 1, eq_ix2 i⟩
    exact ref_enc _ _ _ _ _ _ p q
  · rw [val_main_v28_eq]
    funext i
    obtain ⟨p, q, rfl⟩ : ∃ (p : Fin 10000) (q : Fin 16), i = ix2 p q := ⟨i 0, i 1, eq_ix2 i⟩
    exact ref_al _ _ _ _ _ p q

end Cert.ReferenceIdeal.RefValue

end
-- ==== Proof.lean ====
/-
  The certificate of the two-layer graph-convolution kernel against its reference: the word-level kernel and its
  idealization run to the end with their argument arrays unchanged, so does the reference, the idealization rewrote no
  operation, and at the extended reals the idealized kernel and the reference, run from memories that agree on the nine
  arguments, end with equal results.

  The mathematics. With h = max (adj · (x · W1) + b1) 0, the three results are
    the row-wise log-softmax of adj · (h · W2) + b2, in its shifted form (each row less its maximum, less the logarithm of
      the sum of the exponentials of that difference);
    h · Weᵀ + be;
    the softmax over all 160000 entries of h · att (each less the global maximum, exponentiated, divided by the sum of all
      those exponentials), laid out as h · att is.
  The kernel computes them in four pallas_calls: x · W1 whole; a stream over 400-row blocks of adj that forms the block of h
  and multiplies it into the 16×48 matrix [att | Weᵀ | W2], whose three bands are the attention logits, the encoder output
  less its bias, and h · W2; the global softmax on the logits relaid as 1250×128; and a second stream over the same blocks
  of adj for the log-softmax rows. The reference computes the same expressions with host operations on whole arrays.
  Both sides are shown equal, index by index, to one specification over the extended reals: a block product read at an
  index is the plain sum over the contracted coordinate on both sides; a band of the product with the concatenated
  weights is the product with that band's matrix; a maximum or a sum over a relaid array is the maximum or sum over the
  same entries. No law that needs finite entries is used (only sums and suprema over the same index sets, re-indexed by
  bijections), so the precondition is never opened.
-/
import proofs.«107558_g86887188398718_cont_9to1c4b_243_24_alg».proof.Defs
import proofs.«107558_g86887188398718_cont_9to1c4b_243_24_alg».proof.Proof.Gen.Kernel
import proofs.«107558_g86887188398718_cont_9to1c4b_243_24_alg».proof.Proof.Gen.KernelIdeal
import proofs.«107558_g86887188398718_cont_9to1c4b_243_24_alg».proof.Proof.Gen.ReferenceIdeal
import proofs.«107558_g86887188398718_cont_9to1c4b_243_24_alg».proof.Proof.Gen.Pre_finite_inputs
import proofs.«107558_g86887188398718_cont_9to1c4b_243_24_alg».proof.Proof.Kernel.ArgsKept
import proofs.«107558_g86887188398718_cont_9to1c4b_243_24_alg».proof.Proof.KernelIdeal.ArgsKept
import proofs.«107558_g86887188398718_cont_9to1c4b_243_24_alg».proof.Proof.KernelIdeal.KernelValue
import proofs.«107558_g86887188398718_cont_9to1c4b_243_24_alg».proof.Proof.ReferenceFrameAndValue
import Idealize.ShloMosaic.Adequacy
import Idealize.ShloMosaic.Init

noncomputable section

namespace Cert.Proof

open Idealize.ShloMosaic Idealize.SL.Sem Idealize.ShloMosaic.ValueIdx

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Body.frame (F := Bits) m ρ

/-- So does its idealization. -/
theorem frame_kernel_ideal : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The idealization rewrote no operation. -/
theorem preserves : Cert.preserves_Kernel_KernelIdeal := trivial

/-- From memories agreeing on the nine arguments both programs end at the specification's three results of those
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.KernelIdeal.Body.run_spec m ρ, ?_⟩
  refine (θ_run Cert.ReferenceIdeal.defs _ _).mono (fun r h c => ?_) (Cert.ReferenceIdeal.RefValue.ref_run_spec m' ρ')
  obtain ⟨h0, h1, h2, hargs⟩ := h c
  obtain ⟨a0, a1, a2, a3, a4, a5, a6, a7, a8⟩ := hagree c
  refine ⟨?_, ?_, ?_, hargs⟩
  · rw [h0, a0, a1, a2, a3, a4, a5]; rfl
  · rw [h1, a0, a1, a2, a3, a6, a7]; rfl
  · rw [h2, a0, a1, a2, a3, a8]; rfl

theorem claim : Cert.Claim :=
  ⟨Cert.Kernel.Gen.facts, Cert.KernelIdeal.Gen.facts, Cert.ReferenceIdeal.Gen.facts, Cert.Pre_finite_inputs.Gen.facts,
    frame_kernel, frame_kernel_ideal, Cert.ReferenceIdeal.RefValue.ref_frame, preserves, algebraic⟩

end Cert.Proof

end
